-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v58)) (v1 : (c : Dev Cert.KernelIdeal.nD) → Buf (Elt Ideal) ((c.tc : Thread Cert.KernelIdeal.nD Cert.KernelIdeal.τ).loc Cert.KernelIdeal.main_v56)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_v56) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_v78) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S524288 : Shape := ⟨1, ![524288]⟩
abbrev S16384x64 : Shape := ⟨2, ![16384, 64]⟩
abbrev S512x256 : Shape := ⟨2, ![512, 256]⟩
abbrev S256 : Shape := ⟨1, ![256]⟩
abbrev S256x64 : Shape := ⟨2, ![256, 64]⟩
abbrev S64 : Shape := ⟨1, ![64]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S16384x64 : S_.BroadcastsInDim S16384x64 (![] : Fin 0 → Fin S16384x64.rank)
  reducesTo_S16384x64_S_d0_1 : S16384x64.ReducesTo [0, 1] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg9 : FVec F S64 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  main_v38

def fn_part1 {F : FTy → Type} [FloatOps F] (main_arg6 : FVec F S256x64 .f32) (main_arg7 : FVec F S64 .f32) (main_arg8 : FVec F S256x64 .f32) (main_arg9 : FVec F S64 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x64 .f32 := Host.absf main_arg6
  let main_cst_6 : FVec F S_ .f32 := constant S_ .f32 0x7F800000#32
  let main_v20 : FVec F S256x64 .f32 := broadcastInDim S256x64 ![] bcast_S_S256x64 main_cst_6
  let main_v21 : IVec S256x64 1 := cmpf .olt main_v19 main_v20
  let main_c_7 : IVec S_ 1 := constantI S_ 1 1#1
  let main_v22 : IVec S_ 1 := (fun x v => Host.reduce IntOp.andi x v reducesTo_S256x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S256x64 .f32 := Host.absf main_arg8
  let main_cst_10 : FVec F S_ .f32 := constant S_ .f32 0x7F800000#32
  let main_v30 : FVec F S256x64 .f32 := broadcastInDim S256x64 ![] bcast_S_S256x64 main_cst_10
  let main_v31 : IVec S256x64 1 := cmpf .olt main_v29 main_v30
  let main_c_11 : IVec S_ 1 := constantI S_ 1 1#1
  let main_v32 : IVec S_ 1 := (fun x v => Host.reduce IntOp.andi x v reducesTo_S256x64_S_d0_1 h_S_) main_v31 main_c_11
  let main_v33 : IVec S_ 1 := andi main_v28 main_v32
  fn_part2 (F := F) main_arg9 main_v33

def fn {F : FTy → Type} [FloatOps F] (main_arg0 : FVec F S16384x512 .f32) (main_arg1 : IVec S524288 32) (main_arg2 : IVec S524288 32) (main_arg3 : FVec F S16384x64 .f32) (main_arg4 : FVec F S512x256 .f32) (main_arg5 : FVec F S256 .f32) (main_arg6 : FVec F S256x64 .f32) (main_arg7 : FVec F S64 .f32) (main_arg8 : FVec F S256x64 .f32) (main_arg9 : FVec F S64 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S16384x64 .f32 := Host.absf main_arg3
  let main_cst_0 : FVec F S_ .f32 := constant S_ .f32 0x7F800000#32
  let main_v5 : FVec F S16384x64 .f32 := broadcastInDim S16384x64 ![] bcast_S_S16384x64 main_cst_0
  let main_v6 : IVec S16384x64 1 := cmpf .olt main_v4 main_v5
  let main_c_1 : IVec S_ 1 := constantI S_ 1 1#1
  let main_v7 : IVec S_ 1 := (fun x v => Host.reduce IntOp.andi x v reducesTo_S16384x64_S_d0_1 h_S_) main_v6 main_c_1
  let main_v8 : IVec S_ 1 := andi main_v3 main_v7
  let main_v9 : FVec F S512x256 .f32 := Host.absf main_arg4
  let main_cst_2 : FVec F S_ .f32 := constant S_ .f32 0x7F800000#32
  let main_v10 : FVec F S512x256 .f32 := broadcastInDim S512x256 ![] bcast_S_S512x256 main_cst_2
  let main_v11 : IVec S512x256 1 := cmpf .olt main_v9 main_v10
  let main_c_3 : IVec S_ 1 := constantI S_ 1 1#1
  let main_v12 : IVec S_ 1 := (fun x v => Host.reduce IntOp.andi x v reducesTo_S512x256_S_d0_1 h_S_) main_v11 main_c_3
  let main_v13 : IVec S_ 1 := andi main_v8 main_v12
  let main_v14 : FVec F S256 .f32 := Host.absf main_arg5
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg6 main_arg7 main_arg8 main_arg9 main_v13 main_v16
-- ==== Kernel.lean ====
abbrev S16384x512 : Shape := ⟨2, ![16384, 512]⟩
abbrev S524288 : Shape := ⟨1, ![524288]⟩
abbrev S16384x64 : Shape := ⟨2, ![16384, 64]⟩
abbrev S512x256 : Shape := ⟨2, ![512, 256]⟩
abbrev S256 : Shape := ⟨1, ![256]⟩
abbrev S256x64 : Shape := ⟨2, ![256, 64]⟩
abbrev S64 : Shape := ⟨1, ![64]⟩
abbrev S_ : Shape := ⟨0, ![]⟩
abbrev S16384 : Shape := ⟨1, ![16384]⟩
abbrev S524288x1 : Shape := ⟨2, ![524288, 1]⟩
abbrev S16384x1 : Shape := ⟨2, ![16384, 1]⟩
abbrev S16384x256 : Shape := ⟨2, ![16384, 256]⟩
abbrev S2048x512 : Shape := ⟨2, ![2048, 512]⟩
abbrev S2048x1 : Shape := ⟨2, ![2048, 1]⟩
abbrev S2048x256 : Shape := ⟨2, ![2048, 256]⟩
abbrev S524288x256 : Shape := ⟨2, ![524288, 256]⟩
abbrev S1x256 : Shape := ⟨2, ![1, 256]⟩
abbrev S256x128 : Shape := ⟨2, ![256, 128]⟩
abbrev S128 : Shape := ⟨1, ![128]⟩
abbrev S16384x128 : Shape := ⟨2, ![16384, 128]⟩
abbrev S2048x128 : Shape := ⟨2, ![2048, 128]⟩
abbrev S524288x128 : Shape := ⟨2, ![524288, 128]⟩
abbrev S1x128 : Shape := ⟨2, ![1, 128]⟩
abbrev S16384x16384 : Shape := ⟨2, ![16384, 16384]⟩
abbrev S2048x64 : Shape := ⟨2, ![2048, 64]⟩
abbrev S1024x64 : Shape := ⟨2, ![1024, 64]⟩
abbrev S2048x1024 : Shape := ⟨2, ![2048, 1024]⟩
abbrev S64x1024 : Shape := ⟨2, ![64, 1024]⟩

abbrev nBuf : Space → Nat
  | .hbm => 84
  | .vmem => 20
  | .smem => 0
  | _ => 0

abbrev bufTy : (tb : Table) → Fin (tcTables nBuf tb) → BufTy
  | .hbm, ⟨0, _⟩ => ⟨S16384x512, .f32⟩
  | .hbm, ⟨1, _⟩ => ⟨S524288, .i32⟩
  | .hbm, ⟨2, _⟩ => ⟨S524288, .i32⟩
  | .hbm, ⟨3, _⟩ => ⟨S16384x64, .f32⟩
  | .hbm, ⟨4, _⟩ => ⟨S512x256, .f32⟩
  | .hbm, ⟨5, _⟩ => ⟨S256, .f32⟩
  | .hbm, ⟨6, _⟩ => ⟨S256x64, .f32⟩
  | .hbm, ⟨7, _⟩ => ⟨S64, .f32⟩
  | .hbm, ⟨8, _⟩ => ⟨S256x64, .f32⟩
  | .hbm, ⟨9, _⟩ => ⟨S64, .f32⟩
  | .hbm, ⟨10, _⟩ => ⟨S_, .f32⟩
  | .hbm, ⟨11, _⟩ => ⟨S524288, .f32⟩
  | .hbm, ⟨12, _⟩ => ⟨S_, .f32⟩
  | .hbm, ⟨13, _⟩ => ⟨S16384, .f32⟩
  | .hbm, ⟨14, _⟩ => ⟨S524288x1, .i32⟩
  | .hbm, ⟨15, _⟩ => ⟨S16384, .f32⟩
  | .hbm, ⟨16, _⟩ => ⟨S_, .f32⟩
  | .hbm, ⟨17, _⟩ => ⟨S16384, .f32⟩
  | .hbm, ⟨18, _⟩ => ⟨S524288x1, .i32⟩
  | .hbm, ⟨19, _⟩ => ⟨S16384, .f32⟩
  | .hbm, ⟨20, _⟩ => ⟨S_, .f32⟩
  | .hbm, ⟨21, _⟩ => ⟨S16384, .f32⟩
  | .hbm, ⟨22, _⟩ => ⟨S16384, .f32⟩
  | .hbm, ⟨23, _⟩ => ⟨S_, .f32⟩
  | .hbm, ⟨24, _⟩ => ⟨S16384, .f32⟩
  | .hbm, ⟨25, _⟩ => ⟨S16384, .f32⟩
  | .hbm, ⟨26, _⟩ => ⟨S_, .f32⟩
  | .hbm, ⟨27, _⟩ => ⟨S16384, .f32⟩
  | .hbm, ⟨28, _⟩ => ⟨S16384, .f32⟩
  | .hbm, ⟨29, _⟩ => ⟨S_, .f32⟩
  | .hbm, ⟨30, _⟩ => ⟨S16384, .f32⟩
  | .hbm, ⟨31, _⟩ => ⟨S16384, .f32⟩
  | .hbm, ⟨32, _⟩ => ⟨S16384x1, .f32⟩
  | .hbm, ⟨33, _⟩ => ⟨S16384x1, .f32⟩
  | .hbm, ⟨34, _⟩ => ⟨S16384x256, .f32⟩
  | .hbm, ⟨35, _⟩ => ⟨S_, .i32⟩
  | .hbm, ⟨36, _⟩ => ⟨S524288, .i32⟩
  | .hbm, ⟨37, _⟩ => ⟨S524288, .i1⟩
  | .hbm, ⟨38, _⟩ => ⟨S_, .i32⟩
  | .hbm, ⟨39, _⟩ => ⟨S524288, .i32⟩
  | .hbm, ⟨40, _⟩ => ⟨S524288, .i32⟩
  | .hbm, ⟨41, _⟩ => ⟨S524288, .i32⟩
  | .hbm, ⟨42, _⟩ => ⟨S524288x1, .i32⟩
  | .hbm, ⟨43, _⟩ => ⟨S524288x256, .f32⟩
  | .hbm, ⟨44, _⟩ => ⟨S_, .f32⟩
  | .hbm, ⟨45, _⟩ => ⟨S16384x256, .f32⟩
  | .hbm, ⟨46, _⟩ => ⟨S524288x1, .i32⟩
  | .hbm, ⟨47, _⟩ => ⟨S16384x256, .f32⟩
  | .hbm, ⟨48, _⟩ => ⟨S16384x256, .f32⟩
  | .hbm, ⟨49, _⟩ => ⟨S16384x256, .f32⟩
  | .hbm, ⟨50, _⟩ => ⟨S1x256, .f32⟩
  | .hbm, ⟨51, _⟩ => ⟨S16384x256, .f32⟩
  | .hbm, ⟨52, _⟩ => ⟨S16384x256, .f32⟩
  | .hbm, ⟨53, _⟩ => ⟨S_, .f32⟩
  | .hbm, ⟨54, _⟩ => ⟨S16384x256, .f32⟩
  | .hbm, ⟨55, _⟩ => ⟨S16384x256, .f32⟩
  | .hbm, ⟨56, _⟩ => ⟨S256x128, .f32⟩
  | .hbm, ⟨57, _⟩ => ⟨S128, .f32⟩
  | .hbm, ⟨58, _⟩ => ⟨S16384x128, .f32⟩
  | .hbm, ⟨59, _⟩ => ⟨S_, .i32⟩
  | .hbm, ⟨60, _⟩ => ⟨S524288, .i32⟩
  | .hbm, ⟨61, _⟩ => ⟨S524288, .i1⟩
  | .hbm, ⟨62, _⟩ => ⟨S_, .i32⟩
  | .hbm, ⟨63, _⟩ => ⟨S524288, .i32⟩
  | .hbm, ⟨64, _⟩ => ⟨S524288, .i32⟩
  | .hbm, ⟨65, _⟩ => ⟨S524288, .i32⟩
  | .hbm, ⟨66, _⟩ => ⟨S524288x1, .i32⟩
  | .hbm, ⟨67, _⟩ => ⟨S524288x128, .f32⟩
  | .hbm, ⟨68, _⟩ => ⟨S_, .f32⟩
  | .hbm, ⟨69, _⟩ => ⟨S16384x128, .f32⟩
  | .hbm, ⟨70, _⟩ => ⟨S524288x1, .i32⟩
  | .hbm, ⟨71, _⟩ => ⟨S16384x128, .f32⟩
  | .hbm, ⟨72, _⟩ => ⟨S16384x128, .f32⟩
  | .hbm, ⟨73, _⟩ => ⟨S16384x128, .f32⟩
  | .hbm, ⟨74, _⟩ => ⟨S1x128, .f32⟩
  | .hbm, ⟨75, _⟩ => ⟨S16384x128, .f32⟩
  | .hbm, ⟨76, _⟩ => ⟨S16384x128, .f32⟩
  | .hbm, ⟨77, _⟩ => ⟨S16384x64, .f32⟩
  | .hbm, ⟨78, _⟩ => ⟨S16384x64, .f32⟩
  | .hbm, ⟨79, _⟩ => ⟨S16384x64, .f32⟩
  | .hbm, ⟨80, _⟩ => ⟨S16384x64, .f32⟩
  | .hbm, ⟨81, _⟩ => ⟨S16384x64, .f32⟩
  | .hbm, ⟨82, _⟩ => ⟨S16384x64, .bf16⟩
  | .hbm, ⟨83, _⟩ => ⟨S16384x16384, .f32⟩
  | .local _ .vmem, ⟨0, _⟩ => ⟨S2048x512, .f32⟩
  | .local _ .vmem, ⟨1, _⟩ => ⟨S2048x512, .f32⟩
  | .local _ .vmem, ⟨2, _⟩ => ⟨S2048x1, .f32⟩
  | .local _ .vmem, ⟨3, _⟩ => ⟨S2048x1, .f32⟩
  | .local _ .vmem, ⟨4, _⟩ => ⟨S512x256, .f32⟩
  | .local _ .vmem, ⟨5, _⟩ => ⟨S2048x256, .f32⟩
  | .local _ .vmem, ⟨6, _⟩ => ⟨S2048x256, .f32⟩
  | .local _ .vmem, ⟨7, _⟩ => ⟨S2048x256, .f32⟩
  | .local _ .vmem, ⟨8, _⟩ => ⟨S2048x256, .f32⟩
  | .local _ .vmem, ⟨9, _⟩ => ⟨S2048x1, .f32⟩
  | .local _ .vmem, ⟨10, _⟩ => ⟨S2048x1, .f32⟩
  | .local _ .vmem, ⟨11, _⟩ => ⟨S256x128, .f32⟩
  | .local _ .vmem, ⟨12, _⟩ => ⟨S2048x128, .f32⟩
  | .local _ .vmem, ⟨13, _⟩ => ⟨S2048x128, .f32⟩
  | .local _ .vmem, ⟨14, _⟩ => ⟨S2048x64, .bf16⟩
  | .local _ .vmem, ⟨15, _⟩ => ⟨S2048x64, .bf16⟩
  | .local _ .vmem, ⟨16, _⟩ => ⟨S1024x64, .bf16⟩
  | .local _ .vmem, ⟨17, _⟩ => ⟨S1024x64, .bf16⟩
  | .local _ .vmem, ⟨18, _⟩ => ⟨S2048x1024, .f32⟩
  | .local _ .vmem, ⟨19, _⟩ => ⟨S2048x1024, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_cst_0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst_1 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst_2 : Ref sig .tc := ⟨.hbm, 20, rfl⟩
abbrev main_v7 : Ref sig .tc := ⟨.hbm, 21, rfl⟩
abbrev main_v8 : Ref sig .tc := ⟨.hbm, 22, rfl⟩
abbrev main_cst_3 : Ref sig .tc := ⟨.hbm, 23, rfl⟩
abbrev main_v9 : Ref sig .tc := ⟨.hbm, 24, rfl⟩
abbrev main_v10 : Ref sig .tc := ⟨.hbm, 25, rfl⟩
abbrev main_cst_4 : Ref sig .tc := ⟨.hbm, 26, rfl⟩
abbrev main_v11 : Ref sig .tc := ⟨.hbm, 27, rfl⟩
abbrev main_v12 : Ref sig .tc := ⟨.hbm, 28, rfl⟩
abbrev main_cst_5 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_c : Ref sig .tc := ⟨.hbm, 35, rfl⟩
abbrev main_v18 : Ref sig .tc := ⟨.hbm, 36, rfl⟩
abbrev main_v19 : Ref sig .tc := ⟨.hbm, 37, rfl⟩
abbrev main_c_6 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst_7 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_call0_cst : Ref sig .tc := ⟨.hbm, 53, rfl⟩
abbrev main_call0_v0 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_c_8 : Ref sig .tc := ⟨.hbm, 59, rfl⟩
abbrev main_v37 : Ref sig .tc := ⟨.hbm, 60, rfl⟩
abbrev main_v38 : Ref sig .tc := ⟨.hbm, 61, rfl⟩
abbrev main_c_9 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_10 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2048x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨2, ![8, 16], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S2048x64 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1024x64 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S2048x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

class Facts₀ : Prop where
  bcast_S_S524288 : S_.BroadcastsInDim S524288 (![] : Fin 0 → Fin S524288.rank)
  bcast_S_S16384 : S_.BroadcastsInDim S16384 (![] : Fin 0 → Fin S16384.rank)
  bcast_S524288_S524288x1_0 : S524288.BroadcastsInDim S524288x1 (![0] : Fin 1 → Fin S524288x1.rank)
  bcast_S16384_S16384x1_0 : S16384.BroadcastsInDim S16384x1 (![0] : Fin 1 → Fin S16384x1.rank)
  inb_S2048x512_S2048x512_0_0 : ∀ a, (![0, 0] : Fin 2 → Nat) a + S2048x512.size a ≤ S2048x512.size a
  h_S2048x512 : 0 < S2048x512.numel
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  broadcasts_S2048x1_S2048x512 : S2048x1.Broadcasts S2048x512
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  inb_S2048x256_S2048x256_0_0 : ∀ a, (![0, 0] : Fin 2 → Nat) a + S2048x256.size a ≤ S2048x256.size a
  h_S2048x256 : 0 < S2048x256.numel
  bcast_S_S16384x256 : S_.BroadcastsInDim S16384x256 (![] : Fin 0 → Fin S16384x256.rank)
  bcast_S16384x1_S16384x256_0_1 : S16384x1.BroadcastsInDim S16384x256 (![0, 1] : Fin 2 → Fin S16384x256.rank)
  bcast_S256_S1x256_1 : S256.BroadcastsInDim S1x256 (![1] : Fin 1 → Fin S1x256.rank)
  bcast_S1x256_S16384x256_0_1 : S1x256.BroadcastsInDim S16384x256 (![0, 1] : Fin 2 → Fin S16384x256.rank)
  concatenates_S256x64_S256x64_S256x128_d1 : Shape.Concatenates [S256x64, S256x64] S256x128 1
  concatenates_S64_S64_S128_d0 : Shape.Concatenates [S64, S64] S128 0
  shapeCasts_S2048x256_S2048x256 : S2048x256.ShapeCasts S2048x256
  broadcasts_S2048x1_S2048x256 : S2048x1.Broadcasts S2048x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S2048x128_S2048x128_0_0 : ∀ a, (![0, 0] : Fin 2 → Nat) a + S2048x128.size a ≤ S2048x128.size a
  h_S2048x128 : 0 < S2048x128.numel
  bcast_S_S16384x128 : S_.BroadcastsInDim S16384x128 (![] : Fin 0 → Fin S16384x128.rank)
  bcast_S16384x1_S16384x128_0_1 : S16384x1.BroadcastsInDim S16384x128 (![0, 1] : Fin 2 → Fin S16384x128.rank)
  bcast_S128_S1x128_1 : S128.BroadcastsInDim S1x128 (![1] : Fin 1 → Fin S1x128.rank)
  bcast_S1x128_S16384x128_0_1 : S1x128.BroadcastsInDim S16384x128 (![0, 1] : Fin 2 → Fin S16384x128.rank)
  slices_S16384x128_S16384x64_0_0 : S16384x128.Slices ![0, 0] S16384x64
  slices_S16384x128_S16384x64_0_64 : S16384x128.Slices ![0, 64] S16384x64
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  transposes_S1024x64_p1_0_S64x1024 : S1024x64.Transposes [1, 0] S64x1024
  inb_S2048x1024_S2048x1024_0_0 : ∀ a, (![0, 0] : Fin 2 → Nat) a + S2048x1024.size a ≤ S2048x1024.size a
  h_S2048x1024 : 0 < S2048x1024.numel
  scatter_S16384_S524288x1_S524288_n_0_0_1_wf : ScatterDims.WF S16384 S524288x1 S524288 [] [0] [0] 1
  dot_S2048x512_S512x256_S2048x256_1_0_0_1_n_n_wf : DotDims.WF S2048x512 S512x256 S2048x256 [1] [0] [0] [1] [] []
  gather_S16384x256_S524288x1_S524288x256_1_0_n_n_0_1_1256_wf : GatherDims.WF S16384x256 S524288x1 S524288x256 [1] [0] [] [0] [] 1 ![1, 256]
  scatter_S16384x256_S524288x1_S524288x256_1_0_0_1_wf : ScatterDims.WF S16384x256 S524288x1 S524288x256 [1] [0] [0] 1
  dot_S2048x256_S256x128_S2048x128_1_0_0_1_n_n_wf : DotDims.WF S2048x256 S256x128 S2048x128 [1] [0] [0] [1] [] []
  gather_S16384x128_S524288x1_S524288x128_1_0_n_n_0_1_1128_wf : GatherDims.WF S16384x128 S524288x1 S524288x128 [1] [0] [] [0] [] 1 ![1, 128]
  scatter_S16384x128_S524288x1_S524288x128_1_0_0_1_wf : ScatterDims.WF S16384x128 S524288x1 S524288x128 [1] [0] [0] 1
  dot_S2048x64_S64x1024_S2048x1024_1_0_0_1_n_n_wf : DotDims.WF S2048x64 S64x1024 S2048x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S16384x512.size a
  hwx0_0 : ∀ i : grid0.Coords, EltTy.bits .f32 = 32 ∨ (Rect.block (s := S16384x512) S2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1.size a ≤ S16384x1.size a
  hwx0_1 : ∀ i : grid0.Coords, EltTy.bits .f32 = 32 ∨ (Rect.block (s := S16384x1) S2048x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x256.size a ≤ S512x256.size a
  hwx0_2 : ∀ i : grid0.Coords, EltTy.bits .f32 = 32 ∨ (Rect.block (s := S512x256) S512x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x256.size a ≤ S16384x256.size a
  hwx0_3 : ∀ i : grid0.Coords, EltTy.bits .f32 = 32 ∨ (Rect.block (s := S16384x256) S2048x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x256.size a ≤ S16384x256.size a
  hwx1_0 : ∀ i : grid1.Coords, EltTy.bits .f32 = 32 ∨ (Rect.block (s := S16384x256) S2048x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x1.size a ≤ S16384x1.size a
  hwx1_1 : ∀ i : grid1.Coords, EltTy.bits .f32 = 32 ∨ (Rect.block (s := S16384x1) S2048x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x128.size a ≤ S256x128.size a
  hwx1_2 : ∀ i : grid1.Coords, EltTy.bits .f32 = 32 ∨ (Rect.block (s := S256x128) S256x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x128.size a ≤ S16384x128.size a
  hwx1_3 : ∀ i : grid1.Coords, EltTy.bits .f32 = 32 ∨ (Rect.block (s := S16384x128) S2048x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x64.size a ≤ S16384x64.size a
  hwx2_0 : ∀ i : grid2.Coords, EltTy.bits .bf16 = 32 ∨ (Rect.block (s := S16384x64) S2048x64.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x64.size a ≤ S16384x64.size a
  hwx2_1 : ∀ i : grid2.Coords, EltTy.bits .bf16 = 32 ∨ (Rect.block (s := S16384x64) S1024x64.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2048x1024.size a ≤ S16384x16384.size a
  hwx2_2 : ∀ i : grid2.Coords, EltTy.bits .f32 = 32 ∨ (Rect.block (s := S16384x16384) S2048x1024.size (cc2_transform_2 i) (hinb2_2 i)).WholeWords (EltTy.packing .f32)

variable [Facts₀]

def scatter_S16384_S524288x1_S524288_n_0_0_1 : ScatterDims S16384 S524288x1 S524288 where
  updateWindowDims := []
  insertedWindowDims := [0]
  scatterDimsToOperandDims := [0]
  indexVectorDim := 1
  wf := scatter_S16384_S524288x1_S524288_n_0_0_1_wf
def dot_S2048x512_S512x256_S2048x256_1_0_0_1_n_n : DotDims S2048x512 S512x256 S2048x256 where
  lhsContracting := [1]
  rhsContracting := [0]
  lhsNonContracting := [0]
  rhsNonContracting := [1]
  lhsBatch := []
  rhsBatch := []
  wf := dot_S2048x512_S512x256_S2048x256_1_0_0_1_n_n_wf
def gather_S16384x256_S524288x1_S524288x256_1_0_n_n_0_1_1256 : GatherDims S16384x256 S524288x1 S524288x256 where
  offsetDims := [1]
  collapsedSliceDims := [0]
  operandBatchingDims := []
  startIndicesBatchingDims := []
  startIndexMap := [0]
  indexVectorDim := 1
  sliceSizes := ![1, 256]
  wf := gather_S16384x256_S524288x1_S524288x256_1_0_n_n_0_1_1256_wf
def scatter_S16384x256_S524288x1_S524288x256_1_0_0_1 : ScatterDims S16384x256 S524288x1 S524288x256 where
  updateWindowDims := [1]
  insertedWindowDims := [0]
  scatterDimsToOperandDims := [0]
  indexVectorDim := 1
  wf := scatter_S16384x256_S524288x1_S524288x256_1_0_0_1_wf
def dot_S2048x256_S256x128_S2048x128_1_0_0_1_n_n : DotDims S2048x256 S256x128 S2048x128 where
  lhsContracting := [1]
  rhsContracting := [0]
  lhsNonContracting := [0]
  rhsNonContracting := [1]
  lhsBatch := []
  rhsBatch := []
  wf := dot_S2048x256_S256x128_S2048x128_1_0_0_1_n_n_wf
def gather_S16384x128_S524288x1_S524288x128_1_0_n_n_0_1_1128 : GatherDims S16384x128 S524288x1 S524288x128 where
  offsetDims := [1]
  collapsedSliceDims := [0]
  operandBatchingDims := []
  startIndicesBatchingDims := []
  startIndexMap := [0]
  indexVectorDim := 1
  sliceSizes := ![1, 128]
  wf := gather_S16384x128_S524288x1_S524288x128_1_0_n_n_0_1_1128_wf
def scatter_S16384x128_S524288x1_S524288x128_1_0_0_1 : ScatterDims S16384x128 S524288x1 S524288x128 where
  updateWindowDims := [1]
  insertedWindowDims := [0]
  scatterDimsToOperandDims := [0]
  indexVectorDim := 1
  wf := scatter_S16384x128_S524288x1_S524288x128_1_0_0_1_wf
def dot_S2048x64_S64x1024_S2048x1024_1_0_0_1_n_n : DotDims S2048x64 S64x1024 S2048x1024 where
  lhsContracting := [1]
  rhsContracting := [0]
  lhsNonContracting := [0]
  rhsNonContracting := [1]
  lhsBatch := []
  rhsBatch := []
  wf := dot_S2048x64_S64x1024_S2048x1024_1_0_0_1_n_n_wf

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S2048x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S512x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v17) S2048x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v33) S2048x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S2048x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v34) S256x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v36) S2048x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v57) S2048x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v57) S1024x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v58) S2048x1024.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S16384x512 : Shape := ⟨2, ![16384, 512]⟩
abbrev S524288 : Shape := ⟨1, ![524288]⟩
abbrev S16384x64 : Shape := ⟨2, ![16384, 64]⟩
abbrev S512x256 : Shape := ⟨2, ![512, 256]⟩
abbrev S256 : Shape := ⟨1, ![256]⟩
abbrev S256x64 : Shape := ⟨2, ![256, 64]⟩
abbrev S64 : Shape := ⟨1, ![64]⟩
abbrev S_ : Shape := ⟨0, ![]⟩
abbrev S16384 : Shape := ⟨1, ![16384]⟩
abbrev S524288x1 : Shape := ⟨2, ![524288, 1]⟩
abbrev S16384x1 : Shape := ⟨2, ![16384, 1]⟩
abbrev S16384x256 : Shape := ⟨2, ![16384, 256]⟩
abbrev S524288x256 : Shape := ⟨2, ![524288, 256]⟩
abbrev S1x256 : Shape := ⟨2, ![1, 256]⟩
abbrev S524288x64 : Shape := ⟨2, ![524288, 64]⟩
abbrev S1x64 : Shape := ⟨2, ![1, 64]⟩
abbrev S64x16384 : Shape := ⟨2, ![64, 16384]⟩
abbrev S16384x16384 : Shape := ⟨2, ![16384, 16384]⟩

abbrev nBuf : Space → Nat
  | .hbm => 117
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S524288, .i32⟩
  | .hbm, ⟨2, _⟩ => ⟨S524288, .i32⟩
  | .hbm, ⟨3, _⟩ => ⟨S16384x64, .f32⟩
  | .hbm, ⟨4, _⟩ => ⟨S512x256, .f32⟩
  | .hbm, ⟨5, _⟩ => ⟨S256, .f32⟩
  | .hbm, ⟨6, _⟩ => ⟨S256x64, .f32⟩
  | .hbm, ⟨7, _⟩ => ⟨S64, .f32⟩
  | .hbm, ⟨8, _⟩ => ⟨S256x64, .f32⟩
  | .hbm, ⟨9, _⟩ => ⟨S64, .f32⟩
  | .hbm, ⟨10, _⟩ => ⟨S_, .f32⟩
  | .hbm, ⟨11, _⟩ => ⟨S524288, .f32⟩
  | .hbm, ⟨12, _⟩ => ⟨S_, .f32⟩
  | .hbm, ⟨13, _⟩ => ⟨S16384, .f32⟩
  | .hbm, ⟨14, _⟩ => ⟨S524288x1, .i32⟩
  | .hbm, ⟨15, _⟩ => ⟨S16384, .f32⟩
  | .hbm, ⟨16, _⟩ => ⟨S_, .f32⟩
  | .hbm, ⟨17, _⟩ => ⟨S16384, .f32⟩
  | .hbm, ⟨18, _⟩ => ⟨S524288x1, .i32⟩
  | .hbm, ⟨19, _⟩ => ⟨S16384, .f32⟩
  | .hbm, ⟨20, _⟩ => ⟨S_, .f32⟩
  | .hbm, ⟨21, _⟩ => ⟨S16384, .f32⟩
  | .hbm, ⟨22, _⟩ => ⟨S16384, .f32⟩
  | .hbm, ⟨23, _⟩ => ⟨S_, .f32⟩
  | .hbm, ⟨24, _⟩ => ⟨S16384, .f32⟩
  | .hbm, ⟨25, _⟩ => ⟨S16384, .f32⟩
  | .hbm, ⟨26, _⟩ => ⟨S_, .f32⟩
  | .hbm, ⟨27, _⟩ => ⟨S16384, .f32⟩
  | .hbm, ⟨28, _⟩ => ⟨S16384, .f32⟩
  | .hbm, ⟨29, _⟩ => ⟨S_, .f32⟩
  | .hbm, ⟨30, _⟩ => ⟨S16384, .f32⟩
  | .hbm, ⟨31, _⟩ => ⟨S16384, .f32⟩
  | .hbm, ⟨32, _⟩ => ⟨S16384x1, .f32⟩
  | .hbm, ⟨33, _⟩ => ⟨S16384x512, .f32⟩
  | .hbm, ⟨34, _⟩ => ⟨S16384x512, .f32⟩
  | .hbm, ⟨35, _⟩ => ⟨S16384x256, .f32⟩
  | .hbm, ⟨36, _⟩ => ⟨S_, .i32⟩
  | .hbm, ⟨37, _⟩ => ⟨S524288, .i32⟩
  | .hbm, ⟨38, _⟩ => ⟨S524288, .i1⟩
  | .hbm, ⟨39, _⟩ => ⟨S_, .i32⟩
  | .hbm, ⟨40, _⟩ => ⟨S524288, .i32⟩
  | .hbm, ⟨41, _⟩ => ⟨S524288, .i32⟩
  | .hbm, ⟨42, _⟩ => ⟨S524288, .i32⟩
  | .hbm, ⟨43, _⟩ => ⟨S524288x1, .i32⟩
  | .hbm, ⟨44, _⟩ => ⟨S524288x256, .f32⟩
  | .hbm, ⟨45, _⟩ => ⟨S_, .f32⟩
  | .hbm, ⟨46, _⟩ => ⟨S16384x256, .f32⟩
  | .hbm, ⟨47, _⟩ => ⟨S524288x1, .i32⟩
  | .hbm, ⟨48, _⟩ => ⟨S16384x256, .f32⟩
  | .hbm, ⟨49, _⟩ => ⟨S16384x1, .f32⟩
  | .hbm, ⟨50, _⟩ => ⟨S16384x256, .f32⟩
  | .hbm, ⟨51, _⟩ => ⟨S16384x256, .f32⟩
  | .hbm, ⟨52, _⟩ => ⟨S1x256, .f32⟩
  | .hbm, ⟨53, _⟩ => ⟨S16384x256, .f32⟩
  | .hbm, ⟨54, _⟩ => ⟨S16384x256, .f32⟩
  | .hbm, ⟨55, _⟩ => ⟨S_, .f32⟩
  | .hbm, ⟨56, _⟩ => ⟨S16384x256, .f32⟩
  | .hbm, ⟨57, _⟩ => ⟨S16384x256, .f32⟩
  | .hbm, ⟨58, _⟩ => ⟨S16384x1, .f32⟩
  | .hbm, ⟨59, _⟩ => ⟨S16384x256, .f32⟩
  | .hbm, ⟨60, _⟩ => ⟨S16384x256, .f32⟩
  | .hbm, ⟨61, _⟩ => ⟨S16384x64, .f32⟩
  | .hbm, ⟨62, _⟩ => ⟨S_, .i32⟩
  | .hbm, ⟨63, _⟩ => ⟨S524288, .i32⟩
  | .hbm, ⟨64, _⟩ => ⟨S524288, .i1⟩
  | .hbm, ⟨65, _⟩ => ⟨S_, .i32⟩
  | .hbm, ⟨66, _⟩ => ⟨S524288, .i32⟩
  | .hbm, ⟨67, _⟩ => ⟨S524288, .i32⟩
  | .hbm, ⟨68, _⟩ => ⟨S524288, .i32⟩
  | .hbm, ⟨69, _⟩ => ⟨S524288x1, .i32⟩
  | .hbm, ⟨70, _⟩ => ⟨S524288x64, .f32⟩
  | .hbm, ⟨71, _⟩ => ⟨S_, .f32⟩
  | .hbm, ⟨72, _⟩ => ⟨S16384x64, .f32⟩
  | .hbm, ⟨73, _⟩ => ⟨S524288x1, .i32⟩
  | .hbm, ⟨74, _⟩ => ⟨S16384x64, .f32⟩
  | .hbm, ⟨75, _⟩ => ⟨S16384x1, .f32⟩
  | .hbm, ⟨76, _⟩ => ⟨S16384x64, .f32⟩
  | .hbm, ⟨77, _⟩ => ⟨S16384x64, .f32⟩
  | .hbm, ⟨78, _⟩ => ⟨S1x64, .f32⟩
  | .hbm, ⟨79, _⟩ => ⟨S16384x64, .f32⟩
  | .hbm, ⟨80, _⟩ => ⟨S16384x64, .f32⟩
  | .hbm, ⟨81, _⟩ => ⟨S16384x1, .f32⟩
  | .hbm, ⟨82, _⟩ => ⟨S16384x256, .f32⟩
  | .hbm, ⟨83, _⟩ => ⟨S16384x256, .f32⟩
  | .hbm, ⟨84, _⟩ => ⟨S16384x64, .f32⟩
  | .hbm, ⟨85, _⟩ => ⟨S_, .i32⟩
  | .hbm, ⟨86, _⟩ => ⟨S524288, .i32⟩
  | .hbm, ⟨87, _⟩ => ⟨S524288, .i1⟩
  | .hbm, ⟨88, _⟩ => ⟨S_, .i32⟩
  | .hbm, ⟨89, _⟩ => ⟨S524288, .i32⟩
  | .hbm, ⟨90, _⟩ => ⟨S524288, .i32⟩
  | .hbm, ⟨91, _⟩ => ⟨S524288, .i32⟩
  | .hbm, ⟨92, _⟩ => ⟨S524288x1, .i32⟩
  | .hbm, ⟨93, _⟩ => ⟨S524288x64, .f32⟩
  | .hbm, ⟨94, _⟩ => ⟨S_, .f32⟩
  | .hbm, ⟨95, _⟩ => ⟨S16384x64, .f32⟩
  | .hbm, ⟨96, _⟩ => ⟨S524288x1, .i32⟩
  | .hbm, ⟨97, _⟩ => ⟨S16384x64, .f32⟩
  | .hbm, ⟨98, _⟩ => ⟨S16384x1, .f32⟩
  | .hbm, ⟨99, _⟩ => ⟨S16384x64, .f32⟩
  | .hbm, ⟨100, _⟩ => ⟨S16384x64, .f32⟩
  | .hbm, ⟨101, _⟩ => ⟨S1x64, .f32⟩
  | .hbm, ⟨102, _⟩ => ⟨S16384x64, .f32⟩
  | .hbm, ⟨103, _⟩ => ⟨S16384x64, .f32⟩
  | .hbm, ⟨104, _⟩ => ⟨S16384x64, .f32⟩
  | .hbm, ⟨105, _⟩ => ⟨S16384x64, .f32⟩
  | .hbm, ⟨106, _⟩ => ⟨S16384x64, .f32⟩
  | .hbm, ⟨107, _⟩ => ⟨S64x16384, .f32⟩
  | .hbm, ⟨108, _⟩ => ⟨S16384x16384, .f32⟩
  | .hbm, ⟨109, _⟩ => ⟨S16384x16384, .f32⟩
  | .hbm, ⟨110, _⟩ => ⟨S16384x16384, .f32⟩
  | .hbm, ⟨111, _⟩ => ⟨S_, .f32⟩
  | .hbm, ⟨112, _⟩ => ⟨S16384x16384, .f32⟩
  | .hbm, ⟨113, _⟩ => ⟨S16384x16384, .f32⟩
  | .hbm, ⟨114, _⟩ => ⟨S_, .f32⟩
  | .hbm, ⟨115, _⟩ => ⟨S16384x16384, .f32⟩
  | .hbm, ⟨116, _⟩ => ⟨S16384x16384, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_cst_0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst_1 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst_2 : Ref sig .tc := ⟨.hbm, 20, rfl⟩
abbrev main_v7 : Ref sig .tc := ⟨.hbm, 21, rfl⟩
abbrev main_v8 : Ref sig .tc := ⟨.hbm, 22, rfl⟩
abbrev main_cst_3 : Ref sig .tc := ⟨.hbm, 23, rfl⟩
abbrev main_v9 : Ref sig .tc := ⟨.hbm, 24, rfl⟩
abbrev main_v10 : Ref sig .tc := ⟨.hbm, 25, rfl⟩
abbrev main_cst_4 : Ref sig .tc := ⟨.hbm, 26, rfl⟩
abbrev main_v11 : Ref sig .tc := ⟨.hbm, 27, rfl⟩
abbrev main_v12 : Ref sig .tc := ⟨.hbm, 28, rfl⟩
abbrev main_cst_5 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_c : Ref sig .tc := ⟨.hbm, 36, rfl⟩
abbrev main_v19 : Ref sig .tc := ⟨.hbm, 37, rfl⟩
abbrev main_v20 : Ref sig .tc := ⟨.hbm, 38, rfl⟩
abbrev main_c_6 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_cst_7 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_call0_cst : Ref sig .tc := ⟨.hbm, 55, rfl⟩
abbrev main_call0_v0 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_c_8 : Ref sig .tc := ⟨.hbm, 62, rfl⟩
abbrev main_v40 : Ref sig .tc := ⟨.hbm, 63, rfl⟩
abbrev main_v41 : Ref sig .tc := ⟨.hbm, 64, rfl⟩
abbrev main_c_9 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_cst_10 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_c_11 : Ref sig .tc := ⟨.hbm, 85, rfl⟩
abbrev main_v60 : Ref sig .tc := ⟨.hbm, 86, rfl⟩
abbrev main_v61 : Ref sig .tc := ⟨.hbm, 87, rfl⟩
abbrev main_c_12 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_cst_13 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_cst_14 : Ref sig .tc := ⟨.hbm, 111, rfl⟩
abbrev main_v83 : Ref sig .tc := ⟨.hbm, 112, rfl⟩
abbrev main_v84 : Ref sig .tc := ⟨.hbm, 113, rfl⟩
abbrev main_cst_15 : Ref sig .tc := ⟨.hbm, 114, rfl⟩
abbrev main_v85 : Ref sig .tc := ⟨.hbm, 115, rfl⟩
abbrev main_v86 : Ref sig .tc := ⟨.hbm, 116, rfl⟩

abbrev nD : Nat := 1
abbrev τ : Topo := Topo.v7x

variable {F : FTy → Type} [FloatOps F]

class Facts₀ : Prop where
  bcast_S_S524288 : S_.BroadcastsInDim S524288 (![] : Fin 0 → Fin S524288.rank)
  bcast_S_S16384 : S_.BroadcastsInDim S16384 (![] : Fin 0 → Fin S16384.rank)
  bcast_S524288_S524288x1_0 : S524288.BroadcastsInDim S524288x1 (![0] : Fin 1 → Fin S524288x1.rank)
  bcast_S16384_S16384x1_0 : S16384.BroadcastsInDim S16384x1 (![0] : Fin 1 → Fin S16384x1.rank)
  bcast_S16384x1_S16384x512_0_1 : S16384x1.BroadcastsInDim S16384x512 (![0, 1] : Fin 2 → Fin S16384x512.rank)
  bcast_S_S16384x256 : S_.BroadcastsInDim S16384x256 (![] : Fin 0 → Fin S16384x256.rank)
  bcast_S16384x1_S16384x256_0_1 : S16384x1.BroadcastsInDim S16384x256 (![0, 1] : Fin 2 → Fin S16384x256.rank)
  bcast_S256_S1x256_1 : S256.BroadcastsInDim S1x256 (![1] : Fin 1 → Fin S1x256.rank)
  bcast_S1x256_S16384x256_0_1 : S1x256.BroadcastsInDim S16384x256 (![0, 1] : Fin 2 → Fin S16384x256.rank)
  bcast_S_S16384x64 : S_.BroadcastsInDim S16384x64 (![] : Fin 0 → Fin S16384x64.rank)
  bcast_S16384x1_S16384x64_0_1 : S16384x1.BroadcastsInDim S16384x64 (![0, 1] : Fin 2 → Fin S16384x64.rank)
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  transposes_S16384x64_S64x16384_1_0 : S16384x64.Transposes [1, 0] S64x16384
  bcast_S_S16384x16384 : S_.BroadcastsInDim S16384x16384 (![] : Fin 0 → Fin S16384x16384.rank)
  scatter_S16384_S524288x1_S524288_n_0_0_1_wf : ScatterDims.WF S16384 S524288x1 S524288 [] [0] [0] 1
  dot_S16384x512_S512x256_S16384x256_1_0_0_1_n_n_wf : DotDims.WF S16384x512 S512x256 S16384x256 [1] [0] [0] [1] [] []
  gather_S16384x256_S524288x1_S524288x256_1_0_n_n_0_1_1256_wf : GatherDims.WF S16384x256 S524288x1 S524288x256 [1] [0] [] [0] [] 1 ![1, 256]
  scatter_S16384x256_S524288x1_S524288x256_1_0_0_1_wf : ScatterDims.WF S16384x256 S524288x1 S524288x256 [1] [0] [0] 1
  dot_S16384x256_S256x64_S16384x64_1_0_0_1_n_n_wf : DotDims.WF S16384x256 S256x64 S16384x64 [1] [0] [0] [1] [] []
  gather_S16384x64_S524288x1_S524288x64_1_0_n_n_0_1_164_wf : GatherDims.WF S16384x64 S524288x1 S524288x64 [1] [0] [] [0] [] 1 ![1, 64]
  scatter_S16384x64_S524288x1_S524288x64_1_0_0_1_wf : ScatterDims.WF S16384x64 S524288x1 S524288x64 [1] [0] [0] 1
  dot_S16384x64_S64x16384_S16384x16384_1_0_0_1_n_n_wf : DotDims.WF S16384x64 S64x16384 S16384x16384 [1] [0] [0] [1] [] []

variable [Facts₀]

def scatter_S16384_S524288x1_S524288_n_0_0_1 : ScatterDims S16384 S524288x1 S524288 where
  updateWindowDims := []
  insertedWindowDims := [0]
  scatterDimsToOperandDims := [0]
  indexVectorDim := 1
  wf := scatter_S16384_S524288x1_S524288_n_0_0_1_wf
def dot_S16384x512_S512x256_S16384x256_1_0_0_1_n_n : DotDims S16384x512 S512x256 S16384x256 where
  lhsContracting := [1]
  rhsContracting := [0]
  lhsNonContracting := [0]
  rhsNonContracting := [1]
  lhsBatch := []
  rhsBatch := []
  wf := dot_S16384x512_S512x256_S16384x256_1_0_0_1_n_n_wf
def gather_S16384x256_S524288x1_S524288x256_1_0_n_n_0_1_1256 : GatherDims S16384x256 S524288x1 S524288x256 where
  offsetDims := [1]
  collapsedSliceDims := [0]
  operandBatchingDims := []
  startIndicesBatchingDims := []
  startIndexMap := [0]
  indexVectorDim := 1
  sliceSizes := ![1, 256]
  wf := gather_S16384x256_S524288x1_S524288x256_1_0_n_n_0_1_1256_wf
def scatter_S16384x256_S524288x1_S524288x256_1_0_0_1 : ScatterDims S16384x256 S524288x1 S524288x256 where
  updateWindowDims := [1]
  insertedWindowDims := [0]
  scatterDimsToOperandDims := [0]
  indexVectorDim := 1
  wf := scatter_S16384x256_S524288x1_S524288x256_1_0_0_1_wf
def dot_S16384x256_S256x64_S16384x64_1_0_0_1_n_n : DotDims S16384x256 S256x64 S16384x64 where
  lhsContracting := [1]
  rhsContracting := [0]
  lhsNonContracting := [0]
  rhsNonContracting := [1]
  lhsBatch := []
  rhsBatch := []
  wf := dot_S16384x256_S256x64_S16384x64_1_0_0_1_n_n_wf
def gather_S16384x64_S524288x1_S524288x64_1_0_n_n_0_1_164 : GatherDims S16384x64 S524288x1 S524288x64 where
  offsetDims := [1]
  collapsedSliceDims := [0]
  operandBatchingDims := []
  startIndicesBatchingDims := []
  startIndexMap := [0]
  indexVectorDim := 1
  sliceSizes := ![1, 64]
  wf := gather_S16384x64_S524288x1_S524288x64_1_0_n_n_0_1_164_wf
def scatter_S16384x64_S524288x1_S524288x64_1_0_0_1 : ScatterDims S16384x64 S524288x1 S524288x64 where
  updateWindowDims := [1]
  insertedWindowDims := [0]
  scatterDimsToOperandDims := [0]
  indexVectorDim := 1
  wf := scatter_S16384x64_S524288x1_S524288x64_1_0_0_1_wf
def dot_S16384x64_S64x16384_S16384x16384_1_0_0_1_n_n : DotDims S16384x64 S64x16384 S16384x16384 where
  lhsContracting := [1]
  rhsContracting := [0]
  lhsNonContracting := [0]
  rhsNonContracting := [1]
  lhsBatch := []
  rhsBatch := []
  wf := dot_S16384x64_S64x16384_S16384x16384_1_0_0_1_n_n_wf

class Facts : Prop extends Facts₀ where

variable [Facts]
-- ==== Proof.WRegion0.lean ====
/-
  The first projection call, one grid point at a time: the body loads a block of 2048 feature rows, the matching 2048 row scales and the whole 512×256 weight, and stores the 2048×256 product of the scaled rows with the weight. Stated at any float instance and at any contents of the buffers on entry.
-/
import proofs.«110445_j79267916415284_2_alg».proof.Proof.Gen.Kernel.Launch
import proofs.«110445_j79267916415284_2_alg».proof.Proof.Gen.Kernel.Skeleton
import proofs.«110445_j79267916415284_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Rg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the contents of the TensorCore's buffers when this call is entered
variable (V : (c : Dev nD) → (b : Ref sig .tc) → Buf (Elt F) ((c : Thread nD τ).loc b))

/-! ## The blocks the call reads -/

/-- Window `w`'s block at grid point `t`: the rectangle of its array (as the call finds it) that the index map selects. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block of the array at every point, whether the pipeline
    fetched it there or kept it from an earlier point (the block index had not moved). -/
theorem held0_0_of {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)

/-- Input window 1's current staging buffer holds its block of the array at every point, whether the pipeline
    fetched it there or kept it from an earlier point (the block index had not moved). -/
theorem held0_1_of {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)

/-- Input window 2's current staging buffer holds its block of the array at every point, whether the pipeline
    fetched it there or kept it from an earlier point (the block index had not moved). -/
theorem held0_2_of {c : Dev nD} (dat : Dat τ (Elt F) Unit ℕ (UR sig nD τ) ℕ cfg0 c) (hA : dat.A 2 = V c (Pipeline.arrRef spec0 2))
    (hafter : ∀ t, dat.after 2 t = blk0 V c 2 t) (t : Fin cfg0.N) (d) : dat.before 2 t d = blk0 V c 2 t :=
  (dat.before_in_eq_fetched 2 rfl (fun _ => rfl) (fun _ _ _ => rfl) (fun t => by rw [hafter]; unfold Dat.blockOf blk0; rw [hA]; try rfl) t d).trans
    (by unfold Dat.fetched Dat.blockOf blk0; rw [hA]; try rfl)

/-! ## What one grid point stores -/

/-- The body's single store, of the whole output block. -/
abbrev whole0 : Rect S2048x256 := Rect.unit (s := S2048x256) ![0, 0] S2048x256.size inb_S2048x256_S2048x256_0_0

/-- The output block after the body, as a function of the input blocks: the one store's value, the body's
    arithmetic `k0_pay1` of the loaded blocks. -/
def stored0 (x0 : Vec F S2048x512 .f32) (x1 : Vec F S2048x1 .f32) (x2 : Vec F S512x256 .f32) : Vec F S2048x256 .f32 :=
  View.canon [⟨whole0, k0_pay1 (View.ld x0 (Rect.unit (s := S2048x512) ![0, 0] S2048x512.size inb_S2048x512_S2048x512_0_0)) (View.ld x1 (Rect.unit (s := S2048x1) ![0, 0] S2048x1.size inb_S2048x1_S2048x1_0_0)) (View.ld x2 (Rect.unit (s := S512x256) ![0, 0] S512x256.size inb_S512x256_S512x256_0_0))⟩]

/-- That store covers the block. -/
theorem covers0 (p0 : Vec F S2048x256 .f32) (y : S2048x256.Idx) :
    ∃ pc ∈ ([⟨whole0, p0⟩] : List (View.Piece (Elt F) S2048x256 .f32)), y ∈ pc.1.set :=
  View.cover_of_tiled [⟨whole0, p0⟩] S2048x256.size (by rfl) y

/-! ## The body's triple -/

set_option maxHeartbeats 1000000 in
/-- On whole staging buffers — the inputs' at contents `x·`, the output's at anything — the body runs without a fault, leaves
    the inputs' buffers as they were and the output's at `stored0` of the inputs. -/
theorem body_runs0 (c : Dev nD) (E : Set ℕ) (i : grid0.Coords) (a0 : Memref sig .tc .vmem S2048x512 .f32) (ha0 : a0.IsWhole) (a1 : Memref sig .tc .vmem S2048x1 .f32) (ha1 : a1.IsWhole) (a2 : Memref sig .tc .vmem S512x256 .f32) (ha2 : a2.IsWhole) (a3 : Memref sig .tc .vmem S2048x256 .f32) (ha3 : a3.IsWhole)
    (x0 : Vec F S2048x512 .f32) (x1 : Vec F S2048x1 .f32) (x2 : Vec F S512x256 .f32) (Q : PUnit → sProp 𝕄) :
    iprop(owns (c : Thread nD τ) a0 fullShare x0 ∗ owns (c : Thread nD τ) a1 fullShare x1 ∗ owns (c : Thread nD τ) a2 fullShare x2 ∗ (∃ d, owns (c : Thread nD τ) a3 fullShare d)
        ∗ (iprop(owns (c : Thread nD τ) a0 fullShare x0 ∗ owns (c : Thread nD τ) a1 fullShare x1 ∗ owns (c : Thread nD τ) a2 fullShare x2 ∗ owns (c : Thread nD τ) a3 fullShare (stored0 x0 x1 x2)) -∗ Q ⟨⟩))
      ⊢ wp frame (wpE (defs₀ (F := F)) Variants.none c none) E (cc0__proj_kernel i a0 ha0 a1 ha1 a2 ha2 a3 ha3) Q := by
  simp only [cc0__proj_kernel_eq_skeleton]; unfold cc0__proj_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (covers0 _)

/-! ## The call's data: what every buffer holds at every point -/

/-- The arrays are as the call finds them; after the body at point `t` each input's staging buffer still holds its block and the
    output's holds `stored0` of the input blocks; the scoped buffers of the other calls and the generator register ride along
    untouched; nothing is owed to another core. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => stored0 (blk0 V c 0 t) (blk0 V c 1 t) (blk0 V c 2 t)
  Φ _ := Pipeline.ΦA spec0 c
  q _ := fullShare
  owed _ := 0

theorem arr0 (c : Dev nD) (w : Fin cfg0.W) : (dat0 V c).A w = V c (Pipeline.arrRef spec0 w) := by
  dsimp only [dat0]

theorem left0_0 (c : Dev nD) (t : Fin cfg0.N) : (dat0 V c).after 0 t = blk0 V c 0 t := by dsimp only [dat0]
theorem left0_1 (c : Dev nD) (t : Fin cfg0.N) : (dat0 V c).after 1 t = blk0 V c 1 t := by dsimp only [dat0]
theorem left0_2 (c : Dev nD) (t : Fin cfg0.N) : (dat0 V c).after 2 t = blk0 V c 2 t := by dsimp only [dat0]
theorem left0_3 (c : Dev nD) (t : Fin cfg0.N) : (dat0 V c).after 3 t = stored0 (blk0 V c 0 t) (blk0 V c 1 t) (blk0 V c 2 t) := by dsimp only [dat0]

theorem held0_0 (c : Dev nD) (t : Fin cfg0.N) (d) : (dat0 V c).before 0 t d = blk0 V c 0 t :=
  held0_0_of V (dat0 V c) (arr0 V c 0) (left0_0 V c) t d
theorem held0_1 (c : Dev nD) (t : Fin cfg0.N) (d) : (dat0 V c).before 1 t d = blk0 V c 1 t :=
  held0_1_of V (dat0 V c) (arr0 V c 1) (left0_1 V c) t d
theorem held0_2 (c : Dev nD) (t : Fin cfg0.N) (d) : (dat0 V c).before 2 t d = blk0 V c 2 t :=
  held0_2_of V (dat0 V c) (arr0 V c 2) (left0_2 V c) t d

/-! ## The body at a grid point -/

/-- What the pipeline calls the body with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it gets back. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem body_at0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [held0_0, held0_1, held0_2]
  rw [show (dat0 V c).Φ t.succ = (dat0 V c).Φ t.castSucc from rfl,
    show (dat0 V c).owesAt () t.succ = (dat0 V c).owesAt () t.castSucc from rfl,
    left0_0, left0_1, left0_2, left0_3]
  iintro ⟨HΦ, Ho, ⟨%d0, H0⟩, ⟨%d1, H1⟩, ⟨%d2, H2⟩, ⟨%d3, H3⟩⟩
  iapply (body_runs0 c Set.univ _ _ _ _ _ _ _ _ _ (blk0 V c 0 t) (blk0 V c 1 t) (blk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body's obligation to the pipeline, at every point. -/
theorem body_obligation0 (c : Dev nD) : BodyObligation (dat0 (F := F) V c) (defs₀ (F := F)) Variants.none () Set.univ := fun t => by
  rw [bigSep_W0, bigSep_W0]
  exact body_at0 V c t

end Cert.Kernel.Rg

end
-- ==== Proof.WRegion1.lean ====
/-
  The second projection call, one grid point at a time: the body loads a block of 2048 hidden rows, the matching 2048 row scales and the whole 256×128 fused weight, and stores the 2048×128 product of the scaled rows with the weight. Stated at any float instance and at any contents of the buffers on entry.
-/
import proofs.«110445_j79267916415284_2_alg».proof.Proof.Gen.Kernel.Launch
import proofs.«110445_j79267916415284_2_alg».proof.Proof.Gen.Kernel.Skeleton
import proofs.«110445_j79267916415284_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Rg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the contents of the TensorCore's buffers when this call is entered
variable (V : (c : Dev nD) → (b : Ref sig .tc) → Buf (Elt F) ((c : Thread nD τ).loc b))

/-! ## The blocks the call reads -/

/-- Window `w`'s block at grid point `t`: the rectangle of its array (as the call finds it) that the index map selects. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block of the array at every point, whether the pipeline
    fetched it there or kept it from an earlier point (the block index had not moved). -/
theorem held1_0_of {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)

/-- Input window 1's current staging buffer holds its block of the array at every point, whether the pipeline
    fetched it there or kept it from an earlier point (the block index had not moved). -/
theorem held1_1_of {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)

/-- Input window 2's current staging buffer holds its block of the array at every point, whether the pipeline
    fetched it there or kept it from an earlier point (the block index had not moved). -/
theorem held1_2_of {c : Dev nD} (dat : Dat τ (Elt F) Unit ℕ (UR sig nD τ) ℕ cfg1 c) (hA : dat.A 2 = V c (Pipeline.arrRef spec1 2))
    (hafter : ∀ t, dat.after 2 t = blk1 V c 2 t) (t : Fin cfg1.N) (d) : dat.before 2 t d = blk1 V c 2 t :=
  (dat.before_in_eq_fetched 2 rfl (fun _ => rfl) (fun _ _ _ => rfl) (fun t => by rw [hafter]; unfold Dat.blockOf blk1; rw [hA]; try rfl) t d).trans
    (by unfold Dat.fetched Dat.blockOf blk1; rw [hA]; try rfl)

/-! ## What one grid point stores -/

/-- The body's single store, of the whole output block. -/
abbrev whole1 : Rect S2048x128 := Rect.unit (s := S2048x128) ![0, 0] S2048x128.size inb_S2048x128_S2048x128_0_0

/-- The output block after the body, as a function of the input blocks: the one store's value, the body's
    arithmetic `k1_pay1` of the loaded blocks. -/
def stored1 (x0 : Vec F S2048x256 .f32) (x1 : Vec F S2048x1 .f32) (x2 : Vec F S256x128 .f32) : Vec F S2048x128 .f32 :=
  View.canon [⟨whole1, k1_pay1 (View.ld x0 (Rect.unit (s := S2048x256) ![0, 0] S2048x256.size inb_S2048x256_S2048x256_0_0)) (View.ld x1 (Rect.unit (s := S2048x1) ![0, 0] S2048x1.size inb_S2048x1_S2048x1_0_0)) (View.ld x2 (Rect.unit (s := S256x128) ![0, 0] S256x128.size inb_S256x128_S256x128_0_0))⟩]

/-- That store covers the block. -/
theorem covers1 (p0 : Vec F S2048x128 .f32) (y : S2048x128.Idx) :
    ∃ pc ∈ ([⟨whole1, p0⟩] : List (View.Piece (Elt F) S2048x128 .f32)), y ∈ pc.1.set :=
  View.cover_of_tiled [⟨whole1, p0⟩] S2048x128.size (by rfl) y

/-! ## The body's triple -/

set_option maxHeartbeats 1000000 in
/-- On whole staging buffers — the inputs' at contents `x·`, the output's at anything — the body runs without a fault, leaves
    the inputs' buffers as they were and the output's at `stored1` of the inputs. -/
theorem body_runs1 (c : Dev nD) (E : Set ℕ) (i : grid1.Coords) (a0 : Memref sig .tc .vmem S2048x256 .f32) (ha0 : a0.IsWhole) (a1 : Memref sig .tc .vmem S2048x1 .f32) (ha1 : a1.IsWhole) (a2 : Memref sig .tc .vmem S256x128 .f32) (ha2 : a2.IsWhole) (a3 : Memref sig .tc .vmem S2048x128 .f32) (ha3 : a3.IsWhole)
    (x0 : Vec F S2048x256 .f32) (x1 : Vec F S2048x1 .f32) (x2 : Vec F S256x128 .f32) (Q : PUnit → sProp 𝕄) :
    iprop(owns (c : Thread nD τ) a0 fullShare x0 ∗ owns (c : Thread nD τ) a1 fullShare x1 ∗ owns (c : Thread nD τ) a2 fullShare x2 ∗ (∃ d, owns (c : Thread nD τ) a3 fullShare d)
        ∗ (iprop(owns (c : Thread nD τ) a0 fullShare x0 ∗ owns (c : Thread nD τ) a1 fullShare x1 ∗ owns (c : Thread nD τ) a2 fullShare x2 ∗ owns (c : Thread nD τ) a3 fullShare (stored1 x0 x1 x2)) -∗ Q ⟨⟩))
      ⊢ wp frame (wpE (defs₀ (F := F)) Variants.none c none) E (cc1__proj_kernel i a0 ha0 a1 ha1 a2 ha2 a3 ha3) Q := by
  simp only [cc1__proj_kernel_eq_skeleton]; unfold cc1__proj_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (covers1 _)

/-! ## The call's data: what every buffer holds at every point -/

/-- The arrays are as the call finds them; after the body at point `t` each input's staging buffer still holds its block and the
    output's holds `stored1` of the input blocks; the scoped buffers of the other calls and the generator register ride along
    untouched; nothing is owed to another core. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => stored1 (blk1 V c 0 t) (blk1 V c 1 t) (blk1 V c 2 t)
  Φ _ := Pipeline.ΦA spec1 c
  q _ := fullShare
  owed _ := 0

theorem arr1 (c : Dev nD) (w : Fin cfg1.W) : (dat1 V c).A w = V c (Pipeline.arrRef spec1 w) := by
  dsimp only [dat1]

theorem left1_0 (c : Dev nD) (t : Fin cfg1.N) : (dat1 V c).after 0 t = blk1 V c 0 t := by dsimp only [dat1]
theorem left1_1 (c : Dev nD) (t : Fin cfg1.N) : (dat1 V c).after 1 t = blk1 V c 1 t := by dsimp only [dat1]
theorem left1_2 (c : Dev nD) (t : Fin cfg1.N) : (dat1 V c).after 2 t = blk1 V c 2 t := by dsimp only [dat1]
theorem left1_3 (c : Dev nD) (t : Fin cfg1.N) : (dat1 V c).after 3 t = stored1 (blk1 V c 0 t) (blk1 V c 1 t) (blk1 V c 2 t) := by dsimp only [dat1]

theorem held1_0 (c : Dev nD) (t : Fin cfg1.N) (d) : (dat1 V c).before 0 t d = blk1 V c 0 t :=
  held1_0_of V (dat1 V c) (arr1 V c 0) (left1_0 V c) t d
theorem held1_1 (c : Dev nD) (t : Fin cfg1.N) (d) : (dat1 V c).before 1 t d = blk1 V c 1 t :=
  held1_1_of V (dat1 V c) (arr1 V c 1) (left1_1 V c) t d
theorem held1_2 (c : Dev nD) (t : Fin cfg1.N) (d) : (dat1 V c).before 2 t d = blk1 V c 2 t :=
  held1_2_of V (dat1 V c) (arr1 V c 2) (left1_2 V c) t d

/-! ## The body at a grid point -/

/-- What the pipeline calls the body with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it gets back. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem body_at1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [held1_0, held1_1, held1_2]
  rw [show (dat1 V c).Φ t.succ = (dat1 V c).Φ t.castSucc from rfl,
    show (dat1 V c).owesAt () t.succ = (dat1 V c).owesAt () t.castSucc from rfl,
    left1_0, left1_1, left1_2, left1_3]
  iintro ⟨HΦ, Ho, ⟨%d0, H0⟩, ⟨%d1, H1⟩, ⟨%d2, H2⟩, ⟨%d3, H3⟩⟩
  iapply (body_runs1 c Set.univ _ _ _ _ _ _ _ _ _ (blk1 V c 0 t) (blk1 V c 1 t) (blk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body's obligation to the pipeline, at every point. -/
theorem body_obligation1 (c : Dev nD) : BodyObligation (dat1 (F := F) V c) (defs₀ (F := F)) Variants.none () Set.univ := fun t => by
  rw [bigSep_W1, bigSep_W1]
  exact body_at1 V c t

end Cert.Kernel.Rg

end
-- ==== Proof.WRegion2.lean ====
/-
  The decode call, one grid point at a time: the body loads a block of 2048 rows and a block of 1024 rows of the one latent array, and stores the logistic function of their 2048×1024 matrix of inner products. Both input windows read the same array, so each holds it at half a share. Stated at any float instance and at any contents of the buffers on entry.
-/
import proofs.«110445_j79267916415284_2_alg».proof.Proof.Gen.Kernel.Launch
import proofs.«110445_j79267916415284_2_alg».proof.Proof.Gen.Kernel.Skeleton
import proofs.«110445_j79267916415284_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Rg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the contents of the TensorCore's buffers when this call is entered
variable (V : (c : Dev nD) → (b : Ref sig .tc) → Buf (Elt F) ((c : Thread nD τ).loc b))

/-! ## The blocks the call reads -/

/-- Window `w`'s block at grid point `t`: the rectangle of its array (as the call finds it) that the index map selects. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block of the array at every point, whether the pipeline
    fetched it there or kept it from an earlier point (the block index had not moved). -/
theorem held2_0_of {c : Dev nD} (dat : Dat τ (Elt F) Unit ℕ (UR sig nD τ) ℕ cfg2 c) (hA : dat.A 0 = V c (Pipeline.arrRef spec2 0))
    (hafter : ∀ t, dat.after 0 t = blk2 V c 0 t) (t : Fin cfg2.N) (d) : dat.before 0 t d = blk2 V c 0 t :=
  (dat.before_in_eq_fetched 0 rfl (fun _ => rfl) (fun _ _ _ => rfl) (fun t => by rw [hafter]; unfold Dat.blockOf blk2; rw [hA]; try rfl) t d).trans
    (by unfold Dat.fetched Dat.blockOf blk2; rw [hA]; try rfl)

/-- Input window 1's current staging buffer holds its block of the array at every point, whether the pipeline
    fetched it there or kept it from an earlier point (the block index had not moved). -/
theorem held2_1_of {c : Dev nD} (dat : Dat τ (Elt F) Unit ℕ (UR sig nD τ) ℕ cfg2 c) (hA : dat.A 1 = V c (Pipeline.arrRef spec2 1))
    (hafter : ∀ t, dat.after 1 t = blk2 V c 1 t) (t : Fin cfg2.N) (d) : dat.before 1 t d = blk2 V c 1 t :=
  (dat.before_in_eq_fetched 1 rfl (fun _ => rfl) (fun _ _ _ => rfl) (fun t => by rw [hafter]; unfold Dat.blockOf blk2; rw [hA]; try rfl) t d).trans
    (by unfold Dat.fetched Dat.blockOf blk2; rw [hA]; try rfl)

/-! ## What one grid point stores -/

/-- The body's single store, of the whole output block. -/
abbrev whole2 : Rect S2048x1024 := Rect.unit (s := S2048x1024) ![0, 0] S2048x1024.size inb_S2048x1024_S2048x1024_0_0

/-- The output block after the body, as a function of the input blocks: the one store's value, the body's
    arithmetic `k2_pay1` of the loaded blocks. -/
def stored2 (x0 : Vec F S2048x64 .bf16) (x1 : Vec F S1024x64 .bf16) : Vec F S2048x1024 .f32 :=
  View.canon [⟨whole2, k2_pay1 (View.ld x0 (Rect.unit (s := S2048x64) ![0, 0] S2048x64.size inb_S2048x64_S2048x64_0_0)) (View.ld x1 (Rect.unit (s := S1024x64) ![0, 0] S1024x64.size inb_S1024x64_S1024x64_0_0))⟩]

/-- That store covers the block. -/
theorem covers2 (p0 : Vec F S2048x1024 .f32) (y : S2048x1024.Idx) :
    ∃ pc ∈ ([⟨whole2, p0⟩] : List (View.Piece (Elt F) S2048x1024 .f32)), y ∈ pc.1.set :=
  View.cover_of_tiled [⟨whole2, p0⟩] S2048x1024.size (by rfl) y

/-! ## The body's triple -/

set_option maxHeartbeats 1000000 in
/-- On whole staging buffers — the inputs' at contents `x·`, the output's at anything — the body runs without a fault, leaves
    the inputs' buffers as they were and the output's at `stored2` of the inputs. -/
theorem body_runs2 (c : Dev nD) (E : Set ℕ) (i : grid2.Coords) (a0 : Memref sig .tc .vmem S2048x64 .bf16) (ha0 : a0.IsWhole) (a1 : Memref sig .tc .vmem S1024x64 .bf16) (ha1 : a1.IsWhole) (a2 : Memref sig .tc .vmem S2048x1024 .f32) (ha2 : a2.IsWhole)
    (x0 : Vec F S2048x64 .bf16) (x1 : Vec F S1024x64 .bf16) (Q : PUnit → sProp 𝕄) :
    iprop(owns (c : Thread nD τ) a0 fullShare x0 ∗ owns (c : Thread nD τ) a1 fullShare x1 ∗ (∃ d, owns (c : Thread nD τ) a2 fullShare d)
        ∗ (iprop(owns (c : Thread nD τ) a0 fullShare x0 ∗ owns (c : Thread nD τ) a1 fullShare x1 ∗ owns (c : Thread nD τ) a2 fullShare (stored2 x0 x1)) -∗ Q ⟨⟩))
      ⊢ wp frame (wpE (defs₀ (F := F)) Variants.none c none) E (cc2__decode_kernel i a0 ha0 a1 ha1 a2 ha2) Q := by
  simp only [cc2__decode_kernel_eq_skeleton]; unfold cc2__decode_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (covers2 _)

/-! ## The call's data: what every buffer holds at every point -/

/-- The arrays are as the call finds them; after the body at point `t` each input's staging buffer still holds its block and the
    output's holds `stored2` of the input blocks; the scoped buffers of the other calls and the generator register ride along
    untouched; nothing is owed to another core. -/
def dat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => stored2 (blk2 V c 0 t) (blk2 V c 1 t)
  Φ _ := Pipeline.ΦA spec2 c
  q w := match w with
    | ⟨0, _⟩ => fullShare.left
    | ⟨1, _⟩ => fullShare.right
    | _ => fullShare
  owed _ := 0

theorem arr2 (c : Dev nD) (w : Fin cfg2.W) : (dat2 V c).A w = V c (Pipeline.arrRef spec2 w) := by
  dsimp only [dat2]

theorem left2_0 (c : Dev nD) (t : Fin cfg2.N) : (dat2 V c).after 0 t = blk2 V c 0 t := by dsimp only [dat2]
theorem left2_1 (c : Dev nD) (t : Fin cfg2.N) : (dat2 V c).after 1 t = blk2 V c 1 t := by dsimp only [dat2]
theorem left2_2 (c : Dev nD) (t : Fin cfg2.N) : (dat2 V c).after 2 t = stored2 (blk2 V c 0 t) (blk2 V c 1 t) := by dsimp only [dat2]

theorem held2_0 (c : Dev nD) (t : Fin cfg2.N) (d) : (dat2 V c).before 0 t d = blk2 V c 0 t :=
  held2_0_of V (dat2 V c) (arr2 V c 0) (left2_0 V c) t d
theorem held2_1 (c : Dev nD) (t : Fin cfg2.N) (d) : (dat2 V c).before 1 t d = blk2 V c 1 t :=
  held2_1_of V (dat2 V c) (arr2 V c 1) (left2_1 V c) t d

/-! ## The body at a grid point -/

/-- What the pipeline calls the body with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it gets back. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

theorem body_at2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [held2_0, held2_1]
  rw [show (dat2 V c).Φ t.succ = (dat2 V c).Φ t.castSucc from rfl,
    show (dat2 V c).owesAt () t.succ = (dat2 V c).owesAt () t.castSucc from rfl,
    left2_0, left2_1, left2_2]
  iintro ⟨HΦ, Ho, ⟨%d0, H0⟩, ⟨%d1, H1⟩, ⟨%d2, H2⟩⟩
  iapply (body_runs2 c Set.univ _ _ _ _ _ _ _ (blk2 V c 0 t) (blk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body's obligation to the pipeline, at every point. -/
theorem body_obligation2 (c : Dev nD) : BodyObligation (dat2 (F := F) V c) (defs₀ (F := F)) Variants.none () Set.univ := fun t => by
  rw [bigSep_W2, bigSep_W2]
  exact body_at2 V c t

end Cert.Kernel.Rg

end
-- ==== Proof.WBetween.lean ====
/-
  The three calls in sequence. Between two items of the program every buffer of the core that no call scopes is held whole at
  known contents: the launch memory pushed through the host operations so far, with each call's result array replaced by what
  that call's grid points wrote back. Each call is entered from that state, splits its windows' arrays out of it, runs its
  pipeline, and puts the arrays back. The decode call reads ONE array through two windows; it holds that array as two half
  shares, one per window, split at entry and rejoined at exit. Stated at any float instance.
-/
import proofs.«110445_j79267916415284_2_alg».proof.Proof.WRegion0
import proofs.«110445_j79267916415284_2_alg».proof.Proof.WRegion1
import proofs.«110445_j79267916415284_2_alg».proof.Proof.WRegion2
import proofs.«110445_j79267916415284_2_alg».proof.Proof.Gen.Kernel.Regions

set_option maxRecDepth 16384

noncomputable section

namespace Cert.Kernel.Rg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## What each call leaves in its result array -/

/-- The three result arrays' contents after their calls, as one family; every other buffer is never asked for. -/
def leaves (A0 : (c : Dev nD) → Buf (Elt F) ((c : Thread nD τ).loc main_v17)) (A1 : (c : Dev nD) → Buf (Elt F) ((c : Thread nD τ).loc main_v36))
    (A2 : (c : Dev nD) → Buf (Elt F) ((c : Thread nD τ).loc main_v58)) : Outs (F := F) := fun _ r c =>
  if h17 : r = main_v17 then by subst h17; exact A0 c
  else if h36 : r = main_v36 then by subst h36; exact A1 c
  else if h58 : r = main_v58 then by subst h58; exact A2 c
  else m ((c : Thread nD τ).loc r)

theorem leaves_17 (A0 A1 A2) (J : ℕ) (c : Dev nD) : leaves m A0 A1 A2 J main_v17 c = A0 c := by
  unfold leaves; rw [dif_pos rfl]
theorem leaves_36 (A0 A1 A2) (J : ℕ) (c : Dev nD) : leaves m A0 A1 A2 J main_v36 c = A1 c := by
  unfold leaves; rw [dif_neg (by decide), dif_pos rfl]
theorem leaves_58 (A0 A1 A2) (J : ℕ) (c : Dev nD) : leaves m A0 A1 A2 J main_v58 c = A2 c := by
  unfold leaves; rw [dif_neg (by decide), dif_neg (by decide), dif_pos rfl]

/-- The first call is entered from the launch memory after the first stretch of host operations. -/
abbrev In0 : (c : Dev nD) → (b : Ref sig .tc) → Buf (Elt F) ((c : Thread nD τ).loc b) := fun c b => V1 m c b
/-- What the first call leaves in its result array: its grid points' blocks, written back one by one. -/
def res0 (c : Dev nD) : Buf (Elt F) ((c : Thread nD τ).loc main_v17) := (dat0 (In0 m) c).arrAt 3 cfg0.N
abbrev leavesA : Outs (F := F) := leaves m (res0 m) (fun c => m ((c : Thread nD τ).loc main_v36)) (fun c => m ((c : Thread nD τ).loc main_v58))
/-- The second call is entered after the host operations between the calls, which read the first call's result. -/
abbrev In1 : (c : Dev nD) → (b : Ref sig .tc) → Buf (Elt F) ((c : Thread nD τ).loc b) := fun c b => V5 m (leavesA m) c b
def res1 (c : Dev nD) : Buf (Elt F) ((c : Thread nD τ).loc main_v36) := (dat1 (In1 m) c).arrAt 3 cfg1.N
abbrev leavesB : Outs (F := F) := leaves m (res0 m) (res1 m) (fun c => m ((c : Thread nD τ).loc main_v58))
abbrev In2 : (c : Dev nD) → (b : Ref sig .tc) → Buf (Elt F) ((c : Thread nD τ).loc b) := fun c b => V7 m (leavesB m) c b
def res2 (c : Dev nD) : Buf (Elt F) ((c : Thread nD τ).loc main_v58) := (dat2 (In2 m) c).arrAt 2 cfg2.N
/-- All three. -/
abbrev leavesC : Outs (F := F) := leaves m (res0 m) (res1 m) (res2 m)

/-- The contents between items depend on the family only through the result arrays already written. -/
theorem V5_leaves (c : Dev nD) : V5 m (leavesC m) c = V5 m (leavesA m) c := by
  have hC : leavesC m 2 main_v17 c = res0 m c := leaves_17 m _ _ _ 2 c
  have hA : leavesA m 2 main_v17 c = res0 m c := leaves_17 m _ _ _ 2 c
  show StableHlo.after hostOps1_2 (StableHlo.after hostOps1_1 (StableHlo.after hostOps1 (Function.update (V1 m c) main_v17 (leavesC m 2 main_v17 c)))) = StableHlo.after hostOps1_2 (StableHlo.after hostOps1_1 (StableHlo.after hostOps1 (Function.update (V1 m c) main_v17 (leavesA m 2 main_v17 c))))
  rw [hC, hA]
theorem V7_leaves (c : Dev nD) : V7 m (leavesC m) c = V7 m (leavesB m) c := by
  have hC6 : leavesC m 6 main_v36 c = res1 m c := leaves_36 m _ _ _ 6 c
  have hB6 : leavesB m 6 main_v36 c = res1 m c := leaves_36 m _ _ _ 6 c
  have hC : leavesC m 2 main_v17 c = res0 m c := leaves_17 m _ _ _ 2 c
  have hB : leavesB m 2 main_v17 c = res0 m c := leaves_17 m _ _ _ 2 c
  show StableHlo.after hostOps2 (Function.update (StableHlo.after hostOps1_2 (StableHlo.after hostOps1_1 (StableHlo.after hostOps1 (Function.update (V1 m c) main_v17 (leavesC m 2 main_v17 c))))) main_v36 (leavesC m 6 main_v36 c)) = StableHlo.after hostOps2 (Function.update (StableHlo.after hostOps1_2 (StableHlo.after hostOps1_1 (StableHlo.after hostOps1 (Function.update (V1 m c) main_v17 (leavesB m 2 main_v17 c))))) main_v36 (leavesB m 6 main_v36 c))
  rw [hC6, hB6, hC, hB]

end Cert.Kernel.Rg

end
-- ==== Proof.WTwoWindows.lean ====
/-
  The decode call reads one latent array through two windows (a block of rows, and a block of rows used as columns). A core
  that holds every unscoped buffer whole gives the call that array as two half shares, one per window, beside its result array
  at the full share; at the end the two halves, which agree, make the whole again.
-/
import proofs.«110445_j79267916415284_2_alg».proof.Proof.WRegion2

noncomputable section

namespace Cert.Kernel.Rg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The two distinct buffers behind the three windows. -/
theorem arrays_of_decode : Finset.univ.image (Pipeline.arrRef spec2) = {main_v57, main_v58} := by decide

variable {c : Dev nD} (dat : Dat τ (Elt F) Unit ℕ (UR sig nD τ) ℕ cfg2 c)

/-- The call's arrays, window by window: the latent array twice, at the two halves, and the result array. -/
theorem arrays_decode (hs0 : dat.share 0 = fullShare.left) (hs1 : dat.share 1 = fullShare.right) (hs2 : dat.share 2 = fullShare)
    (G : (w : Fin cfg2.W) → Buf (Elt F) ((cfg2.win w).arr.view.loc (c.tc : Thread nD τ))) :
    dat.arrays G = (iprop((((cfg2.win 0).arr.view.loc (c.tc : Thread nD τ)) ↦{fullShare.left} G 0)
      ∗ (((cfg2.win 1).arr.view.loc (c.tc : Thread nD τ)) ↦{fullShare.right} G 1)
      ∗ (((cfg2.win 2).arr.view.loc (c.tc : Thread nD τ)) ↦{fullShare} G 2)) : sProp 𝕄) := by
  unfold Dat.arrays
  rw [bigSep_W2, (arr_whole2 0).set_eq_univ, (arr_whole2 2).set_eq_univ, hs0, hs1, hs2]

/-- ENTRY: every unscoped buffer at `V` is the call's arrays at `V`'s contents and the other unscoped buffers. -/
theorem decode_arrays_of_unscoped (hs0 : dat.share 0 = fullShare.left) (hs1 : dat.share 1 = fullShare.right) (hs2 : dat.share 2 = fullShare)
    (V : (b : Ref sig .tc) → Buf (Elt F) ((c.tc : Thread nD τ).loc b))
    (G : (w : Fin cfg2.W) → Buf (Elt F) ((cfg2.win w).arr.view.loc (c.tc : Thread nD τ))) (hG : ∀ w, G w = V (Pipeline.arrRef spec2 w)) :
    (unscopedBufs c V : sProp 𝕄) ⊢ iprop(dat.arrays G ∗ Pipeline.unscopedRest spec2 c V) := by
  rw [Pipeline.unscopedBufs_split₀ cfgs (2 : Fin 3) winFacts₀2.arr_unscoped c V, arrays_decode dat hs0 hs1 hs2 G, hG 0, hG 1, hG 2]
  unfold Pipeline.arrBufs
  rw [show Finset.univ.image (Pipeline.arrRef (cfgs (2 : Fin 3)).spec) = {main_v57, main_v58} from arrays_of_decode, bigSep_insert (by decide), bigSep_singleton]
  refine BI.sep_mono ?_ ?_
  · refine (BI.sep_mono (pointsTo_share (ℓ := (c.tc : Thread nD τ).loc main_v57) (I := Finset.univ) (f := V main_v57) (PosShare.mem_left_op_right fullShare)).1 (BI.Entails.refl _)).trans ?_
    exact BI.sep_assoc
  · exact BI.Entails.refl _

/-- EXIT: the call's arrays at `G` and the other unscoped buffers at `V` are every unscoped buffer at any `V'` that has the
    arrays at `G` and is `V` elsewhere. -/
theorem decode_unscoped_of_arrays (hs0 : dat.share 0 = fullShare.left) (hs1 : dat.share 1 = fullShare.right) (hs2 : dat.share 2 = fullShare)
    (V V' : (b : Ref sig .tc) → Buf (Elt F) ((c.tc : Thread nD τ).loc b))
    (G : (w : Fin cfg2.W) → Buf (Elt F) ((cfg2.win w).arr.view.loc (c.tc : Thread nD τ))) (hG : ∀ w, G w = V' (Pipeline.arrRef spec2 w))
    (hrest : ∀ b, b ∉ Finset.univ.image (Pipeline.arrRef spec2) → V' b = V b) :
    iprop(dat.arrays G ∗ Pipeline.unscopedRest spec2 c V) ⊢ (unscopedBufs c V' : sProp 𝕄) := by
  rw [Pipeline.unscopedBufs_split₀ cfgs (2 : Fin 3) winFacts₀2.arr_unscoped c V', arrays_decode dat hs0 hs1 hs2 G, hG 0, hG 1, hG 2]
  unfold Pipeline.arrBufs
  rw [show Finset.univ.image (Pipeline.arrRef (cfgs (2 : Fin 3)).spec) = {main_v57, main_v58} from arrays_of_decode, bigSep_insert (by decide), bigSep_singleton]
  have hr : (Pipeline.unscopedRest spec2 c V : sProp 𝕄) = Pipeline.unscopedRest spec2 c V' := by
    unfold Pipeline.unscopedRest
    exact bigSep_congr fun b hb => by rw [hrest b (Finset.mem_sdiff.mp hb).2]
  refine BI.sep_mono ?_ (Entails.of_eq hr)
  refine BI.sep_assoc'.trans ?_
  exact BI.sep_mono (pointsTo_share (ℓ := (c.tc : Thread nD τ).loc main_v57) (I := Finset.univ) (f := V' main_v57) (PosShare.mem_left_op_right fullShare)).2 (BI.Entails.refl _)

end Cert.Kernel.Rg

end
-- ==== Proof.WCalls.lean ====
/-
  Each call as a segment of the program, and the program's frame: it terminates without a fault and leaves its arguments as it
  found them. A call is entered holding every unscoped buffer at the contents computed so far, beside the generator register and
  the fact that the core owes nothing; it leaves holding the same with its result array replaced by what its grid points wrote.
-/
import proofs.«110445_j79267916415284_2_alg».proof.Proof.WBetween
import proofs.«110445_j79267916415284_2_alg».proof.Proof.WTwoWindows

set_option maxRecDepth 16384

noncomputable section

namespace Cert.Kernel.Rg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The calls' data, each at its entry contents -/

def pdats : (p : Fin 3) → (c : Dev nD) → Dat τ (Elt F) Unit ℕ (UR sig nD τ) ℕ (cfgs p) c
  | ⟨0, _⟩ => fun c => dat0 (In0 m) c
  | ⟨1, _⟩ => fun c => dat1 (In1 m) c
  | ⟨2, _⟩ => fun c => dat2 (In2 m) c

abbrev noVariants : Variants := Variants.none
abbrev noLevels : GSem nD τ sig → Finset Unit := fun _ => ∅
abbrev levelZero : GSem nD τ sig → Unit → ℕ := fun _ _ => 0

/-- What rides beside the buffers through every item: the generator register at some state, and nothing owed. -/
abbrev beside (c : Dev nD) : sProp 𝕄 := iprop((∃ r, prngReg c r) ∗ ∃ W, owes (c : Thread nD τ) (0 : CellTallies nD τ sig Unit) W)

/-! ## What each call's arrays hold when it ends -/

theorem ends0 (c : Dev nD) (w : Fin cfg0.W) : (pdats m 0 c).arrAt w cfg0.N = V2 m (leavesC m) c (Pipeline.arrRef spec0 w) := by
  match w with
  | ⟨0, _⟩ => exact ((pdats m 0 c).arrAt_in 0 rfl _).trans (V2_of m (leavesC m) c main_arg0 (by decide)).symm
  | ⟨1, _⟩ => exact ((pdats m 0 c).arrAt_in 1 rfl _).trans (V2_of m (leavesC m) c main_v15 (by decide)).symm
  | ⟨2, _⟩ => exact ((pdats m 0 c).arrAt_in 2 rfl _).trans (V2_of m (leavesC m) c main_arg4 (by decide)).symm
  | ⟨3, _⟩ =>
    show res0 m c = Function.update (V1 m c) main_v17 (leavesC m 2 main_v17 c) main_v17
    rw [Function.update_self]; exact (leaves_17 m _ _ _ 2 c).symm

theorem rest0 (c : Dev nD) : ∀ b, b ∉ Finset.univ.image (Pipeline.arrRef spec0) → V2 m (leavesC m) c b = In0 m c b :=
  fun b hb => V2_of m (leavesC m) c b fun h => hb (by
    rw [List.mem_singleton] at h; subst h; exact Finset.mem_image.mpr ⟨3, Finset.mem_univ _, rfl⟩)

theorem ends1 (c : Dev nD) (w : Fin cfg1.W) : (pdats m 1 c).arrAt w cfg1.N = V6 m (leavesC m) c (Pipeline.arrRef spec1 w) := by
  match w with
  | ⟨0, _⟩ => exact ((pdats m 1 c).arrAt_in 0 rfl _).trans (((V6_of m (leavesC m) c main_v33 (by decide)).trans (congrFun (V5_leaves m c) _)).symm)
  | ⟨1, _⟩ => exact ((pdats m 1 c).arrAt_in 1 rfl _).trans (((V6_of m (leavesC m) c main_v15 (by decide)).trans (congrFun (V5_leaves m c) _)).symm)
  | ⟨2, _⟩ => exact ((pdats m 1 c).arrAt_in 2 rfl _).trans (((V6_of m (leavesC m) c main_v34 (by decide)).trans (congrFun (V5_leaves m c) _)).symm)
  | ⟨3, _⟩ =>
    show res1 m c = Function.update (V5 m (leavesC m) c) main_v36 (leavesC m 6 main_v36 c) main_v36
    rw [Function.update_self]; exact (leaves_36 m _ _ _ 6 c).symm

theorem rest1 (c : Dev nD) : ∀ b, b ∉ Finset.univ.image (Pipeline.arrRef spec1) → V6 m (leavesC m) c b = In1 m c b :=
  fun b hb => (V6_of m (leavesC m) c b fun h => hb (by
    rw [List.mem_singleton] at h; subst h; exact Finset.mem_image.mpr ⟨3, Finset.mem_univ _, rfl⟩)).trans (congrFun (V5_leaves m c) _)

theorem ends2 (c : Dev nD) (w : Fin cfg2.W) : (pdats m 2 c).arrAt w cfg2.N = V8 m (leavesC m) c (Pipeline.arrRef spec2 w) := by
  match w with
  | ⟨0, _⟩ => exact ((pdats m 2 c).arrAt_in 0 rfl _).trans (((V8_of m (leavesC m) c main_v57 (by decide)).trans (congrFun (V7_leaves m c) _)).symm)
  | ⟨1, _⟩ => exact ((pdats m 2 c).arrAt_in 1 rfl _).trans (((V8_of m (leavesC m) c main_v57 (by decide)).trans (congrFun (V7_leaves m c) _)).symm)
  | ⟨2, _⟩ =>
    show res2 m c = Function.update (V7 m (leavesC m) c) main_v58 (leavesC m 8 main_v58 c) main_v58
    rw [Function.update_self]; exact (leaves_58 m _ _ _ 8 c).symm

theorem rest2 (c : Dev nD) : ∀ b, b ∉ Finset.univ.image (Pipeline.arrRef spec2) → V8 m (leavesC m) c b = In2 m c b :=
  fun b hb => (V8_of m (leavesC m) c b fun h => hb (by
    rw [List.mem_singleton] at h; subst h; exact Finset.mem_image.mpr ⟨2, Finset.mem_univ _, rfl⟩)).trans (congrFun (V7_leaves m c) _)

/-! ## The calls as segments -/

set_option backward.isDefEq.respectTransparency.types false in
/-- The first projection call. -/
def call0 : Pipeline.RegionSeg (pcfgs (F := F)) adm (pdats m) () defs₀ noVariants noLevels levelZero 0 where
  win := launch0.win.to₀
  block_pos := launch0.block_pos
  stage_whole := launch0.stage_whole
  K := PEmpty
  osem k := k.elim
  ho := Pipeline.OwnSemFacts.none _
  hbody c := (body_obligation0 (In0 m) c).loose
  hwaits := Pipeline.hwaits_of_owed_zero _ _ _ _ noLevels levelZero 0 fun _ _ => rfl
  pre c := iprop(StableHlo.held (c : Thread nD τ) (Pipeline.ucRefs τ sig) (V1 m c) ∗ beside c)
  post c := iprop(StableHlo.held (c : Thread nD τ) (Pipeline.ucRefs τ sig) (V2 m (leavesC m) c) ∗ beside c)
  X c := iprop(∃ r, prngReg c r)
  Y c := iprop(∃ r, prngReg c r)
  Z c := Pipeline.unscopedRest (Ix := Unit) (Name := ℕ) (U := UR sig nD τ) (Lvl := ℕ) spec0 c (In0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (In0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (In0 m c) (fun b => V2 m (leavesC m) c b) ((pdats m 0 c).arrAt · cfg0.N) (ends0 m c) (rest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second projection call. -/
def call1 : Pipeline.RegionSeg (pcfgs (F := F)) adm (pdats m) () defs₀ noVariants noLevels levelZero 1 where
  win := launch1.win.to₀
  block_pos := launch1.block_pos
  stage_whole := launch1.stage_whole
  K := PEmpty
  osem k := k.elim
  ho := Pipeline.OwnSemFacts.none _
  hbody c := (body_obligation1 (In1 m) c).loose
  hwaits := Pipeline.hwaits_of_owed_zero _ _ _ _ noLevels levelZero 1 fun _ _ => rfl
  pre c := iprop(StableHlo.held (c : Thread nD τ) (Pipeline.ucRefs τ sig) (V5 m (leavesC m) c) ∗ beside c)
  post c := iprop(StableHlo.held (c : Thread nD τ) (Pipeline.ucRefs τ sig) (V6 m (leavesC m) c) ∗ beside c)
  X c := iprop(∃ r, prngReg c r)
  Y c := iprop(∃ r, prngReg c r)
  Z c := Pipeline.unscopedRest (Ix := Unit) (Name := ℕ) (U := UR sig nD τ) (Lvl := ℕ) spec1 c (In1 m c)
  hentry c := by
    rw [Pipeline.ownSems0_none, V5_leaves]
    have hsplit := Pipeline.arrays_of_unscopedBufs (p := 1) (pcfgs (F := F)) adm (pdats m) launch1.win launch1.arr_whole c
      ((pdats m 1 c).share_full fun _ => rfl) (In1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (In1 m c) (fun b => V6 m (leavesC m) c b) ((pdats m 1 c).arrAt · cfg1.N) (ends1 m c) (rest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem share2_0 (c : Dev nD) : (pdats m 2 c).share 0 = fullShare.left := rfl
theorem share2_1 (c : Dev nD) : (pdats m 2 c).share 1 = fullShare.right := rfl
theorem share2_2 (c : Dev nD) : (pdats m 2 c).share 2 = fullShare := rfl

set_option backward.isDefEq.respectTransparency.types false in
/-- The decode call: its two input windows on the one latent array. -/
def call2 : Pipeline.RegionSeg (pcfgs (F := F)) adm (pdats m) () defs₀ noVariants noLevels levelZero 2 where
  win := winFacts₀2
  block_pos := block_pos2
  stage_whole := stage_whole2
  K := PEmpty
  osem k := k.elim
  ho := Pipeline.OwnSemFacts.none _
  hbody c := (body_obligation2 (In2 m) c).loose
  hwaits := Pipeline.hwaits_of_owed_zero _ _ _ _ noLevels levelZero 2 fun _ _ => rfl
  pre c := iprop(StableHlo.held (c : Thread nD τ) (Pipeline.ucRefs τ sig) (V7 m (leavesC m) c) ∗ beside c)
  post c := iprop(StableHlo.held (c : Thread nD τ) (Pipeline.ucRefs τ sig) (V8 m (leavesC m) c) ∗ beside c)
  X c := iprop(∃ r, prngReg c r)
  Y c := iprop(∃ r, prngReg c r)
  Z c := Pipeline.unscopedRest (Ix := Unit) (Name := ℕ) (U := UR sig nD τ) (Lvl := ℕ) spec2 c (In2 m c)
  hentry c := by
    rw [Pipeline.ownSems0_none, V7_leaves]
    have hsplit := decode_arrays_of_unscoped (pdats m 2 c) (share2_0 m c) (share2_1 m c) (share2_2 m c) (In2 m c)
      ((pdats m 2 c).arrAt · 0) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := decode_unscoped_of_arrays (pdats m 2 c) (share2_0 m c) (share2_1 m c) (share2_2 m c)
      (In2 m c) (fun b => V8 m (leavesC m) c b) ((pdats m 2 c).arrAt · cfg2.N) (ends2 m c) (rest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The frame -/

/-- What rides beside the buffers at each of the four stretches between and around the calls. -/
abbrev besides : Fin 4 → Dev nD → sProp 𝕄 := fun _ c => beside c

theorem launch_ghost : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj))) ∗ bigSep Finset.univ fun _ : Dev nD => (BI.emp : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

theorem launch_beside (ρ : Dev nD → PrngReg) :
    iprop((bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄))) ∗ levAts noLevels levelZero)
      ⊢ (|={Set.univ}=> bigSep Finset.univ (besides (F := F) 0) : sProp 𝕄) := by
  refine Pipeline.initEach noLevels levelZero fun c => ?_
  iintro ⟨⟨-, HO, -, Hp, -⟩, -⟩
  imodintro
  isplitl [Hp]; · iexists _; iexact Hp
  iexists ∅; iexact HO

/-- The program terminates without a fault and every argument array ends as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_cond m emb₁ () noVariants noLevels levelZero (fun _ _ => rfl) ρ (leavesC m) (pdats m) 0 (fun _ => iprop(emp))
    (initOf (Pipeline.cells cfgs cellOf_inj) (Pipeline.launchToks cfgs cellOf_inj)) launch_ghost
    besides (launch_beside ρ) (fun c => by iintro ⟨-, HO⟩; iexact HO)
    (call0 m) (fun _ => .rfl) (fun _ => .rfl) (call1 m) (fun _ => .rfl) (fun _ => .rfl) (call2 m) (fun _ => .rfl) (fun _ => .rfl)

end Cert.Kernel.Rg

end
-- ==== Proof.Region0.lean ====
/-
  The first projection call, one grid point at a time: the body loads a block of 2048 feature rows, the matching 2048 row scales and the whole 512×256 weight, and stores the 2048×256 product of the scaled rows with the weight. Stated at any float instance and at any contents of the buffers on entry.
-/
import proofs.«110445_j79267916415284_2_alg».proof.Proof.Gen.KernelIdeal.Launch
import proofs.«110445_j79267916415284_2_alg».proof.Proof.Gen.KernelIdeal.Skeleton
import proofs.«110445_j79267916415284_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Rg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the contents of the TensorCore's buffers when this call is entered
variable (V : (c : Dev nD) → (b : Ref sig .tc) → Buf (Elt F) ((c : Thread nD τ).loc b))

/-! ## The blocks the call reads -/

/-- Window `w`'s block at grid point `t`: the rectangle of its array (as the call finds it) that the index map selects. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block of the array at every point, whether the pipeline
    fetched it there or kept it from an earlier point (the block index had not moved). -/
theorem held0_0_of {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)

/-- Input window 1's current staging buffer holds its block of the array at every point, whether the pipeline
    fetched it there or kept it from an earlier point (the block index had not moved). -/
theorem held0_1_of {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)

/-- Input window 2's current staging buffer holds its block of the array at every point, whether the pipeline
    fetched it there or kept it from an earlier point (the block index had not moved). -/
theorem held0_2_of {c : Dev nD} (dat : Dat τ (Elt F) Unit ℕ (UR sig nD τ) ℕ cfg0 c) (hA : dat.A 2 = V c (Pipeline.arrRef spec0 2))
    (hafter : ∀ t, dat.after 2 t = blk0 V c 2 t) (t : Fin cfg0.N) (d) : dat.before 2 t d = blk0 V c 2 t :=
  (dat.before_in_eq_fetched 2 rfl (fun _ => rfl) (fun _ _ _ => rfl) (fun t => by rw [hafter]; unfold Dat.blockOf blk0; rw [hA]; try rfl) t d).trans
    (by unfold Dat.fetched Dat.blockOf blk0; rw [hA]; try rfl)

/-! ## What one grid point stores -/

/-- The body's single store, of the whole output block. -/
abbrev whole0 : Rect S2048x256 := Rect.unit (s := S2048x256) ![0, 0] S2048x256.size inb_S2048x256_S2048x256_0_0

/-- The output block after the body, as a function of the input blocks: the one store's value, the body's
    arithmetic `k0_pay1` of the loaded blocks. -/
def stored0 (x0 : Vec F S2048x512 .f32) (x1 : Vec F S2048x1 .f32) (x2 : Vec F S512x256 .f32) : Vec F S2048x256 .f32 :=
  View.canon [⟨whole0, k0_pay1 (View.ld x0 (Rect.unit (s := S2048x512) ![0, 0] S2048x512.size inb_S2048x512_S2048x512_0_0)) (View.ld x1 (Rect.unit (s := S2048x1) ![0, 0] S2048x1.size inb_S2048x1_S2048x1_0_0)) (View.ld x2 (Rect.unit (s := S512x256) ![0, 0] S512x256.size inb_S512x256_S512x256_0_0))⟩]

/-- That store covers the block. -/
theorem covers0 (p0 : Vec F S2048x256 .f32) (y : S2048x256.Idx) :
    ∃ pc ∈ ([⟨whole0, p0⟩] : List (View.Piece (Elt F) S2048x256 .f32)), y ∈ pc.1.set :=
  View.cover_of_tiled [⟨whole0, p0⟩] S2048x256.size (by rfl) y

/-! ## The body's triple -/

set_option maxHeartbeats 1000000 in
/-- On whole staging buffers — the inputs' at contents `x·`, the output's at anything — the body runs without a fault, leaves
    the inputs' buffers as they were and the output's at `stored0` of the inputs. -/
theorem body_runs0 (c : Dev nD) (E : Set ℕ) (i : grid0.Coords) (a0 : Memref sig .tc .vmem S2048x512 .f32) (ha0 : a0.IsWhole) (a1 : Memref sig .tc .vmem S2048x1 .f32) (ha1 : a1.IsWhole) (a2 : Memref sig .tc .vmem S512x256 .f32) (ha2 : a2.IsWhole) (a3 : Memref sig .tc .vmem S2048x256 .f32) (ha3 : a3.IsWhole)
    (x0 : Vec F S2048x512 .f32) (x1 : Vec F S2048x1 .f32) (x2 : Vec F S512x256 .f32) (Q : PUnit → sProp 𝕄) :
    iprop(owns (c : Thread nD τ) a0 fullShare x0 ∗ owns (c : Thread nD τ) a1 fullShare x1 ∗ owns (c : Thread nD τ) a2 fullShare x2 ∗ (∃ d, owns (c : Thread nD τ) a3 fullShare d)
        ∗ (iprop(owns (c : Thread nD τ) a0 fullShare x0 ∗ owns (c : Thread nD τ) a1 fullShare x1 ∗ owns (c : Thread nD τ) a2 fullShare x2 ∗ owns (c : Thread nD τ) a3 fullShare (stored0 x0 x1 x2)) -∗ Q ⟨⟩))
      ⊢ wp frame (wpE (defs₀ (F := F)) Variants.none c none) E (cc0__proj_kernel i a0 ha0 a1 ha1 a2 ha2 a3 ha3) Q := by
  simp only [cc0__proj_kernel_eq_skeleton]; unfold cc0__proj_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (covers0 _)

/-! ## The call's data: what every buffer holds at every point -/

/-- The arrays are as the call finds them; after the body at point `t` each input's staging buffer still holds its block and the
    output's holds `stored0` of the input blocks; the scoped buffers of the other calls and the generator register ride along
    untouched; nothing is owed to another core. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => stored0 (blk0 V c 0 t) (blk0 V c 1 t) (blk0 V c 2 t)
  Φ _ := Pipeline.ΦA spec0 c
  q _ := fullShare
  owed _ := 0

theorem arr0 (c : Dev nD) (w : Fin cfg0.W) : (dat0 V c).A w = V c (Pipeline.arrRef spec0 w) := by
  dsimp only [dat0]

theorem left0_0 (c : Dev nD) (t : Fin cfg0.N) : (dat0 V c).after 0 t = blk0 V c 0 t := by dsimp only [dat0]
theorem left0_1 (c : Dev nD) (t : Fin cfg0.N) : (dat0 V c).after 1 t = blk0 V c 1 t := by dsimp only [dat0]
theorem left0_2 (c : Dev nD) (t : Fin cfg0.N) : (dat0 V c).after 2 t = blk0 V c 2 t := by dsimp only [dat0]
theorem left0_3 (c : Dev nD) (t : Fin cfg0.N) : (dat0 V c).after 3 t = stored0 (blk0 V c 0 t) (blk0 V c 1 t) (blk0 V c 2 t) := by dsimp only [dat0]

theorem held0_0 (c : Dev nD) (t : Fin cfg0.N) (d) : (dat0 V c).before 0 t d = blk0 V c 0 t :=
  held0_0_of V (dat0 V c) (arr0 V c 0) (left0_0 V c) t d
theorem held0_1 (c : Dev nD) (t : Fin cfg0.N) (d) : (dat0 V c).before 1 t d = blk0 V c 1 t :=
  held0_1_of V (dat0 V c) (arr0 V c 1) (left0_1 V c) t d
theorem held0_2 (c : Dev nD) (t : Fin cfg0.N) (d) : (dat0 V c).before 2 t d = blk0 V c 2 t :=
  held0_2_of V (dat0 V c) (arr0 V c 2) (left0_2 V c) t d

/-! ## The body at a grid point -/

/-- What the pipeline calls the body with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it gets back. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem body_at0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [held0_0, held0_1, held0_2]
  rw [show (dat0 V c).Φ t.succ = (dat0 V c).Φ t.castSucc from rfl,
    show (dat0 V c).owesAt () t.succ = (dat0 V c).owesAt () t.castSucc from rfl,
    left0_0, left0_1, left0_2, left0_3]
  iintro ⟨HΦ, Ho, ⟨%d0, H0⟩, ⟨%d1, H1⟩, ⟨%d2, H2⟩, ⟨%d3, H3⟩⟩
  iapply (body_runs0 c Set.univ _ _ _ _ _ _ _ _ _ (blk0 V c 0 t) (blk0 V c 1 t) (blk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body's obligation to the pipeline, at every point. -/
theorem body_obligation0 (c : Dev nD) : BodyObligation (dat0 (F := F) V c) (defs₀ (F := F)) Variants.none () Set.univ := fun t => by
  rw [bigSep_W0, bigSep_W0]
  exact body_at0 V c t

end Cert.KernelIdeal.Rg

end
-- ==== Proof.Region1.lean ====
/-
  The second projection call, one grid point at a time: the body loads a block of 2048 hidden rows, the matching 2048 row scales and the whole 256×128 fused weight, and stores the 2048×128 product of the scaled rows with the weight. Stated at any float instance and at any contents of the buffers on entry.
-/
import proofs.«110445_j79267916415284_2_alg».proof.Proof.Gen.KernelIdeal.Launch
import proofs.«110445_j79267916415284_2_alg».proof.Proof.Gen.KernelIdeal.Skeleton
import proofs.«110445_j79267916415284_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Rg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the contents of the TensorCore's buffers when this call is entered
variable (V : (c : Dev nD) → (b : Ref sig .tc) → Buf (Elt F) ((c : Thread nD τ).loc b))

/-! ## The blocks the call reads -/

/-- Window `w`'s block at grid point `t`: the rectangle of its array (as the call finds it) that the index map selects. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block of the array at every point, whether the pipeline
    fetched it there or kept it from an earlier point (the block index had not moved). -/
theorem held1_0_of {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)

/-- Input window 1's current staging buffer holds its block of the array at every point, whether the pipeline
    fetched it there or kept it from an earlier point (the block index had not moved). -/
theorem held1_1_of {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)

/-- Input window 2's current staging buffer holds its block of the array at every point, whether the pipeline
    fetched it there or kept it from an earlier point (the block index had not moved). -/
theorem held1_2_of {c : Dev nD} (dat : Dat τ (Elt F) Unit ℕ (UR sig nD τ) ℕ cfg1 c) (hA : dat.A 2 = V c (Pipeline.arrRef spec1 2))
    (hafter : ∀ t, dat.after 2 t = blk1 V c 2 t) (t : Fin cfg1.N) (d) : dat.before 2 t d = blk1 V c 2 t :=
  (dat.before_in_eq_fetched 2 rfl (fun _ => rfl) (fun _ _ _ => rfl) (fun t => by rw [hafter]; unfold Dat.blockOf blk1; rw [hA]; try rfl) t d).trans
    (by unfold Dat.fetched Dat.blockOf blk1; rw [hA]; try rfl)

/-! ## What one grid point stores -/

/-- The body's single store, of the whole output block. -/
abbrev whole1 : Rect S2048x128 := Rect.unit (s := S2048x128) ![0, 0] S2048x128.size inb_S2048x128_S2048x128_0_0

/-- The output block after the body, as a function of the input blocks: the one store's value, the body's
    arithmetic `k1_pay1` of the loaded blocks. -/
def stored1 (x0 : Vec F S2048x256 .f32) (x1 : Vec F S2048x1 .f32) (x2 : Vec F S256x128 .f32) : Vec F S2048x128 .f32 :=
  View.canon [⟨whole1, k1_pay1 (View.ld x0 (Rect.unit (s := S2048x256) ![0, 0] S2048x256.size inb_S2048x256_S2048x256_0_0)) (View.ld x1 (Rect.unit (s := S2048x1) ![0, 0] S2048x1.size inb_S2048x1_S2048x1_0_0)) (View.ld x2 (Rect.unit (s := S256x128) ![0, 0] S256x128.size inb_S256x128_S256x128_0_0))⟩]

/-- That store covers the block. -/
theorem covers1 (p0 : Vec F S2048x128 .f32) (y : S2048x128.Idx) :
    ∃ pc ∈ ([⟨whole1, p0⟩] : List (View.Piece (Elt F) S2048x128 .f32)), y ∈ pc.1.set :=
  View.cover_of_tiled [⟨whole1, p0⟩] S2048x128.size (by rfl) y

/-! ## The body's triple -/

set_option maxHeartbeats 1000000 in
/-- On whole staging buffers — the inputs' at contents `x·`, the output's at anything — the body runs without a fault, leaves
    the inputs' buffers as they were and the output's at `stored1` of the inputs. -/
theorem body_runs1 (c : Dev nD) (E : Set ℕ) (i : grid1.Coords) (a0 : Memref sig .tc .vmem S2048x256 .f32) (ha0 : a0.IsWhole) (a1 : Memref sig .tc .vmem S2048x1 .f32) (ha1 : a1.IsWhole) (a2 : Memref sig .tc .vmem S256x128 .f32) (ha2 : a2.IsWhole) (a3 : Memref sig .tc .vmem S2048x128 .f32) (ha3 : a3.IsWhole)
    (x0 : Vec F S2048x256 .f32) (x1 : Vec F S2048x1 .f32) (x2 : Vec F S256x128 .f32) (Q : PUnit → sProp 𝕄) :
    iprop(owns (c : Thread nD τ) a0 fullShare x0 ∗ owns (c : Thread nD τ) a1 fullShare x1 ∗ owns (c : Thread nD τ) a2 fullShare x2 ∗ (∃ d, owns (c : Thread nD τ) a3 fullShare d)
        ∗ (iprop(owns (c : Thread nD τ) a0 fullShare x0 ∗ owns (c : Thread nD τ) a1 fullShare x1 ∗ owns (c : Thread nD τ) a2 fullShare x2 ∗ owns (c : Thread nD τ) a3 fullShare (stored1 x0 x1 x2)) -∗ Q ⟨⟩))
      ⊢ wp frame (wpE (defs₀ (F := F)) Variants.none c none) E (cc1__proj_kernel i a0 ha0 a1 ha1 a2 ha2 a3 ha3) Q := by
  simp only [cc1__proj_kernel_eq_skeleton]; unfold cc1__proj_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (covers1 _)

/-! ## The call's data: what every buffer holds at every point -/

/-- The arrays are as the call finds them; after the body at point `t` each input's staging buffer still holds its block and the
    output's holds `stored1` of the input blocks; the scoped buffers of the other calls and the generator register ride along
    untouched; nothing is owed to another core. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => stored1 (blk1 V c 0 t) (blk1 V c 1 t) (blk1 V c 2 t)
  Φ _ := Pipeline.ΦA spec1 c
  q _ := fullShare
  owed _ := 0

theorem arr1 (c : Dev nD) (w : Fin cfg1.W) : (dat1 V c).A w = V c (Pipeline.arrRef spec1 w) := by
  dsimp only [dat1]

theorem left1_0 (c : Dev nD) (t : Fin cfg1.N) : (dat1 V c).after 0 t = blk1 V c 0 t := by dsimp only [dat1]
theorem left1_1 (c : Dev nD) (t : Fin cfg1.N) : (dat1 V c).after 1 t = blk1 V c 1 t := by dsimp only [dat1]
theorem left1_2 (c : Dev nD) (t : Fin cfg1.N) : (dat1 V c).after 2 t = blk1 V c 2 t := by dsimp only [dat1]
theorem left1_3 (c : Dev nD) (t : Fin cfg1.N) : (dat1 V c).after 3 t = stored1 (blk1 V c 0 t) (blk1 V c 1 t) (blk1 V c 2 t) := by dsimp only [dat1]

theorem held1_0 (c : Dev nD) (t : Fin cfg1.N) (d) : (dat1 V c).before 0 t d = blk1 V c 0 t :=
  held1_0_of V (dat1 V c) (arr1 V c 0) (left1_0 V c) t d
theorem held1_1 (c : Dev nD) (t : Fin cfg1.N) (d) : (dat1 V c).before 1 t d = blk1 V c 1 t :=
  held1_1_of V (dat1 V c) (arr1 V c 1) (left1_1 V c) t d
theorem held1_2 (c : Dev nD) (t : Fin cfg1.N) (d) : (dat1 V c).before 2 t d = blk1 V c 2 t :=
  held1_2_of V (dat1 V c) (arr1 V c 2) (left1_2 V c) t d

/-! ## The body at a grid point -/

/-- What the pipeline calls the body with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it gets back. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem body_at1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [held1_0, held1_1, held1_2]
  rw [show (dat1 V c).Φ t.succ = (dat1 V c).Φ t.castSucc from rfl,
    show (dat1 V c).owesAt () t.succ = (dat1 V c).owesAt () t.castSucc from rfl,
    left1_0, left1_1, left1_2, left1_3]
  iintro ⟨HΦ, Ho, ⟨%d0, H0⟩, ⟨%d1, H1⟩, ⟨%d2, H2⟩, ⟨%d3, H3⟩⟩
  iapply (body_runs1 c Set.univ _ _ _ _ _ _ _ _ _ (blk1 V c 0 t) (blk1 V c 1 t) (blk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body's obligation to the pipeline, at every point. -/
theorem body_obligation1 (c : Dev nD) : BodyObligation (dat1 (F := F) V c) (defs₀ (F := F)) Variants.none () Set.univ := fun t => by
  rw [bigSep_W1, bigSep_W1]
  exact body_at1 V c t

end Cert.KernelIdeal.Rg

end
-- ==== Proof.Region2.lean ====
/-
  The decode call, one grid point at a time: the body loads a block of 2048 rows and a block of 1024 rows of the one latent array, and stores the logistic function of their 2048×1024 matrix of inner products. Both input windows read the same array, so each holds it at half a share. Stated at any float instance and at any contents of the buffers on entry.
-/
import proofs.«110445_j79267916415284_2_alg».proof.Proof.Gen.KernelIdeal.Launch
import proofs.«110445_j79267916415284_2_alg».proof.Proof.Gen.KernelIdeal.Skeleton
import proofs.«110445_j79267916415284_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Rg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the contents of the TensorCore's buffers when this call is entered
variable (V : (c : Dev nD) → (b : Ref sig .tc) → Buf (Elt F) ((c : Thread nD τ).loc b))

/-! ## The blocks the call reads -/

/-- Window `w`'s block at grid point `t`: the rectangle of its array (as the call finds it) that the index map selects. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block of the array at every point, whether the pipeline
    fetched it there or kept it from an earlier point (the block index had not moved). -/
theorem held2_0_of {c : Dev nD} (dat : Dat τ (Elt F) Unit ℕ (UR sig nD τ) ℕ cfg2 c) (hA : dat.A 0 = V c (Pipeline.arrRef spec2 0))
    (hafter : ∀ t, dat.after 0 t = blk2 V c 0 t) (t : Fin cfg2.N) (d) : dat.before 0 t d = blk2 V c 0 t :=
  (dat.before_in_eq_fetched 0 rfl (fun _ => rfl) (fun _ _ _ => rfl) (fun t => by rw [hafter]; unfold Dat.blockOf blk2; rw [hA]; try rfl) t d).trans
    (by unfold Dat.fetched Dat.blockOf blk2; rw [hA]; try rfl)

/-- Input window 1's current staging buffer holds its block of the array at every point, whether the pipeline
    fetched it there or kept it from an earlier point (the block index had not moved). -/
theorem held2_1_of {c : Dev nD} (dat : Dat τ (Elt F) Unit ℕ (UR sig nD τ) ℕ cfg2 c) (hA : dat.A 1 = V c (Pipeline.arrRef spec2 1))
    (hafter : ∀ t, dat.after 1 t = blk2 V c 1 t) (t : Fin cfg2.N) (d) : dat.before 1 t d = blk2 V c 1 t :=
  (dat.before_in_eq_fetched 1 rfl (fun _ => rfl) (fun _ _ _ => rfl) (fun t => by rw [hafter]; unfold Dat.blockOf blk2; rw [hA]; try rfl) t d).trans
    (by unfold Dat.fetched Dat.blockOf blk2; rw [hA]; try rfl)

/-! ## What one grid point stores -/

/-- The body's single store, of the whole output block. -/
abbrev whole2 : Rect S2048x1024 := Rect.unit (s := S2048x1024) ![0, 0] S2048x1024.size inb_S2048x1024_S2048x1024_0_0

/-- The output block after the body, as a function of the input blocks: the one store's value, the body's
    arithmetic `k2_pay1` of the loaded blocks. -/
def stored2 (x0 : Vec F S2048x64 .bf16) (x1 : Vec F S1024x64 .bf16) : Vec F S2048x1024 .f32 :=
  View.canon [⟨whole2, k2_pay1 (View.ld x0 (Rect.unit (s := S2048x64) ![0, 0] S2048x64.size inb_S2048x64_S2048x64_0_0)) (View.ld x1 (Rect.unit (s := S1024x64) ![0, 0] S1024x64.size inb_S1024x64_S1024x64_0_0))⟩]

/-- That store covers the block. -/
theorem covers2 (p0 : Vec F S2048x1024 .f32) (y : S2048x1024.Idx) :
    ∃ pc ∈ ([⟨whole2, p0⟩] : List (View.Piece (Elt F) S2048x1024 .f32)), y ∈ pc.1.set :=
  View.cover_of_tiled [⟨whole2, p0⟩] S2048x1024.size (by rfl) y

/-! ## The body's triple -/

set_option maxHeartbeats 1000000 in
/-- On whole staging buffers — the inputs' at contents `x·`, the output's at anything — the body runs without a fault, leaves
    the inputs' buffers as they were and the output's at `stored2` of the inputs. -/
theorem body_runs2 (c : Dev nD) (E : Set ℕ) (i : grid2.Coords) (a0 : Memref sig .tc .vmem S2048x64 .bf16) (ha0 : a0.IsWhole) (a1 : Memref sig .tc .vmem S1024x64 .bf16) (ha1 : a1.IsWhole) (a2 : Memref sig .tc .vmem S2048x1024 .f32) (ha2 : a2.IsWhole)
    (x0 : Vec F S2048x64 .bf16) (x1 : Vec F S1024x64 .bf16) (Q : PUnit → sProp 𝕄) :
    iprop(owns (c : Thread nD τ) a0 fullShare x0 ∗ owns (c : Thread nD τ) a1 fullShare x1 ∗ (∃ d, owns (c : Thread nD τ) a2 fullShare d)
        ∗ (iprop(owns (c : Thread nD τ) a0 fullShare x0 ∗ owns (c : Thread nD τ) a1 fullShare x1 ∗ owns (c : Thread nD τ) a2 fullShare (stored2 x0 x1)) -∗ Q ⟨⟩))
      ⊢ wp frame (wpE (defs₀ (F := F)) Variants.none c none) E (cc2__decode_kernel i a0 ha0 a1 ha1 a2 ha2) Q := by
  simp only [cc2__decode_kernel_eq_skeleton]; unfold cc2__decode_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (covers2 _)

/-! ## The call's data: what every buffer holds at every point -/

/-- The arrays are as the call finds them; after the body at point `t` each input's staging buffer still holds its block and the
    output's holds `stored2` of the input blocks; the scoped buffers of the other calls and the generator register ride along
    untouched; nothing is owed to another core. -/
def dat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => stored2 (blk2 V c 0 t) (blk2 V c 1 t)
  Φ _ := Pipeline.ΦA spec2 c
  q w := match w with
    | ⟨0, _⟩ => fullShare.left
    | ⟨1, _⟩ => fullShare.right
    | _ => fullShare
  owed _ := 0

theorem arr2 (c : Dev nD) (w : Fin cfg2.W) : (dat2 V c).A w = V c (Pipeline.arrRef spec2 w) := by
  dsimp only [dat2]

theorem left2_0 (c : Dev nD) (t : Fin cfg2.N) : (dat2 V c).after 0 t = blk2 V c 0 t := by dsimp only [dat2]
theorem left2_1 (c : Dev nD) (t : Fin cfg2.N) : (dat2 V c).after 1 t = blk2 V c 1 t := by dsimp only [dat2]
theorem left2_2 (c : Dev nD) (t : Fin cfg2.N) : (dat2 V c).after 2 t = stored2 (blk2 V c 0 t) (blk2 V c 1 t) := by dsimp only [dat2]

theorem held2_0 (c : Dev nD) (t : Fin cfg2.N) (d) : (dat2 V c).before 0 t d = blk2 V c 0 t :=
  held2_0_of V (dat2 V c) (arr2 V c 0) (left2_0 V c) t d
theorem held2_1 (c : Dev nD) (t : Fin cfg2.N) (d) : (dat2 V c).before 1 t d = blk2 V c 1 t :=
  held2_1_of V (dat2 V c) (arr2 V c 1) (left2_1 V c) t d

/-! ## The body at a grid point -/

/-- What the pipeline calls the body with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it gets back. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

theorem body_at2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [held2_0, held2_1]
  rw [show (dat2 V c).Φ t.succ = (dat2 V c).Φ t.castSucc from rfl,
    show (dat2 V c).owesAt () t.succ = (dat2 V c).owesAt () t.castSucc from rfl,
    left2_0, left2_1, left2_2]
  iintro ⟨HΦ, Ho, ⟨%d0, H0⟩, ⟨%d1, H1⟩, ⟨%d2, H2⟩⟩
  iapply (body_runs2 c Set.univ _ _ _ _ _ _ _ (blk2 V c 0 t) (blk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body's obligation to the pipeline, at every point. -/
theorem body_obligation2 (c : Dev nD) : BodyObligation (dat2 (F := F) V c) (defs₀ (F := F)) Variants.none () Set.univ := fun t => by
  rw [bigSep_W2, bigSep_W2]
  exact body_at2 V c t

end Cert.KernelIdeal.Rg

end
-- ==== Proof.Between.lean ====
/-
  The three calls in sequence. Between two items of the program every buffer of the core that no call scopes is held whole at
  known contents: the launch memory pushed through the host operations so far, with each call's result array replaced by what
  that call's grid points wrote back. Each call is entered from that state, splits its windows' arrays out of it, runs its
  pipeline, and puts the arrays back. The decode call reads ONE array through two windows; it holds that array as two half
  shares, one per window, split at entry and rejoined at exit. Stated at any float instance.
-/
import proofs.«110445_j79267916415284_2_alg».proof.Proof.Region0
import proofs.«110445_j79267916415284_2_alg».proof.Proof.Region1
import proofs.«110445_j79267916415284_2_alg».proof.Proof.Region2
import proofs.«110445_j79267916415284_2_alg».proof.Proof.Gen.KernelIdeal.Regions

set_option maxRecDepth 16384

noncomputable section

namespace Cert.KernelIdeal.Rg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## What each call leaves in its result array -/

/-- The three result arrays' contents after their calls, as one family; every other buffer is never asked for. -/
def leaves (A0 : (c : Dev nD) → Buf (Elt F) ((c : Thread nD τ).loc main_v17)) (A1 : (c : Dev nD) → Buf (Elt F) ((c : Thread nD τ).loc main_v36))
    (A2 : (c : Dev nD) → Buf (Elt F) ((c : Thread nD τ).loc main_v58)) : Outs (F := F) := fun _ r c =>
  if h17 : r = main_v17 then by subst h17; exact A0 c
  else if h36 : r = main_v36 then by subst h36; exact A1 c
  else if h58 : r = main_v58 then by subst h58; exact A2 c
  else m ((c : Thread nD τ).loc r)

theorem leaves_17 (A0 A1 A2) (J : ℕ) (c : Dev nD) : leaves m A0 A1 A2 J main_v17 c = A0 c := by
  unfold leaves; rw [dif_pos rfl]
theorem leaves_36 (A0 A1 A2) (J : ℕ) (c : Dev nD) : leaves m A0 A1 A2 J main_v36 c = A1 c := by
  unfold leaves; rw [dif_neg (by decide), dif_pos rfl]
theorem leaves_58 (A0 A1 A2) (J : ℕ) (c : Dev nD) : leaves m A0 A1 A2 J main_v58 c = A2 c := by
  unfold leaves; rw [dif_neg (by decide), dif_neg (by decide), dif_pos rfl]

/-- The first call is entered from the launch memory after the first stretch of host operations. -/
abbrev In0 : (c : Dev nD) → (b : Ref sig .tc) → Buf (Elt F) ((c : Thread nD τ).loc b) := fun c b => V1 m c b
/-- What the first call leaves in its result array: its grid points' blocks, written back one by one. -/
def res0 (c : Dev nD) : Buf (Elt F) ((c : Thread nD τ).loc main_v17) := (dat0 (In0 m) c).arrAt 3 cfg0.N
abbrev leavesA : Outs (F := F) := leaves m (res0 m) (fun c => m ((c : Thread nD τ).loc main_v36)) (fun c => m ((c : Thread nD τ).loc main_v58))
/-- The second call is entered after the host operations between the calls, which read the first call's result. -/
abbrev In1 : (c : Dev nD) → (b : Ref sig .tc) → Buf (Elt F) ((c : Thread nD τ).loc b) := fun c b => V5 m (leavesA m) c b
def res1 (c : Dev nD) : Buf (Elt F) ((c : Thread nD τ).loc main_v36) := (dat1 (In1 m) c).arrAt 3 cfg1.N
abbrev leavesB : Outs (F := F) := leaves m (res0 m) (res1 m) (fun c => m ((c : Thread nD τ).loc main_v58))
abbrev In2 : (c : Dev nD) → (b : Ref sig .tc) → Buf (Elt F) ((c : Thread nD τ).loc b) := fun c b => V7 m (leavesB m) c b
def res2 (c : Dev nD) : Buf (Elt F) ((c : Thread nD τ).loc main_v58) := (dat2 (In2 m) c).arrAt 2 cfg2.N
/-- All three. -/
abbrev leavesC : Outs (F := F) := leaves m (res0 m) (res1 m) (res2 m)

/-- The contents between items depend on the family only through the result arrays already written. -/
theorem V5_leaves (c : Dev nD) : V5 m (leavesC m) c = V5 m (leavesA m) c := by
  have hC : leavesC m 2 main_v17 c = res0 m c := leaves_17 m _ _ _ 2 c
  have hA : leavesA m 2 main_v17 c = res0 m c := leaves_17 m _ _ _ 2 c
  show StableHlo.after hostOps1_2 (StableHlo.after hostOps1_1 (StableHlo.after hostOps1 (Function.update (V1 m c) main_v17 (leavesC m 2 main_v17 c)))) = StableHlo.after hostOps1_2 (StableHlo.after hostOps1_1 (StableHlo.after hostOps1 (Function.update (V1 m c) main_v17 (leavesA m 2 main_v17 c))))
  rw [hC, hA]
theorem V7_leaves (c : Dev nD) : V7 m (leavesC m) c = V7 m (leavesB m) c := by
  have hC6 : leavesC m 6 main_v36 c = res1 m c := leaves_36 m _ _ _ 6 c
  have hB6 : leavesB m 6 main_v36 c = res1 m c := leaves_36 m _ _ _ 6 c
  have hC : leavesC m 2 main_v17 c = res0 m c := leaves_17 m _ _ _ 2 c
  have hB : leavesB m 2 main_v17 c = res0 m c := leaves_17 m _ _ _ 2 c
  show StableHlo.after hostOps2 (Function.update (StableHlo.after hostOps1_2 (StableHlo.after hostOps1_1 (StableHlo.after hostOps1 (Function.update (V1 m c) main_v17 (leavesC m 2 main_v17 c))))) main_v36 (leavesC m 6 main_v36 c)) = StableHlo.after hostOps2 (Function.update (StableHlo.after hostOps1_2 (StableHlo.after hostOps1_1 (StableHlo.after hostOps1 (Function.update (V1 m c) main_v17 (leavesB m 2 main_v17 c))))) main_v36 (leavesB m 6 main_v36 c))
  rw [hC6, hB6, hC, hB]

end Cert.KernelIdeal.Rg

end
-- ==== Proof.TwoWindows.lean ====
/-
  The decode call reads one latent array through two windows (a block of rows, and a block of rows used as columns). A core
  that holds every unscoped buffer whole gives the call that array as two half shares, one per window, beside its result array
  at the full share; at the end the two halves, which agree, make the whole again.
-/
import proofs.«110445_j79267916415284_2_alg».proof.Proof.Region2

noncomputable section

namespace Cert.KernelIdeal.Rg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The two distinct buffers behind the three windows. -/
theorem arrays_of_decode : Finset.univ.image (Pipeline.arrRef spec2) = {main_v57, main_v58} := by decide

variable {c : Dev nD} (dat : Dat τ (Elt F) Unit ℕ (UR sig nD τ) ℕ cfg2 c)

/-- The call's arrays, window by window: the latent array twice, at the two halves, and the result array. -/
theorem arrays_decode (hs0 : dat.share 0 = fullShare.left) (hs1 : dat.share 1 = fullShare.right) (hs2 : dat.share 2 = fullShare)
    (G : (w : Fin cfg2.W) → Buf (Elt F) ((cfg2.win w).arr.view.loc (c.tc : Thread nD τ))) :
    dat.arrays G = (iprop((((cfg2.win 0).arr.view.loc (c.tc : Thread nD τ)) ↦{fullShare.left} G 0)
      ∗ (((cfg2.win 1).arr.view.loc (c.tc : Thread nD τ)) ↦{fullShare.right} G 1)
      ∗ (((cfg2.win 2).arr.view.loc (c.tc : Thread nD τ)) ↦{fullShare} G 2)) : sProp 𝕄) := by
  unfold Dat.arrays
  rw [bigSep_W2, (arr_whole2 0).set_eq_univ, (arr_whole2 2).set_eq_univ, hs0, hs1, hs2]

/-- ENTRY: every unscoped buffer at `V` is the call's arrays at `V`'s contents and the other unscoped buffers. -/
theorem decode_arrays_of_unscoped (hs0 : dat.share 0 = fullShare.left) (hs1 : dat.share 1 = fullShare.right) (hs2 : dat.share 2 = fullShare)
    (V : (b : Ref sig .tc) → Buf (Elt F) ((c.tc : Thread nD τ).loc b))
    (G : (w : Fin cfg2.W) → Buf (Elt F) ((cfg2.win w).arr.view.loc (c.tc : Thread nD τ))) (hG : ∀ w, G w = V (Pipeline.arrRef spec2 w)) :
    (unscopedBufs c V : sProp 𝕄) ⊢ iprop(dat.arrays G ∗ Pipeline.unscopedRest spec2 c V) := by
  rw [Pipeline.unscopedBufs_split₀ cfgs (2 : Fin 3) winFacts₀2.arr_unscoped c V, arrays_decode dat hs0 hs1 hs2 G, hG 0, hG 1, hG 2]
  unfold Pipeline.arrBufs
  rw [show Finset.univ.image (Pipeline.arrRef (cfgs (2 : Fin 3)).spec) = {main_v57, main_v58} from arrays_of_decode, bigSep_insert (by decide), bigSep_singleton]
  refine BI.sep_mono ?_ ?_
  · refine (BI.sep_mono (pointsTo_share (ℓ := (c.tc : Thread nD τ).loc main_v57) (I := Finset.univ) (f := V main_v57) (PosShare.mem_left_op_right fullShare)).1 (BI.Entails.refl _)).trans ?_
    exact BI.sep_assoc
  · exact BI.Entails.refl _

/-- EXIT: the call's arrays at `G` and the other unscoped buffers at `V` are every unscoped buffer at any `V'` that has the
    arrays at `G` and is `V` elsewhere. -/
theorem decode_unscoped_of_arrays (hs0 : dat.share 0 = fullShare.left) (hs1 : dat.share 1 = fullShare.right) (hs2 : dat.share 2 = fullShare)
    (V V' : (b : Ref sig .tc) → Buf (Elt F) ((c.tc : Thread nD τ).loc b))
    (G : (w : Fin cfg2.W) → Buf (Elt F) ((cfg2.win w).arr.view.loc (c.tc : Thread nD τ))) (hG : ∀ w, G w = V' (Pipeline.arrRef spec2 w))
    (hrest : ∀ b, b ∉ Finset.univ.image (Pipeline.arrRef spec2) → V' b = V b) :
    iprop(dat.arrays G ∗ Pipeline.unscopedRest spec2 c V) ⊢ (unscopedBufs c V' : sProp 𝕄) := by
  rw [Pipeline.unscopedBufs_split₀ cfgs (2 : Fin 3) winFacts₀2.arr_unscoped c V', arrays_decode dat hs0 hs1 hs2 G, hG 0, hG 1, hG 2]
  unfold Pipeline.arrBufs
  rw [show Finset.univ.image (Pipeline.arrRef (cfgs (2 : Fin 3)).spec) = {main_v57, main_v58} from arrays_of_decode, bigSep_insert (by decide), bigSep_singleton]
  have hr : (Pipeline.unscopedRest spec2 c V : sProp 𝕄) = Pipeline.unscopedRest spec2 c V' := by
    unfold Pipeline.unscopedRest
    exact bigSep_congr fun b hb => by rw [hrest b (Finset.mem_sdiff.mp hb).2]
  refine BI.sep_mono ?_ (Entails.of_eq hr)
  refine BI.sep_assoc'.trans ?_
  exact BI.sep_mono (pointsTo_share (ℓ := (c.tc : Thread nD τ).loc main_v57) (I := Finset.univ) (f := V' main_v57) (PosShare.mem_left_op_right fullShare)).2 (BI.Entails.refl _)

end Cert.KernelIdeal.Rg

end
-- ==== Proof.Calls.lean ====
/-
  Each call as a segment of the program, and the program's frame: it terminates without a fault and leaves its arguments as it
  found them. A call is entered holding every unscoped buffer at the contents computed so far, beside the generator register and
  the fact that the core owes nothing; it leaves holding the same with its result array replaced by what its grid points wrote.
-/
import proofs.«110445_j79267916415284_2_alg».proof.Proof.Between
import proofs.«110445_j79267916415284_2_alg».proof.Proof.TwoWindows

set_option maxRecDepth 16384

noncomputable section

namespace Cert.KernelIdeal.Rg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The calls' data, each at its entry contents -/

def pdats : (p : Fin 3) → (c : Dev nD) → Dat τ (Elt F) Unit ℕ (UR sig nD τ) ℕ (cfgs p) c
  | ⟨0, _⟩ => fun c => dat0 (In0 m) c
  | ⟨1, _⟩ => fun c => dat1 (In1 m) c
  | ⟨2, _⟩ => fun c => dat2 (In2 m) c

abbrev noVariants : Variants := Variants.none
abbrev noLevels : GSem nD τ sig → Finset Unit := fun _ => ∅
abbrev levelZero : GSem nD τ sig → Unit → ℕ := fun _ _ => 0

/-- What rides beside the buffers through every item: the generator register at some state, and nothing owed. -/
abbrev beside (c : Dev nD) : sProp 𝕄 := iprop((∃ r, prngReg c r) ∗ ∃ W, owes (c : Thread nD τ) (0 : CellTallies nD τ sig Unit) W)

/-! ## What each call's arrays hold when it ends -/

theorem ends0 (c : Dev nD) (w : Fin cfg0.W) : (pdats m 0 c).arrAt w cfg0.N = V2 m (leavesC m) c (Pipeline.arrRef spec0 w) := by
  match w with
  | ⟨0, _⟩ => exact ((pdats m 0 c).arrAt_in 0 rfl _).trans (V2_of m (leavesC m) c main_arg0 (by decide)).symm
  | ⟨1, _⟩ => exact ((pdats m 0 c).arrAt_in 1 rfl _).trans (V2_of m (leavesC m) c main_v15 (by decide)).symm
  | ⟨2, _⟩ => exact ((pdats m 0 c).arrAt_in 2 rfl _).trans (V2_of m (leavesC m) c main_arg4 (by decide)).symm
  | ⟨3, _⟩ =>
    show res0 m c = Function.update (V1 m c) main_v17 (leavesC m 2 main_v17 c) main_v17
    rw [Function.update_self]; exact (leaves_17 m _ _ _ 2 c).symm

theorem rest0 (c : Dev nD) : ∀ b, b ∉ Finset.univ.image (Pipeline.arrRef spec0) → V2 m (leavesC m) c b = In0 m c b :=
  fun b hb => V2_of m (leavesC m) c b fun h => hb (by
    rw [List.mem_singleton] at h; subst h; exact Finset.mem_image.mpr ⟨3, Finset.mem_univ _, rfl⟩)

theorem ends1 (c : Dev nD) (w : Fin cfg1.W) : (pdats m 1 c).arrAt w cfg1.N = V6 m (leavesC m) c (Pipeline.arrRef spec1 w) := by
  match w with
  | ⟨0, _⟩ => exact ((pdats m 1 c).arrAt_in 0 rfl _).trans (((V6_of m (leavesC m) c main_v33 (by decide)).trans (congrFun (V5_leaves m c) _)).symm)
  | ⟨1, _⟩ => exact ((pdats m 1 c).arrAt_in 1 rfl _).trans (((V6_of m (leavesC m) c main_v15 (by decide)).trans (congrFun (V5_leaves m c) _)).symm)
  | ⟨2, _⟩ => exact ((pdats m 1 c).arrAt_in 2 rfl _).trans (((V6_of m (leavesC m) c main_v34 (by decide)).trans (congrFun (V5_leaves m c) _)).symm)
  | ⟨3, _⟩ =>
    show res1 m c = Function.update (V5 m (leavesC m) c) main_v36 (leavesC m 6 main_v36 c) main_v36
    rw [Function.update_self]; exact (leaves_36 m _ _ _ 6 c).symm

theorem rest1 (c : Dev nD) : ∀ b, b ∉ Finset.univ.image (Pipeline.arrRef spec1) → V6 m (leavesC m) c b = In1 m c b :=
  fun b hb => (V6_of m (leavesC m) c b fun h => hb (by
    rw [List.mem_singleton] at h; subst h; exact Finset.mem_image.mpr ⟨3, Finset.mem_univ _, rfl⟩)).trans (congrFun (V5_leaves m c) _)

theorem ends2 (c : Dev nD) (w : Fin cfg2.W) : (pdats m 2 c).arrAt w cfg2.N = V8 m (leavesC m) c (Pipeline.arrRef spec2 w) := by
  match w with
  | ⟨0, _⟩ => exact ((pdats m 2 c).arrAt_in 0 rfl _).trans (((V8_of m (leavesC m) c main_v57 (by decide)).trans (congrFun (V7_leaves m c) _)).symm)
  | ⟨1, _⟩ => exact ((pdats m 2 c).arrAt_in 1 rfl _).trans (((V8_of m (leavesC m) c main_v57 (by decide)).trans (congrFun (V7_leaves m c) _)).symm)
  | ⟨2, _⟩ =>
    show res2 m c = Function.update (V7 m (leavesC m) c) main_v58 (leavesC m 8 main_v58 c) main_v58
    rw [Function.update_self]; exact (leaves_58 m _ _ _ 8 c).symm

theorem rest2 (c : Dev nD) : ∀ b, b ∉ Finset.univ.image (Pipeline.arrRef spec2) → V8 m (leavesC m) c b = In2 m c b :=
  fun b hb => (V8_of m (leavesC m) c b fun h => hb (by
    rw [List.mem_singleton] at h; subst h; exact Finset.mem_image.mpr ⟨2, Finset.mem_univ _, rfl⟩)).trans (congrFun (V7_leaves m c) _)

/-! ## The calls as segments -/

set_option backward.isDefEq.respectTransparency.types false in
/-- The first projection call. -/
def call0 : Pipeline.RegionSeg (pcfgs (F := F)) adm (pdats m) () defs₀ noVariants noLevels levelZero 0 where
  win := launch0.win.to₀
  block_pos := launch0.block_pos
  stage_whole := launch0.stage_whole
  K := PEmpty
  osem k := k.elim
  ho := Pipeline.OwnSemFacts.none _
  hbody c := (body_obligation0 (In0 m) c).loose
  hwaits := Pipeline.hwaits_of_owed_zero _ _ _ _ noLevels levelZero 0 fun _ _ => rfl
  pre c := iprop(StableHlo.held (c : Thread nD τ) (Pipeline.ucRefs τ sig) (V1 m c) ∗ beside c)
  post c := iprop(StableHlo.held (c : Thread nD τ) (Pipeline.ucRefs τ sig) (V2 m (leavesC m) c) ∗ beside c)
  X c := iprop(∃ r, prngReg c r)
  Y c := iprop(∃ r, prngReg c r)
  Z c := Pipeline.unscopedRest (Ix := Unit) (Name := ℕ) (U := UR sig nD τ) (Lvl := ℕ) spec0 c (In0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (In0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (In0 m c) (fun b => V2 m (leavesC m) c b) ((pdats m 0 c).arrAt · cfg0.N) (ends0 m c) (rest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second projection call. -/
def call1 : Pipeline.RegionSeg (pcfgs (F := F)) adm (pdats m) () defs₀ noVariants noLevels levelZero 1 where
  win := launch1.win.to₀
  block_pos := launch1.block_pos
  stage_whole := launch1.stage_whole
  K := PEmpty
  osem k := k.elim
  ho := Pipeline.OwnSemFacts.none _
  hbody c := (body_obligation1 (In1 m) c).loose
  hwaits := Pipeline.hwaits_of_owed_zero _ _ _ _ noLevels levelZero 1 fun _ _ => rfl
  pre c := iprop(StableHlo.held (c : Thread nD τ) (Pipeline.ucRefs τ sig) (V5 m (leavesC m) c) ∗ beside c)
  post c := iprop(StableHlo.held (c : Thread nD τ) (Pipeline.ucRefs τ sig) (V6 m (leavesC m) c) ∗ beside c)
  X c := iprop(∃ r, prngReg c r)
  Y c := iprop(∃ r, prngReg c r)
  Z c := Pipeline.unscopedRest (Ix := Unit) (Name := ℕ) (U := UR sig nD τ) (Lvl := ℕ) spec1 c (In1 m c)
  hentry c := by
    rw [Pipeline.ownSems0_none, V5_leaves]
    have hsplit := Pipeline.arrays_of_unscopedBufs (p := 1) (pcfgs (F := F)) adm (pdats m) launch1.win launch1.arr_whole c
      ((pdats m 1 c).share_full fun _ => rfl) (In1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (In1 m c) (fun b => V6 m (leavesC m) c b) ((pdats m 1 c).arrAt · cfg1.N) (ends1 m c) (rest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem share2_0 (c : Dev nD) : (pdats m 2 c).share 0 = fullShare.left := rfl
theorem share2_1 (c : Dev nD) : (pdats m 2 c).share 1 = fullShare.right := rfl
theorem share2_2 (c : Dev nD) : (pdats m 2 c).share 2 = fullShare := rfl

set_option backward.isDefEq.respectTransparency.types false in
/-- The decode call: its two input windows on the one latent array. -/
def call2 : Pipeline.RegionSeg (pcfgs (F := F)) adm (pdats m) () defs₀ noVariants noLevels levelZero 2 where
  win := winFacts₀2
  block_pos := block_pos2
  stage_whole := stage_whole2
  K := PEmpty
  osem k := k.elim
  ho := Pipeline.OwnSemFacts.none _
  hbody c := (body_obligation2 (In2 m) c).loose
  hwaits := Pipeline.hwaits_of_owed_zero _ _ _ _ noLevels levelZero 2 fun _ _ => rfl
  pre c := iprop(StableHlo.held (c : Thread nD τ) (Pipeline.ucRefs τ sig) (V7 m (leavesC m) c) ∗ beside c)
  post c := iprop(StableHlo.held (c : Thread nD τ) (Pipeline.ucRefs τ sig) (V8 m (leavesC m) c) ∗ beside c)
  X c := iprop(∃ r, prngReg c r)
  Y c := iprop(∃ r, prngReg c r)
  Z c := Pipeline.unscopedRest (Ix := Unit) (Name := ℕ) (U := UR sig nD τ) (Lvl := ℕ) spec2 c (In2 m c)
  hentry c := by
    rw [Pipeline.ownSems0_none, V7_leaves]
    have hsplit := decode_arrays_of_unscoped (pdats m 2 c) (share2_0 m c) (share2_1 m c) (share2_2 m c) (In2 m c)
      ((pdats m 2 c).arrAt · 0) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := decode_unscoped_of_arrays (pdats m 2 c) (share2_0 m c) (share2_1 m c) (share2_2 m c)
      (In2 m c) (fun b => V8 m (leavesC m) c b) ((pdats m 2 c).arrAt · cfg2.N) (ends2 m c) (rest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The frame -/

/-- What rides beside the buffers at each of the four stretches between and around the calls. -/
abbrev besides : Fin 4 → Dev nD → sProp 𝕄 := fun _ c => beside c

theorem launch_ghost : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj))) ∗ bigSep Finset.univ fun _ : Dev nD => (BI.emp : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

theorem launch_beside (ρ : Dev nD → PrngReg) :
    iprop((bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄))) ∗ levAts noLevels levelZero)
      ⊢ (|={Set.univ}=> bigSep Finset.univ (besides (F := F) 0) : sProp 𝕄) := by
  refine Pipeline.initEach noLevels levelZero fun c => ?_
  iintro ⟨⟨-, HO, -, Hp, -⟩, -⟩
  imodintro
  isplitl [Hp]; · iexists _; iexact Hp
  iexists ∅; iexact HO

/-- The program terminates without a fault and every argument array ends as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_cond m emb₁ () noVariants noLevels levelZero (fun _ _ => rfl) ρ (leavesC m) (pdats m) 0 (fun _ => iprop(emp))
    (initOf (Pipeline.cells cfgs cellOf_inj) (Pipeline.launchToks cfgs cellOf_inj)) launch_ghost
    besides (launch_beside ρ) (fun c => by iintro ⟨-, HO⟩; iexact HO)
    (call0 m) (fun _ => .rfl) (fun _ => .rfl) (call1 m) (fun _ => .rfl) (fun _ => .rfl) (call2 m) (fun _ => .rfl) (fun _ => .rfl)

end Cert.KernelIdeal.Rg

end
-- ==== Proof.ValueRun.lean ====
/-
  The same run of the three calls, now keeping what the two results hold at the end: the decode call's array as its grid
  points wrote it, and the latent array as the host operations before that call computed it.
-/
import proofs.«110445_j79267916415284_2_alg».proof.Proof.Calls

set_option maxRecDepth 16384

noncomputable section

namespace Cert.KernelIdeal.Rg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Every weakly fair execution terminates without a fault; the two results end at the contents the last item leaves, and
    every argument array ends as launched. -/
theorem run (ρ : Dev nD → PrngReg) : θ_run defs (onTc (τ := τ) (main (F := F))) ⟨m, fun _ => 0, ρ⟩ (fun r => ∀ c : Dev nD,
      r.2.mem ((c.tc : Thread nD τ).loc main_v58) = V8 m (leavesC m) c main_v58
      ∧ r.2.mem ((c.tc : Thread nD τ).loc main_v56) = V8 m (leavesC m) c main_v56
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) := by
  refine Pipeline.θ_run_regions_kit_dev (pcfgs (F := F)) adm (pdats m) () cellOf_inj emb₁ defs₀ noVariants noLevels levelZero m ρ main
    (segs m (leavesC m) noVariants noLevels levelZero besides () (pdats m) (call0 m) (call1 m) (call2 m))
    (fun c Q => by
      rewrite [main_chain c, Seg.run_eq_chain,
        show (segs m (leavesC m) noVariants noLevels levelZero besides () (pdats m) (call0 m) (call1 m) (call2 m) c).map Seg.prog = [
          StableHlo.seq hostOps0,
          Prog.lift (.customCall (Pipeline.entry 0) ()),
          StableHlo.seq hostOps1,
          StableHlo.seq hostOps1_1,
          StableHlo.seq hostOps1_2,
          Prog.lift (.customCall (Pipeline.entry 1) ()),
          StableHlo.seq hostOps2,
          Prog.lift (.customCall (Pipeline.entry 2) ()) ] from rfl]
      exact .rfl)
    (fun c => by simp only [segs, Seg.pipes_host, Seg.pipes_region, Seg.pipes_nil]; decide) 0 (fun _ _ => rfl) (fun _ => iprop(emp))
    (initOf (Pipeline.cells cfgs cellOf_inj) (Pipeline.launchToks cfgs cellOf_inj)) launch_ghost
    (T₀ := fun c => iprop(StableHlo.held (c : Thread nD τ) (Pipeline.ucRefs τ sig) (V0 m c) ∗ besides 0 c))
    (Tₙ := fun c => StableHlo.held (c : Thread nD τ) (Pipeline.ucRefs τ sig) (V8 m (leavesC m) c))
    (hch := fun c => ⟨.rfl, .rfl, .rfl, .rfl, .rfl, .rfl, .rfl, .rfl, (show iprop(StableHlo.held (c : Thread nD τ) (Pipeline.ucRefs τ sig) (V8 m (leavesC m) c) ∗ beside c) ⊢ iprop(StableHlo.held (c : Thread nD τ) (Pipeline.ucRefs τ sig) (V8 m (leavesC m) c) ∗ ∃ W, owes (c : Thread nD τ) (0 : CellTallies nD τ sig Unit) W) from sep_mono .rfl (by iintro ⟨-, HO⟩; iexact HO))⟩)
    (hinit := ?_) (QY := fun c s => s.mem ((c.tc : Thread nD τ).loc main_v58) = V8 m (leavesC m) c main_v58
      ∧ s.mem ((c.tc : Thread nD τ).loc main_v56) = V8 m (leavesC m) c main_v56
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_arg6) = m ((c.tc : Thread nD τ).loc main_arg6)
      ∧ s.mem ((c.tc : Thread nD τ).loc main_arg7) = m ((c.tc : Thread nD τ).loc main_arg7)
      ∧ s.mem ((c.tc : Thread nD τ).loc main_arg8) = m ((c.tc : Thread nD τ).loc main_arg8)
      ∧ s.mem ((c.tc : Thread nD τ).loc main_arg9) = m ((c.tc : Thread nD τ).loc main_arg9))
    (hfin := fun c s' => ?_) (hQ := fun _ h => h)
  · -- the launch: the unscoped buffers are held at the launch memory; the rest makes what rides beside them
    have hsplit : (bigSep Finset.univ fun c : Dev nD => iprop(unscopedBufs c (fun b => m ((c.tc : Thread nD τ).loc b)) ∗ unscopedSems0 c
          ∗ owes (c.tc : Thread nD τ) ((0 : Dev nD → CellTallies nD τ sig Unit) c) ∅ ∗ Pipeline.launchCred (0 : Dev nD → CellTallies nD τ sig Unit) c ∗ prngReg c (ρ c) ∗ (BI.emp : sProp 𝕄)))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄)))
            : sProp 𝕄) := by
      rw [← bigSep_sep']
      exact bigSep_mono fun c _ => by rw [← Pipeline.unscopedBufs_held (Ix := Unit) (Name := ℕ) (U := UR sig nD τ) (Lvl := ℕ) c (V0 m c)]; exact BI.Entails.refl _
    iintro ⟨H, Hla⟩
    ihave H' := hsplit $$ H
    icases H' with ⟨Hh, Hr⟩
    imod (launch_beside (F := F) ρ) $$ [Hr Hla] with HE
    · isplitl [Hr]; · iexact Hr
      iexact Hla
    imodintro
    rw [bigSep_sep' Finset.univ (fun c : Dev nD => StableHlo.held (c : Thread nD τ) (Pipeline.ucRefs τ sig) (V0 m c)) (besides (F := F) 0)]
    isplitl [Hh]; · iexact Hh
    iexact HE
  · -- the end: each buffer read off the last contents
    unfold StableHlo.held
    iintro ⟨Hh, HSI⟩
    ihave Hr := (pointsTo_read_all (Pipeline.ucRefs τ sig) (fun b => ((c : Thread nD τ).1, b)) (V8 m (leavesC m) c) s') $$ [Hh HSI]
    · isplitl [Hh] <;> iassumption
    icases Hr with ⟨%h, HSI⟩
    imodintro
    isplitr
    · ipureintro
      exact ⟨h (Proc.devRef .tc main_v58) (Finset.mem_filter.mpr ⟨StableHlo.devRef_mem_tcRefs main_v58, by decide⟩),
        h (Proc.devRef .tc main_v56) (Finset.mem_filter.mpr ⟨StableHlo.devRef_mem_tcRefs main_v56, by decide⟩),
        (h (Proc.devRef .tc main_arg0) (Finset.mem_filter.mpr ⟨StableHlo.devRef_mem_tcRefs main_arg0, by decide⟩)).trans (V8_main_arg0 m (leavesC m) c),
        (h (Proc.devRef .tc main_arg1) (Finset.mem_filter.mpr ⟨StableHlo.devRef_mem_tcRefs main_arg1, by decide⟩)).trans (V8_main_arg1 m (leavesC m) c),
        (h (Proc.devRef .tc main_arg2) (Finset.mem_filter.mpr ⟨StableHlo.devRef_mem_tcRefs main_arg2, by decide⟩)).trans (V8_main_arg2 m (leavesC m) c),
        (h (Proc.devRef .tc main_arg3) (Finset.mem_filter.mpr ⟨StableHlo.devRef_mem_tcRefs main_arg3, by decide⟩)).trans (V8_main_arg3 m (leavesC m) c),
        (h (Proc.devRef .tc main_arg4) (Finset.mem_filter.mpr ⟨StableHlo.devRef_mem_tcRefs main_arg4, by decide⟩)).trans (V8_main_arg4 m (leavesC m) c),
        (h (Proc.devRef .tc main_arg5) (Finset.mem_filter.mpr ⟨StableHlo.devRef_mem_tcRefs main_arg5, by decide⟩)).trans (V8_main_arg5 m (leavesC m) c),
        (h (Proc.devRef .tc main_arg6) (Finset.mem_filter.mpr ⟨StableHlo.devRef_mem_tcRefs main_arg6, by decide⟩)).trans (V8_main_arg6 m (leavesC m) c),
        (h (Proc.devRef .tc main_arg7) (Finset.mem_filter.mpr ⟨StableHlo.devRef_mem_tcRefs main_arg7, by decide⟩)).trans (V8_main_arg7 m (leavesC m) c),
        (h (Proc.devRef .tc main_arg8) (Finset.mem_filter.mpr ⟨StableHlo.devRef_mem_tcRefs main_arg8, by decide⟩)).trans (V8_main_arg8 m (leavesC m) c),
        (h (Proc.devRef .tc main_arg9) (Finset.mem_filter.mpr ⟨StableHlo.devRef_mem_tcRefs main_arg9, by decide⟩)).trans (V8_main_arg9 m (leavesC m) c)⟩
    · iexact HSI

end Cert.KernelIdeal.Rg

end
-- ==== Proof.LibRowGather.lean ====
/-
  A gather of whole rows read at an index.

  What `x[idx]` of a table `x : [N, C]` at an integer vector `idx : [E]` lowers to: a gather with offset_dims `[1]`,
  collapsed_slice_dims `[0]`, start_index_map `[0]`, slice sizes `[1, C]` and index_vector_dim 1 over the indices as
  `[E, 1]`.  Result element `(e, k)` is `x` at row `idx[e, 0]` — read as a signed integer and clamped into `[0, N − 1]`,
  as a gather clamps every start index — and column `k`.
-/
import Idealize.ShloMosaic.PureOps
import Idealize.ShloMosaic.Lib.ValueIdx

noncomputable section

namespace Cert.Lib

open Idealize.ShloMosaic Idealize.ShloMosaic.ValueIdx

variable {α : Type}

/-- Those dimension numbers for a table `[N, C]`, start indices `[E, 1]` and result `[E, C]`. -/
abbrev rowDims (N C E : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, k)`: the table at the clamped row `idx[e, 0]` and column `k`. -/
theorem gather_rows_apply {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (k : Fin C) :
    Host.gather (rowDims N C E wf) x idx (ix2 e k)
      = x (ix2 (⟨min (idx (ix2 e 0)).toInt.toNat (N - 1), by omega⟩ : Fin N) k) := by
  unfold Host.gather
  congr 1
  funext a
  refine Fin.ext ?_
  show (rowDims N C E wf).start (ix2 e k) idx a + (rowDims N C E wf).batchCoord (ix2 e k) a
      + (rowDims N C E wf).offCoord (ix2 e k) a = _
  rw [GatherDims.batchCoord_eq_zero _ _ _ List.not_mem_nil, Nat.add_zero]
  have ha : a = (0 : Fin 2) ∨ a = (1 : Fin 2) := by
    rcases a with ⟨v, hv⟩
    have hv2 : v < 2 := hv
    rcases Nat.lt_or_ge v 1 with h | h
    · left; exact Fin.ext (by show v = 0; omega)
    · right; exact Fin.ext (by show v = 1; omega)
  rcases ha with rfl | rfl
  · rw [GatherDims.offCoord_eq_zero _ _ _
      (fun h => ((GatherDims.mem_sKept _ _).mp h).1 (List.mem_singleton.mpr rfl)), Nat.add_zero]
    unfold GatherDims.start
    rw [dif_pos (show (0 : Fin 2) ∈ (rowDims N C E wf).startIndexMap from List.mem_singleton.mpr rfl)]
    have hsi : (rowDims N C E wf).siIdx (ix2 e k) ⟨List.idxOf (0 : Fin 2) (rowDims N C E wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  · unfold GatherDims.start
    rw [dif_neg (show (1 : Fin 2) ∉ (rowDims N C E wf).startIndexMap from
      fun h => absurd (congrArg Fin.val (List.mem_singleton.mp h)) Nat.one_ne_zero), Nat.zero_add]
    rfl

end Cert.Lib

end
-- ==== Proof.RowScatter.lean ====
/-
  An accumulating scatter of whole rows read at an index.

  What `x.at[idx].add(upd)` of a table `x : [N, C]` at an integer vector `idx : [E]` with updates `upd : [E, C]`
  (a segment sum) lowers to: a scatter with update_window_dims `[1]`, inserted_window_dims `[0]`,
  scatter_dims_to_operand_dims `[0]` and index_vector_dim 1 over the indices as `[E, 1]`.  Update element `(e, k')`
  lands at row `idx[e, 0]` — read as a signed integer and NOT clamped: a row outside `[0, N − 1]` is dropped — and
  column `k'`.  So over the extended reals result element `(r, k)` is `x (r, k)` plus the sum of `upd (e, k)` over the
  rows `e` whose index is `r`.
-/
import Idealize.ShloMosaic.PureOps
import Idealize.ShloMosaic.PureOps.Ideal
import Idealize.ShloMosaic.Lib.ValueIdx

noncomputable section

open scoped BigOperators

namespace Cert.Sparse

open Idealize.ShloMosaic Idealize.ShloMosaic.ValueIdx

/-- Those dimension numbers for a table `[N, C]`, scatter indices `[E, 1]` and updates `[E, C]`. -/
abbrev scatterRowDims (N C E : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section
variable {N C E w : Nat} (wf : ScatterDims.WF ⟨2, ![N, C]⟩ ⟨2, ![E, 1]⟩ ⟨2, ![E, C]⟩ [1] [0] [0] 1)
  (idx : IVec ⟨2, ![E, 1]⟩ w) (e : Fin E) (k' : Fin C)

/-- On the row axis the window of update `(e, k')` starts at the signed index `idx[e, 0]`. -/
theorem start_row : (scatterRowDims N C E wf).start (ix2 e k') idx (0 : Fin 2) = (idx (ix2 e 0)).toInt := by
  unfold ScatterDims.start
  rw [dif_pos (show (0 : Fin 2) ∈ (scatterRowDims N C E wf).scatterDimsToOperandDims from List.mem_singleton.mpr rfl)]
  have hsi : (scatterRowDims N C E wf).siIdx (ix2 e k')
      ⟨List.idxOf (0 : Fin 2) (scatterRowDims N C E wf).scatterDimsToOperandDims,
        List.idxOf_lt_length_iff.2 (List.mem_singleton.mpr rfl)⟩ = ix2 e 0 := by
    funext b; refine Fin.ext ?_
    match b with
    | ⟨0, _⟩ => rfl
    | ⟨1, _⟩ => rfl
  rw [hsi]

/-- On the column axis it starts at `0`: the map names the row axis only. -/
theorem start_col : (scatterRowDims N C E wf).start (ix2 e k') idx (1 : Fin 2) = 0 := by
  unfold ScatterDims.start
  rw [dif_neg (show (1 : Fin 2) ∉ (scatterRowDims N C E wf).scatterDimsToOperandDims from
    fun h => absurd (congrArg Fin.val (List.mem_singleton.mp h)) Nat.one_ne_zero)]

/-- The row axis is inserted: its window coordinate is `0`. -/
theorem window_row : (scatterRowDims N C E wf).window (ix2 e k') (0 : Fin 2) = 0 := rfl

/-- The column axis carries the update's column. -/
theorem window_col : (scatterRowDims N C E wf).window (ix2 e k') (1 : Fin 2) = k'.val := rfl

end

section
variable {N C E w : Nat} (wf : ScatterDims.WF ⟨2, ![N, C]⟩ ⟨2, ![E, 1]⟩ ⟨2, ![E, C]⟩ [1] [0] [0] 1)
  (idx : IVec ⟨2, ![E, 1]⟩ w)

/-- Update `(e, k')` lands at `(r, k)` exactly when its row index is `r` and its column is `k`. -/
theorem resultIdx?_rows_iff (e : Fin E) (k' : Fin C) (r : Fin N) (k : Fin C) :
    (scatterRowDims N C E wf).resultIdx? (ix2 e k') idx = some (ix2 r k)
      ↔ (idx (ix2 e 0)).toInt = (r.val : Int) ∧ k' = k := by
  have h0 : (scatterRowDims N C E wf).start (ix2 e k') idx (0 : Fin 2)
      + (scatterRowDims N C E wf).window (ix2 e k') (0 : Fin 2) = (idx (ix2 e 0)).toInt := by
    rw [start_row, window_row]; exact Int.add_zero _
  have h1 : (scatterRowDims N C E wf).start (ix2 e k') idx (1 : Fin 2)
      + (scatterRowDims N C E wf).window (ix2 e k') (1 : Fin 2) = (k'.val : Int) := by
    rw [start_col, window_col]; exact Int.zero_add _
  unfold ScatterDims.resultIdx?
  constructor
  · intro h
    split at h
    · rename_i hall
      have hv := Option.some.inj h
      have e0 : ((scatterRowDims N C E wf).start (ix2 e k') idx (0 : Fin 2)
          + (scatterRowDims N C E wf).window (ix2 e k') (0 : Fin 2)).toNat = r.val :=
        congrArg Fin.val (congrFun hv (0 : Fin 2))
      have e1 : ((scatterRowDims N C E wf).start (ix2 e k') idx (1 : Fin 2)
          + (scatterRowDims N C E wf).window (ix2 e k') (1 : Fin 2)).toNat = k.val :=
        congrArg Fin.val (congrFun hv (1 : Fin 2))
      have p0 := (hall (0 : Fin 2)).1
      rw [h0] at e0 p0
      rw [h1] at e1
      refine ⟨by omega, Fin.ext (by omega)⟩
    · exact absurd h (by simp)
  · rintro ⟨ht, rfl⟩
    have hall : ∀ a : Fin 2, 0 ≤ (scatterRowDims N C E wf).start (ix2 e k') idx a
          + (scatterRowDims N C E wf).window (ix2 e k') a
        ∧ (scatterRowDims N C E wf).start (ix2 e k') idx a + (scatterRowDims N C E wf).window (ix2 e k') a
          < ((⟨2, ![N, C]⟩ : Shape).size a : Int) := by
      intro a
      match a with
      | ⟨0, _⟩ =>
        show 0 ≤ (scatterRowDims N C E wf).start (ix2 e k') idx (0 : Fin 2)
              + (scatterRowDims N C E wf).window (ix2 e k') (0 : Fin 2)
            ∧ (scatterRowDims N C E wf).start (ix2 e k') idx (0 : Fin 2)
              + (scatterRowDims N C E wf).window (ix2 e k') (0 : Fin 2) < (N : Int)
        rw [h0, ht]
        exact ⟨Int.natCast_nonneg _, Int.ofNat_lt.mpr r.isLt⟩
      | ⟨1, _⟩ =>
        show 0 ≤ (scatterRowDims N C E wf).start (ix2 e k') idx (1 : Fin 2)
              + (scatterRowDims N C E wf).window (ix2 e k') (1 : Fin 2)
            ∧ (scatterRowDims N C E wf).start (ix2 e k') idx (1 : Fin 2)
              + (scatterRowDims N C E wf).window (ix2 e k') (1 : Fin 2) < (C : Int)
        rw [h1]
        exact ⟨Int.natCast_nonneg _, Int.ofNat_lt.mpr k'.isLt⟩
    rw [dif_pos hall]
    refine congrArg some (funext fun a => Fin.ext ?_)
    match a with
    | ⟨0, _⟩ =>
      show ((scatterRowDims N C E wf).start (ix2 e k') idx (0 : Fin 2)
        + (scatterRowDims N C E wf).window (ix2 e k') (0 : Fin 2)).toNat = r.val
      rw [h0, ht]; exact Int.toNat_natCast _
    | ⟨1, _⟩ =>
      show ((scatterRowDims N C E wf).start (ix2 e k') idx (1 : Fin 2)
        + (scatterRowDims N C E wf).window (ix2 e k') (1 : Fin 2)).toNat = k'.val
      rw [h1]; exact Int.toNat_natCast _

/-- THE ROW SCATTER READ AT `(r, k)`: the operand's element plus the updates' column `k` summed over the rows `e`
    whose index `idx[e, 0]` is `r`. -/
theorem scatterAdd_rows_apply {φ : FTy} (x : FVec Ideal ⟨2, ![N, C]⟩ φ) (upd : FVec Ideal ⟨2, ![E, C]⟩ φ)
    (r : Fin N) (k : Fin C) :
    Host.scatterAdd (F := Ideal) (scatterRowDims N C E wf) x idx upd (ix2 r k)
      = x (ix2 r k)
        + ∑ e ∈ Finset.univ.filter (fun e : Fin E => (idx (ix2 e 0)).toInt = (r.val : Int)), upd (ix2 e k) := by
  show x (ix2 r k) + ∑ j ∈ Finset.univ.filter
      (fun j => (scatterRowDims N C E wf).resultIdx? j idx = some (ix2 r k)), upd j = _
  congr 1
  rw [Finset.sum_filter, Finset.sum_filter, sum_idx2]
  refine Finset.sum_congr rfl fun e _ => ?_
  by_cases he : (idx (ix2 e 0)).toInt = (r.val : Int)
  · rw [if_pos he]
    have : ∀ k' : Fin C, (if (scatterRowDims N C E wf).resultIdx? (ix2 e k') idx = some (ix2 r k)
        then upd (ix2 e k') else 0) = if k' = k then upd (ix2 e k') else 0 := by
      intro k'
      refine if_congr ?_ rfl rfl
      rw [resultIdx?_rows_iff]
      exact ⟨fun h => h.2, fun h => ⟨he, h⟩⟩
    rw [Finset.sum_congr rfl fun k' _ => this k']
    rw [Finset.sum_ite_eq' Finset.univ k, if_pos (Finset.mem_univ k)]
  · rw [if_neg he]
    refine Finset.sum_eq_zero fun k' _ => ?_
    rw [if_neg]
    rw [resultIdx?_rows_iff]
    exact fun h => he h.1

end

end Cert.Sparse

end
-- ==== Proof.FusedLayer.lean ====
/-
  The fused layer splits by lanes.

  The kernel runs the two heads of the second graph-convolution layer as ONE layer 128 lanes wide — the weights
  `[W2 | W3]` side by side, the biases end to end, one gather of 128-lane rows and one segment sum — and cuts the result
  into lanes `0 … 63` and `64 … 127`; the reference runs two layers 64 lanes wide.  A layer is: gather the rows
  `sel[e]` of a table, add each into row `dst[e]` of a zero array, scale row `i` by `din[i]`, add the lane's bias.
  Each of these steps treats a lane by itself, so lane `c` of the wide layer of `P` is lane `c` of the narrow layer of
  whichever half `P`'s lane `c` belongs to.  Read at an index `(i, c)` both sides are
  `(0 + ∑ e with dst[e] = i, table (clamped sel[e], c)) · din (i, 0) + bias c`; nothing but re-indexing is used.
-/
import Idealize.ShloMosaic.PureOps
import Idealize.ShloMosaic.PureOps.Ideal
import Idealize.ShloMosaic.Lib.ValueIdx
import Idealize.ShloMosaic.Lib.ValueLayout
import Idealize.ShloMosaic.Lib.IdealHost
import Idealize.ShloMosaic.Lib.Pipeline.Value
import proofs.«110445_j79267916415284_2_alg».proof.KernelIdeal
import proofs.«110445_j79267916415284_2_alg».proof.ReferenceIdeal
import proofs.«110445_j79267916415284_2_alg».proof.Proof.LibRowGather
import proofs.«110445_j79267916415284_2_alg».proof.Proof.RowScatter

noncomputable section

open scoped BigOperators

namespace Cert.Sparse

open Idealize.ShloMosaic Idealize.ShloMosaic.ValueIdx

/-! ## Two arrays laid side by side, read at an index -/

section Concat
variable {α : Type}

/-- Two matrices `[n, a]` and `[n, b]` laid side by side: a column below `a` reads the first. -/
theorem concat_cols_left {n a b c : Nat}
    (h : Shape.Concatenates [⟨2, ![n, a]⟩, ⟨2, ![n, b]⟩] ⟨2, ![n, c]⟩ (1 : Fin 2))
    (x₁ : (⟨2, ![n, a]⟩ : Shape).Idx → α) (x₂ : (⟨2, ![n, b]⟩ : Shape).Idx → α)
    (k : Fin n) (j : Fin a) (j' : Fin c) (hj : j'.val = j.val) :
    concatenate ⟨2, ![n, c]⟩ (1 : Fin 2) [⟨⟨2, ![n, a]⟩, x₁⟩, ⟨⟨2, ![n, b]⟩, x₂⟩] h (ix2 k j') = x₁ (ix2 k j) :=
  concatenate_pair_apply_left (1 : Fin 2) x₁ x₂ h (ix2 k j') rfl (ix2 k j) (fun b =>
    match b with
    | ⟨0, _⟩ => rfl
    | ⟨1, _⟩ => hj.symm)

/-- … and column `a + j` reads column `j` of the second. -/
theorem concat_cols_right {n a b c : Nat}
    (h : Shape.Concatenates [⟨2, ![n, a]⟩, ⟨2, ![n, b]⟩] ⟨2, ![n, c]⟩ (1 : Fin 2))
    (x₁ : (⟨2, ![n, a]⟩ : Shape).Idx → α) (x₂ : (⟨2, ![n, b]⟩ : Shape).Idx → α)
    (k : Fin n) (j : Fin b) (j' : Fin c) (hj : j'.val = a + j.val) :
    concatenate ⟨2, ![n, c]⟩ (1 : Fin 2) [⟨⟨2, ![n, a]⟩, x₁⟩, ⟨⟨2, ![n, b]⟩, x₂⟩] h (ix2 k j') = x₂ (ix2 k j) :=
  concatenate_pair_apply_right (1 : Fin 2) x₁ x₂ h (ix2 k j') rfl rfl (ix2 k j)
    (fun b hb =>
      match b, hb with
      | ⟨0, _⟩, _ => rfl
      | ⟨1, _⟩, hb => absurd rfl hb)
    (by show j.val + a = j'.val; omega)

/-- Two vectors `[a]` and `[b]` laid end to end: an entry below `a` reads the first. -/
theorem concat_vec_left {a b c : Nat}
    (h : Shape.Concatenates [⟨1, ![a]⟩, ⟨1, ![b]⟩] ⟨1, ![c]⟩ (0 : Fin 1))
    (x₁ : (⟨1, ![a]⟩ : Shape).Idx → α) (x₂ : (⟨1, ![b]⟩ : Shape).Idx → α)
    (j : Fin a) (j' : Fin c) (hj : j'.val = j.val) :
    concatenate ⟨1, ![c]⟩ (0 : Fin 1) [⟨⟨1, ![a]⟩, x₁⟩, ⟨⟨1, ![b]⟩, x₂⟩] h (ix1 j') = x₁ (ix1 j) :=
  concatenate_pair_apply_left (0 : Fin 1) x₁ x₂ h (ix1 j') rfl (ix1 j) (fun b =>
    match b with
    | ⟨0, _⟩ => hj.symm)

/-- … and entry `a + j` reads entry `j` of the second. -/
theorem concat_vec_right {a b c : Nat}
    (h : Shape.Concatenates [⟨1, ![a]⟩, ⟨1, ![b]⟩] ⟨1, ![c]⟩ (0 : Fin 1))
    (x₁ : (⟨1, ![a]⟩ : Shape).Idx → α) (x₂ : (⟨1, ![b]⟩ : Shape).Idx → α)
    (j : Fin b) (j' : Fin c) (hj : j'.val = a + j.val) :
    concatenate ⟨1, ![c]⟩ (0 : Fin 1) [⟨⟨1, ![a]⟩, x₁⟩, ⟨⟨1, ![b]⟩, x₂⟩] h (ix1 j') = x₂ (ix1 j) :=
  concatenate_pair_apply_right (0 : Fin 1) x₁ x₂ h (ix1 j') rfl rfl (ix1 j)
    (fun b hb =>
      match b, hb with
      | ⟨0, _⟩, hb => absurd rfl hb)
    (by show j.val + a = j'.val; omega)

end Concat

/-! ## The layer's broadcasts read at an index -/

section Layout
variable {α : Type}

/-- A column `[N, 1]` broadcast over `C` lanes (a `broadcast_in_dim` along both axes) reads the column's row. -/
theorem bcastCol_apply {N C : Nat} (h : (⟨2, ![N, 1]⟩ : Shape).BroadcastsInDim ⟨2, ![N, C]⟩ ![0, 1])
    (v : (⟨2, ![N, 1]⟩ : Shape).Idx → α) (i : Fin N) (c : Fin C) :
    broadcastInDim ⟨2, ![N, C]⟩ ![0, 1] h v (ix2 i c) = v (ix2 i (0 : Fin 1)) := by
  refine broadcastInDim_apply _ h v (ix2 i c) (ix2 i (0 : Fin 1)) fun a => ?_
  match a with
  | ⟨0, _⟩ =>
    show i.val = if N = 1 then 0 else i.val
    split
    · have := i.isLt; omega
    · rfl
  | ⟨1, _⟩ => rfl

/-- A vector `[C]` made the one row of `[1, C]` and broadcast down `N` rows reads the vector's entry of the lane. -/
theorem bcastRow_apply {N C : Nat} (h1 : (⟨1, ![C]⟩ : Shape).BroadcastsInDim ⟨2, ![1, C]⟩ ![1])
    (h2 : (⟨2, ![1, C]⟩ : Shape).BroadcastsInDim ⟨2, ![N, C]⟩ ![0, 1])
    (b : (⟨1, ![C]⟩ : Shape).Idx → α) (i : Fin N) (c : Fin C) :
    broadcastInDim ⟨2, ![N, C]⟩ ![0, 1] h2 (broadcastInDim ⟨2, ![1, C]⟩ ![1] h1 b) (ix2 i c) = b (ix1 c) := by
  refine (broadcastInDim_apply _ h2 _ (ix2 i c) (ix2 (0 : Fin 1) c) fun a => ?_).trans
    (broadcastInDim_apply _ h1 b (ix2 (0 : Fin 1) c) (ix1 c) fun a => ?_)
  · match a with
    | ⟨0, _⟩ => rfl
    | ⟨1, _⟩ =>
      show c.val = if C = 1 then 0 else c.val
      split
      · have := c.isLt; omega
      · rfl
  · match a with
    | ⟨0, _⟩ =>
      show c.val = if C = 1 then 0 else c.val
      split
      · have := c.isLt; omega
      · rfl

end Layout

/-! ## The aggregation: rows gathered, then summed into their destination rows -/

/-- The segment sum of gathered rows at `(i, c)`: the zero word's value plus, over the edges `e` whose destination
    `dstI[e, 0]` is `i`, the table's entry at the clamped source row `sel[e, 0]` and column `c`. -/
theorem segsum_apply {N C E w w' : Nat} (hN : 0 < N)
    (wfG : GatherDims.WF ⟨2, ![N, C]⟩ ⟨2, ![E, 1]⟩ ⟨2, ![E, C]⟩ [1] [0] [] [0] [] 1 ![1, C])
    (wfS : ScatterDims.WF ⟨2, ![N, C]⟩ ⟨2, ![E, 1]⟩ ⟨2, ![E, C]⟩ [1] [0] [0] 1)
    (hz : (⟨0, ![]⟩ : Shape).BroadcastsInDim ⟨2, ![N, C]⟩ ![])
    (P : FVec Ideal ⟨2, ![N, C]⟩ .f32) (sel : IVec ⟨2, ![E, 1]⟩ w) (dstI : IVec ⟨2, ![E, 1]⟩ w')
    (i : Fin N) (c : Fin C) :
    Host.scatterAdd (F := Ideal) (φ := .f32) (scatterRowDims N C E wfS)
        (broadcastInDim ⟨2, ![N, C]⟩ ![] hz (constant (F := Ideal) ⟨0, ![]⟩ .f32 0x00000000#32)) dstI
        (Host.gather (Cert.Lib.rowDims N C E wfG) P sel) (ix2 i c)
      = constant (F := Ideal) ⟨0, ![]⟩ .f32 0x00000000#32 ix0
        + ∑ e ∈ Finset.univ.filter (fun e : Fin E => (dstI (ix2 e 0)).toInt = (i.val : Int)),
            P (ix2 (⟨min (sel (ix2 e 0)).toInt.toNat (N - 1), by omega⟩ : Fin N) c) := by
  refine (scatterAdd_rows_apply wfS dstI _ _ i c).trans ?_
  refine congrArg₂ (· + ·) (broadcastInDim_scalar_apply hz _ _) ?_
  refine Finset.sum_congr rfl fun e _ => ?_
  exact Cert.Lib.gather_rows_apply hN wfG P sel e c

/-! ## One layer read at an index -/

/-- One aggregation layer at `(i, c)`: the segment sum of the gathered rows, scaled by the row's `din` and shifted by
    the lane's bias. -/
theorem layer_apply {N C E w w' : Nat} (hN : 0 < N)
    (wfG : GatherDims.WF ⟨2, ![N, C]⟩ ⟨2, ![E, 1]⟩ ⟨2, ![E, C]⟩ [1] [0] [] [0] [] 1 ![1, C])
    (wfS : ScatterDims.WF ⟨2, ![N, C]⟩ ⟨2, ![E, 1]⟩ ⟨2, ![E, C]⟩ [1] [0] [0] 1)
    (hz : (⟨0, ![]⟩ : Shape).BroadcastsInDim ⟨2, ![N, C]⟩ ![])
    (hcol : (⟨2, ![N, 1]⟩ : Shape).BroadcastsInDim ⟨2, ![N, C]⟩ ![0, 1])
    (h1 : (⟨1, ![C]⟩ : Shape).BroadcastsInDim ⟨2, ![1, C]⟩ ![1])
    (h2 : (⟨2, ![1, C]⟩ : Shape).BroadcastsInDim ⟨2, ![N, C]⟩ ![0, 1])
    (P : FVec Ideal ⟨2, ![N, C]⟩ .f32) (sel : IVec ⟨2, ![E, 1]⟩ w) (dstI : IVec ⟨2, ![E, 1]⟩ w')
    (din : FVec Ideal ⟨2, ![N, 1]⟩ .f32) (bias : FVec Ideal ⟨1, ![C]⟩ .f32) (i : Fin N) (c : Fin C) :
    addf (F := Ideal) (φ := .f32)
        (mulf (F := Ideal) (φ := .f32)
          (Host.scatterAdd (F := Ideal) (φ := .f32) (scatterRowDims N C E wfS)
            (broadcastInDim ⟨2, ![N, C]⟩ ![] hz (constant (F := Ideal) ⟨0, ![]⟩ .f32 0x00000000#32)) dstI
            (Host.gather (Cert.Lib.rowDims N C E wfG) P sel))
          (broadcastInDim ⟨2, ![N, C]⟩ ![0, 1] hcol din))
        (broadcastInDim ⟨2, ![N, C]⟩ ![0, 1] h2 (broadcastInDim ⟨2, ![1, C]⟩ ![1] h1 bias)) (ix2 i c)
      = (constant (F := Ideal) ⟨0, ![]⟩ .f32 0x00000000#32 ix0
          + ∑ e ∈ Finset.univ.filter (fun e : Fin E => (dstI (ix2 e 0)).toInt = (i.val : Int)),
              P (ix2 (⟨min (sel (ix2 e 0)).toInt.toNat (N - 1), by omega⟩ : Fin N) c))
        * din (ix2 i (0 : Fin 1)) + bias (ix1 c) := by
  rw [addf_apply, mulf_apply]
  exact congrArg₂ (· + ·)
    (congrArg₂ (· * ·) (segsum_apply hN wfG wfS hz P sel dstI i c) (bcastCol_apply hcol din i c))
    (bcastRow_apply h1 h2 bias i c)

/-! ## The fused layer against the two plain layers

The kernel aggregates the two heads at once, 128 lanes wide — lanes `0 … 63` the first head's, lanes `64 … 127` the
second's, the biases laid end to end — and cuts the result in two; the reference aggregates each head 64 lanes wide.
Every step acts on a lane by itself (a gathered row keeps its lanes, the segment sum adds lane by lane, the scaling is
by rows, the bias by lanes), so a lane of the wide result is that lane of its own head's result. -/

section Fused
variable [Cert.KernelIdeal.Facts₀] [Cert.ReferenceIdeal.Facts₀]

/-- The kernel's scatter record is the row scatter's dimension numbers … -/
theorem kernel_scatter_eq : Cert.KernelIdeal.scatter_S16384x128_S524288x1_S524288x128_1_0_0_1
    = scatterRowDims 16384 128 524288 Cert.KernelIdeal.Facts₀.scatter_S16384x128_S524288x1_S524288x128_1_0_0_1_wf := rfl
/-- … its gather record the row gather's … -/
theorem kernel_gather_eq : Cert.KernelIdeal.gather_S16384x128_S524288x1_S524288x128_1_0_n_n_0_1_1128
    = Cert.Lib.rowDims 16384 128 524288 Cert.KernelIdeal.Facts₀.gather_S16384x128_S524288x1_S524288x128_1_0_n_n_0_1_1128_wf := rfl
/-- … and so are the reference's two records, 64 lanes wide. -/
theorem reference_scatter_eq : Cert.ReferenceIdeal.scatter_S16384x64_S524288x1_S524288x64_1_0_0_1
    = scatterRowDims 16384 64 524288 Cert.ReferenceIdeal.Facts₀.scatter_S16384x64_S524288x1_S524288x64_1_0_0_1_wf := rfl
theorem reference_gather_eq : Cert.ReferenceIdeal.gather_S16384x64_S524288x1_S524288x64_1_0_n_n_0_1_164
    = Cert.Lib.rowDims 16384 64 524288 Cert.ReferenceIdeal.Facts₀.gather_S16384x64_S524288x1_S524288x64_1_0_n_n_0_1_164_wf := rfl

/-- THE FUSED WEIGHTS, LEFT HALF: a lane below 64 of `[W2 | W3]` is `W2`'s. -/
theorem fused_weights_lo (W2 W3 : FVec Ideal ⟨2, ![256, 64]⟩ .f32) (k : Fin 256) (j : Fin 64) :
    concatenate Cert.KernelIdeal.S256x128 1 [⟨Cert.KernelIdeal.S256x64, W2⟩, ⟨Cert.KernelIdeal.S256x64, W3⟩]
        Cert.KernelIdeal.Facts₀.concatenates_S256x64_S256x64_S256x128_d1
        (ix2 k (⟨j.val, Nat.lt_of_lt_of_le j.isLt (by decide)⟩ : Fin 128)) = W2 (ix2 k j) :=
  concat_cols_left Cert.KernelIdeal.Facts₀.concatenates_S256x64_S256x64_S256x128_d1 W2 W3 k j _ rfl

/-- THE FUSED WEIGHTS, RIGHT HALF: lane `64 + j` of `[W2 | W3]` is `W3`'s lane `j`. -/
theorem fused_weights_hi (W2 W3 : FVec Ideal ⟨2, ![256, 64]⟩ .f32) (k : Fin 256) (j : Fin 64) :
    concatenate Cert.KernelIdeal.S256x128 1 [⟨Cert.KernelIdeal.S256x64, W2⟩, ⟨Cert.KernelIdeal.S256x64, W3⟩]
        Cert.KernelIdeal.Facts₀.concatenates_S256x64_S256x64_S256x128_d1
        (ix2 k (⟨64 + j.val, Nat.add_lt_add_left j.isLt 64⟩ : Fin 128)) = W3 (ix2 k j) :=
  concat_cols_right Cert.KernelIdeal.Facts₀.concatenates_S256x64_S256x64_S256x128_d1 W2 W3 k j _ rfl

/-- THE FUSED LAYER, LEFT HALF: lanes `0 … 63` of the 128-wide aggregation of `P` are the 64-wide aggregation of `Pa`
    with the bias `b2`, when `P`'s lanes below 64 are `Pa`'s. -/
theorem fused_layer_lo
    (P : FVec Ideal Cert.KernelIdeal.S16384x128 .f32) (Pa : FVec Ideal Cert.ReferenceIdeal.S16384x64 .f32)
    (hPa : ∀ (i : Fin 16384) (j : Fin 64),
      P (ix2 i (⟨j.val, Nat.lt_of_lt_of_le j.isLt (by decide)⟩ : Fin 128)) = Pa (ix2 i j))
    (sel dstI : IVec ⟨2, ![524288, 1]⟩ 32) (din : FVec Ideal ⟨2, ![16384, 1]⟩ .f32)
    (b2 b3 : FVec Ideal ⟨1, ![64]⟩ .f32) :
    extractStridedSlice Cert.KernelIdeal.S16384x64 ![0, 0]
      (addf (F := Ideal) (φ := .f32)
        (mulf (F := Ideal) (φ := .f32)
          (Host.scatterAdd (F := Ideal) (φ := .f32) Cert.KernelIdeal.scatter_S16384x128_S524288x1_S524288x128_1_0_0_1
            (broadcastInDim Cert.KernelIdeal.S16384x128 ![] Cert.KernelIdeal.Facts₀.bcast_S_S16384x128
              (constant (F := Ideal) Cert.KernelIdeal.S_ .f32 0x00000000#32))
            dstI
            (Host.gather Cert.KernelIdeal.gather_S16384x128_S524288x1_S524288x128_1_0_n_n_0_1_1128 P sel))
          (broadcastInDim Cert.KernelIdeal.S16384x128 ![0, 1] Cert.KernelIdeal.Facts₀.bcast_S16384x1_S16384x128_0_1 din))
        (broadcastInDim Cert.KernelIdeal.S16384x128 ![0, 1] Cert.KernelIdeal.Facts₀.bcast_S1x128_S16384x128_0_1
          (broadcastInDim Cert.KernelIdeal.S1x128 ![1] Cert.KernelIdeal.Facts₀.bcast_S128_S1x128_1
            (concatenate Cert.KernelIdeal.S128 0 [⟨Cert.KernelIdeal.S64, b2⟩, ⟨Cert.KernelIdeal.S64, b3⟩]
              Cert.KernelIdeal.Facts₀.concatenates_S64_S64_S128_d0))))
      Cert.KernelIdeal.Facts₀.slices_S16384x128_S16384x64_0_0
    = addf (F := Ideal) (φ := .f32)
        (mulf (F := Ideal) (φ := .f32)
          (Host.scatterAdd (F := Ideal) (φ := .f32) Cert.ReferenceIdeal.scatter_S16384x64_S524288x1_S524288x64_1_0_0_1
            (broadcastInDim Cert.ReferenceIdeal.S16384x64 ![] Cert.ReferenceIdeal.Facts₀.bcast_S_S16384x64
              (constant (F := Ideal) Cert.ReferenceIdeal.S_ .f32 0x00000000#32))
            dstI
            (Host.gather Cert.ReferenceIdeal.gather_S16384x64_S524288x1_S524288x64_1_0_n_n_0_1_164 Pa sel))
          (broadcastInDim Cert.ReferenceIdeal.S16384x64 ![0, 1] Cert.ReferenceIdeal.Facts₀.bcast_S16384x1_S16384x64_0_1 din))
        (broadcastInDim Cert.ReferenceIdeal.S16384x64 ![0, 1] Cert.ReferenceIdeal.Facts₀.bcast_S1x64_S16384x64_0_1
          (broadcastInDim Cert.ReferenceIdeal.S1x64 ![1] Cert.ReferenceIdeal.Facts₀.bcast_S64_S1x64_1 b2)) := by
  funext j
  obtain ⟨i, c, rfl⟩ : ∃ (i : Fin 16384) (c : Fin 64), j = ix2 i c := ⟨j 0, j 1, eq_ix2 j⟩
  rw [kernel_scatter_eq, kernel_gather_eq, reference_scatter_eq, reference_gather_eq]
  refine (slice2_axis1_apply 0 _ Cert.KernelIdeal.Facts₀.slices_S16384x128_S16384x64_0_0 i c
    (⟨c.val, Nat.lt_of_lt_of_le c.isLt (by decide)⟩ : Fin 128) (Nat.zero_add _).symm).trans ?_
  refine (layer_apply (by decide) _ _ _ _ _ _ P sel dstI din _ i _).trans ?_
  refine Eq.trans ?_ (layer_apply (by decide) _ _ _ _ _ _ Pa sel dstI din b2 i c).symm
  refine congrArg₂ (· + ·) (congrArg₂ (· * ·) (congrArg₂ (· + ·) rfl ?_) rfl) ?_
  · exact Finset.sum_congr rfl fun e _ => hPa _ c
  · exact concat_vec_left Cert.KernelIdeal.Facts₀.concatenates_S64_S64_S128_d0 b2 b3 c _ rfl

/-- THE FUSED LAYER, RIGHT HALF: lanes `64 … 127` of the 128-wide aggregation of `P` are the 64-wide aggregation of
    `Pb` with the bias `b3`, when `P`'s lane `64 + j` is `Pb`'s lane `j`. -/
theorem fused_layer_hi
    (P : FVec Ideal Cert.KernelIdeal.S16384x128 .f32) (Pb : FVec Ideal Cert.ReferenceIdeal.S16384x64 .f32)
    (hPb : ∀ (i : Fin 16384) (j : Fin 64),
      P (ix2 i (⟨64 + j.val, Nat.add_lt_add_left j.isLt 64⟩ : Fin 128)) = Pb (ix2 i j))
    (sel dstI : IVec ⟨2, ![524288, 1]⟩ 32) (din : FVec Ideal ⟨2, ![16384, 1]⟩ .f32)
    (b2 b3 : FVec Ideal ⟨1, ![64]⟩ .f32) :
    extractStridedSlice Cert.KernelIdeal.S16384x64 ![0, 64]
      (addf (F := Ideal) (φ := .f32)
        (mulf (F := Ideal) (φ := .f32)
          (Host.scatterAdd (F := Ideal) (φ := .f32) Cert.KernelIdeal.scatter_S16384x128_S524288x1_S524288x128_1_0_0_1
            (broadcastInDim Cert.KernelIdeal.S16384x128 ![] Cert.KernelIdeal.Facts₀.bcast_S_S16384x128
              (constant (F := Ideal) Cert.KernelIdeal.S_ .f32 0x00000000#32))
            dstI
            (Host.gather Cert.KernelIdeal.gather_S16384x128_S524288x1_S524288x128_1_0_n_n_0_1_1128 P sel))
          (broadcastInDim Cert.KernelIdeal.S16384x128 ![0, 1] Cert.KernelIdeal.Facts₀.bcast_S16384x1_S16384x128_0_1 din))
        (broadcastInDim Cert.KernelIdeal.S16384x128 ![0, 1] Cert.KernelIdeal.Facts₀.bcast_S1x128_S16384x128_0_1
          (broadcastInDim Cert.KernelIdeal.S1x128 ![1] Cert.KernelIdeal.Facts₀.bcast_S128_S1x128_1
            (concatenate Cert.KernelIdeal.S128 0 [⟨Cert.KernelIdeal.S64, b2⟩, ⟨Cert.KernelIdeal.S64, b3⟩]
              Cert.KernelIdeal.Facts₀.concatenates_S64_S64_S128_d0))))
      Cert.KernelIdeal.Facts₀.slices_S16384x128_S16384x64_0_64
    = addf (F := Ideal) (φ := .f32)
        (mulf (F := Ideal) (φ := .f32)
          (Host.scatterAdd (F := Ideal) (φ := .f32) Cert.ReferenceIdeal.scatter_S16384x64_S524288x1_S524288x64_1_0_0_1
            (broadcastInDim Cert.ReferenceIdeal.S16384x64 ![] Cert.ReferenceIdeal.Facts₀.bcast_S_S16384x64
              (constant (F := Ideal) Cert.ReferenceIdeal.S_ .f32 0x00000000#32))
            dstI
            (Host.gather Cert.ReferenceIdeal.gather_S16384x64_S524288x1_S524288x64_1_0_n_n_0_1_164 Pb sel))
          (broadcastInDim Cert.ReferenceIdeal.S16384x64 ![0, 1] Cert.ReferenceIdeal.Facts₀.bcast_S16384x1_S16384x64_0_1 din))
        (broadcastInDim Cert.ReferenceIdeal.S16384x64 ![0, 1] Cert.ReferenceIdeal.Facts₀.bcast_S1x64_S16384x64_0_1
          (broadcastInDim Cert.ReferenceIdeal.S1x64 ![1] Cert.ReferenceIdeal.Facts₀.bcast_S64_S1x64_1 b3)) := by
  funext j
  obtain ⟨i, c, rfl⟩ : ∃ (i : Fin 16384) (c : Fin 64), j = ix2 i c := ⟨j 0, j 1, eq_ix2 j⟩
  rw [kernel_scatter_eq, kernel_gather_eq, reference_scatter_eq, reference_gather_eq]
  refine (slice2_axis1_apply 64 _ Cert.KernelIdeal.Facts₀.slices_S16384x128_S16384x64_0_64 i c
    (⟨64 + c.val, Nat.add_lt_add_left c.isLt 64⟩ : Fin 128) rfl).trans ?_
  refine (layer_apply (by decide) _ _ _ _ _ _ P sel dstI din _ i _).trans ?_
  refine Eq.trans ?_ (layer_apply (by decide) _ _ _ _ _ _ Pb sel dstI din b3 i c).symm
  refine congrArg₂ (· + ·) (congrArg₂ (· * ·) (congrArg₂ (· + ·) rfl ?_) rfl) ?_
  · exact Finset.sum_congr rfl fun e _ => hPb _ c
  · exact concat_vec_right Cert.KernelIdeal.Facts₀.concatenates_S64_S64_S128_d0 b2 b3 c _ rfl

end Fused

end Cert.Sparse

end
-- ==== Proof.KernelStages.lean ====
/-
  The host stretches of the kernel program, read back as the reference's functions of the arguments.

  Between its three calls the kernel program runs the same host operations as the reference: the degree scalings, the
  first layer's gather, segment sum, scaling, bias and rectifier, and, after the second call, the second layer —
  there as ONE layer 128 lanes wide over the two heads' projections laid side by side, where the reference runs two
  layers 64 lanes wide. Each stretch is run from arbitrary buffer contents and its result named as the reference's
  composed function of the values it reads; the contents between the calls then say what those values are. Only the
  last stretch needs an argument: its wide layer splits by lanes into the reference's two layers.
-/
import proofs.«110445_j79267916415284_2_alg».proof.Proof.Between
import proofs.«110445_j79267916415284_2_alg».proof.Proof.Gen.ReferenceIdeal.Read
import proofs.«110445_j79267916415284_2_alg».proof.Proof.FusedLayer

set_option maxRecDepth 16384

noncomputable section

namespace Cert.KernelIdeal.Stages

open Idealize.ShloMosaic Idealize.ShloMosaic.TcCoe Idealize.ShloMosaic.StableHlo Idealize.ShloMosaic.ValueIdx
open Idealize.SL.Sem
open Cert.KernelIdeal Cert.KernelIdeal.Gen Cert.KernelIdeal.Rg

variable (m : (ℓ : Loc nD τ sig) → Buf (Elt Ideal) ℓ) (c : Dev nD)

/-! ## Each stretch of host operations, run from any buffer contents `W`

The contents a stretch leaves in one of its result buffers, as the reference's composed function of the values the
stretch reads: the two programs apply the same operations to the same values, so once the reads are named the two
terms are the same term. -/

section Stretches
variable (W : Valuation τ sig (Elt Ideal))

/-- The first stretch computes the out-degree scaling column from the source indices … -/
theorem stretch0_v15 (x1 : (⟨Cert.ReferenceIdeal.S524288, .i32⟩ : BufTy).Contents (Elt Ideal)) (h1 : W (Proc.devRef .tc main_arg1) = x1) :
    StableHlo.after hostOps0 W (Proc.devRef .tc main_v15) = Cert.ReferenceIdeal.Read.val_main_v15 (F := Ideal) x1 := by
  after_results_simp
  rw [h1]
  rfl

/-- … and the in-degree scaling column from the destination indices. -/
theorem stretch0_v16 (x2 : (⟨Cert.ReferenceIdeal.S524288, .i32⟩ : BufTy).Contents (Elt Ideal)) (h2 : W (Proc.devRef .tc main_arg2) = x2) :
    StableHlo.after hostOps0 W (Proc.devRef .tc main_v16) = Cert.ReferenceIdeal.Read.val_main_v29 (F := Ideal) x2 := by
  after_results_simp
  rw [h2]
  rfl

set_option maxHeartbeats 4000000 in
/-- The second stretch is the first layer's aggregation of the projected features. -/
theorem stretch1_v32 (x0 : (⟨Cert.ReferenceIdeal.S16384x512, .f32⟩ : BufTy).Contents (Elt Ideal)) (x1 : (⟨Cert.ReferenceIdeal.S524288, .i32⟩ : BufTy).Contents (Elt Ideal)) (x2 : (⟨Cert.ReferenceIdeal.S524288, .i32⟩ : BufTy).Contents (Elt Ideal)) (x4 : (⟨Cert.ReferenceIdeal.S512x256, .f32⟩ : BufTy).Contents (Elt Ideal)) (x5 : (⟨Cert.ReferenceIdeal.S256, .f32⟩ : BufTy).Contents (Elt Ideal))
    (h17 : W (Proc.devRef .tc main_v17) = Cert.ReferenceIdeal.Read.val_main_v18 (F := Ideal) x0 x1 x4)
    (h16 : W (Proc.devRef .tc main_v16) = Cert.ReferenceIdeal.Read.val_main_v29 (F := Ideal) x2)
    (h1 : W (Proc.devRef .tc main_arg1) = x1) (h2 : W (Proc.devRef .tc main_arg2) = x2)
    (h5 : W (Proc.devRef .tc main_arg5) = x5) :
    StableHlo.after hostOps1 W (Proc.devRef .tc main_v32) = Cert.ReferenceIdeal.Read.val_main_v34 (F := Ideal) x0 x1 x2 x4 x5 := by
  after_results_simp
  rw [h17, h16, h1, h2, h5]
  rfl

/-- The third stretch is the rectifier on the first layer's result. -/
theorem stretch1_1_v33 (x0 : (⟨Cert.ReferenceIdeal.S16384x512, .f32⟩ : BufTy).Contents (Elt Ideal)) (x1 : (⟨Cert.ReferenceIdeal.S524288, .i32⟩ : BufTy).Contents (Elt Ideal)) (x2 : (⟨Cert.ReferenceIdeal.S524288, .i32⟩ : BufTy).Contents (Elt Ideal)) (x4 : (⟨Cert.ReferenceIdeal.S512x256, .f32⟩ : BufTy).Contents (Elt Ideal)) (x5 : (⟨Cert.ReferenceIdeal.S256, .f32⟩ : BufTy).Contents (Elt Ideal))
    (h32 : W (Proc.devRef .tc main_v32) = Cert.ReferenceIdeal.Read.val_main_v34 (F := Ideal) x0 x1 x2 x4 x5) :
    StableHlo.after hostOps1_1 W (Proc.devRef .tc main_v33) = Cert.ReferenceIdeal.Read.val_main_v35 (F := Ideal) x0 x1 x2 x4 x5 := by
  after_results_simp
  rw [h32]
  unfold Cert.ReferenceIdeal.Read.val_main_v35
  generalize Cert.ReferenceIdeal.Read.val_main_v34 (F := Ideal) x0 x1 x2 x4 x5 = y
  rfl

/-- The fourth stretch lays the two heads' weights side by side … -/
theorem stretch1_2_v34 (x6 : (⟨Cert.ReferenceIdeal.S256x64, .f32⟩ : BufTy).Contents (Elt Ideal)) (x8 : (⟨Cert.ReferenceIdeal.S256x64, .f32⟩ : BufTy).Contents (Elt Ideal))
    (h6 : W (Proc.devRef .tc main_arg6) = x6) (h8 : W (Proc.devRef .tc main_arg8) = x8) :
    StableHlo.after hostOps1_2 W (Proc.devRef .tc main_v34)
      = concatenate S256x128 1 [⟨S256x64, x6⟩, ⟨S256x64, x8⟩] Facts₀.concatenates_S256x64_S256x64_S256x128_d1 := by
  after_results_simp
  rw [h6, h8]

/-- … and their biases end to end. -/
theorem stretch1_2_v35 (x7 : (⟨Cert.ReferenceIdeal.S64, .f32⟩ : BufTy).Contents (Elt Ideal)) (x9 : (⟨Cert.ReferenceIdeal.S64, .f32⟩ : BufTy).Contents (Elt Ideal))
    (h7 : W (Proc.devRef .tc main_arg7) = x7) (h9 : W (Proc.devRef .tc main_arg9) = x9) :
    StableHlo.after hostOps1_2 W (Proc.devRef .tc main_v35)
      = concatenate S128 0 [⟨S64, x7⟩, ⟨S64, x9⟩] Facts₀.concatenates_S64_S64_S128_d0 := by
  after_results
  rw [h7, h9]

end Stretches

section LastStretch
variable (W : Valuation τ sig (Elt Ideal))

set_option maxHeartbeats 4000000 in
/-- The last stretch: the two heads aggregated as one 128-lane layer, cut into the mean and the log-deviation, and the
    sample `mean + noise · exp logstd`. Its 128-lane layer splits by lanes into the reference's two 64-lane layers. -/
theorem stretch2_v56 (x0 : (⟨Cert.ReferenceIdeal.S16384x512, .f32⟩ : BufTy).Contents (Elt Ideal)) (x1 : (⟨Cert.ReferenceIdeal.S524288, .i32⟩ : BufTy).Contents (Elt Ideal)) (x2 : (⟨Cert.ReferenceIdeal.S524288, .i32⟩ : BufTy).Contents (Elt Ideal)) (x3 : (⟨Cert.ReferenceIdeal.S16384x64, .f32⟩ : BufTy).Contents (Elt Ideal)) (x4 : (⟨Cert.ReferenceIdeal.S512x256, .f32⟩ : BufTy).Contents (Elt Ideal)) (x5 : (⟨Cert.ReferenceIdeal.S256, .f32⟩ : BufTy).Contents (Elt Ideal)) (x6 : (⟨Cert.ReferenceIdeal.S256x64, .f32⟩ : BufTy).Contents (Elt Ideal)) (x7 : (⟨Cert.ReferenceIdeal.S64, .f32⟩ : BufTy).Contents (Elt Ideal)) (x8 : (⟨Cert.ReferenceIdeal.S256x64, .f32⟩ : BufTy).Contents (Elt Ideal)) (x9 : (⟨Cert.ReferenceIdeal.S64, .f32⟩ : BufTy).Contents (Elt Ideal))
    (P : FVec Ideal S16384x128 .f32)
    (hlo : ∀ (i : Fin 16384) (j : Fin 64),
      P (ix2 i (⟨j.val, Nat.lt_of_lt_of_le j.isLt (by decide)⟩ : Fin 128))
        = Cert.ReferenceIdeal.Read.val_main_v39 (F := Ideal) x0 x1 x2 x4 x5 x6 (ix2 i j))
    (hhi : ∀ (i : Fin 16384) (j : Fin 64),
      P (ix2 i (⟨64 + j.val, Nat.add_lt_add_left j.isLt 64⟩ : Fin 128))
        = Cert.ReferenceIdeal.Read.val_main_v59 (F := Ideal) x0 x1 x2 x4 x5 x8 (ix2 i j))
    (h36 : W (Proc.devRef .tc main_v36) = P)
    (h16 : W (Proc.devRef .tc main_v16) = Cert.ReferenceIdeal.Read.val_main_v29 (F := Ideal) x2)
    (h35 : W (Proc.devRef .tc main_v35)
      = concatenate S128 0 [⟨S64, x7⟩, ⟨S64, x9⟩] Facts₀.concatenates_S64_S64_S128_d0)
    (h1 : W (Proc.devRef .tc main_arg1) = x1) (h2 : W (Proc.devRef .tc main_arg2) = x2)
    (h3 : W (Proc.devRef .tc main_arg3) = x3) :
    StableHlo.after hostOps2 W (Proc.devRef .tc main_v56)
      = Cert.ReferenceIdeal.Read.val_main_v78 (F := Ideal) x0 x1 x2 x3 x4 x5 x6 x7 x8 x9 := by
  after_results_simp
  rw [h36, h16, h35, h1, h2, h3]
  refine (congrArg₂ (fun (A B : FVec Ideal ⟨2, ![16384, 64]⟩ .f32) =>
      addf (F := Ideal) (φ := .f32) A (mulf (F := Ideal) (φ := .f32) x3 (Host.exp (F := Ideal) (φ := .f32) B)))
    (Cert.Sparse.fused_layer_lo P (Cert.ReferenceIdeal.Read.val_main_v39 (F := Ideal) x0 x1 x2 x4 x5 x6) hlo _ _ _ x7 x9)
    (Cert.Sparse.fused_layer_hi P (Cert.ReferenceIdeal.Read.val_main_v59 (F := Ideal) x0 x1 x2 x4 x5 x8) hhi _ _ _ x7 x9)).trans ?_
  rfl

/-- The stretch's last operation narrows the sample to `bf16`, which changes no extended real. -/
theorem stretch2_v57 :
    (StableHlo.after hostOps2 W (Proc.devRef .tc main_v57) : S16384x64.Idx → EReal)
      = StableHlo.after hostOps2 W (Proc.devRef .tc main_v56) := by
  after_results_simp
  rfl

end LastStretch

/-! ## The contents between the calls

Between two calls every buffer no call scopes holds the launch contents pushed through the host stretches so far, the
calls' result arrays replaced by what the calls left. A buffer that nothing in between writes is read back as
launched; the scaling columns are read back from the first stretch. -/

section Reads
variable (outs : Outs (F := Ideal))

/-- Through the first call, a buffer that neither the first stretch nor the call writes holds its launch contents. -/
theorem V2_keep (r : Ref sig .tc) (h1 : r ∉ hostOps0_W) (h2 : r ∉ ([main_v17] : List (Ref sig .tc))) :
    V2 m outs c r = V0 m c r :=
  (V2_of m outs c r h2).trans (V1_of m c r h1)

/-- … and so through the two stretches after it, … -/
theorem V4_keep (r : Ref sig .tc) (h1 : r ∉ hostOps0_W) (h2 : r ∉ ([main_v17] : List (Ref sig .tc)))
    (h3 : r ∉ hostOps1_W) (h4 : r ∉ hostOps1_1_W) : V4 m outs c r = V0 m c r :=
  (V4_of m outs c r h4).trans ((V3_of m outs c r h3).trans (V2_keep m c outs r h1 h2))

/-- … the stretch before the second call, and the second call. -/
theorem V6_keep (r : Ref sig .tc) (h1 : r ∉ hostOps0_W) (h2 : r ∉ ([main_v17] : List (Ref sig .tc)))
    (h3 : r ∉ hostOps1_W) (h4 : r ∉ hostOps1_1_W) (h5 : r ∉ hostOps1_2_W)
    (h6 : r ∉ ([main_v36] : List (Ref sig .tc))) : V6 m outs c r = V0 m c r :=
  (V6_of m outs c r h6).trans ((V5_of m outs c r h5).trans (V4_keep m c outs r h1 h2 h3 h4))

/-- A buffer the first stretch wrote and nothing later writes is read back from the first stretch. -/
theorem V5_from1 (r : Ref sig .tc) (h2 : r ∉ ([main_v17] : List (Ref sig .tc)))
    (h3 : r ∉ hostOps1_W) (h4 : r ∉ hostOps1_1_W) (h5 : r ∉ hostOps1_2_W) : V5 m outs c r = V1 m c r :=
  (V5_of m outs c r h5).trans ((V4_of m outs c r h4).trans ((V3_of m outs c r h3).trans (V2_of m outs c r h2)))

theorem V6_from1 (r : Ref sig .tc) (h2 : r ∉ ([main_v17] : List (Ref sig .tc)))
    (h3 : r ∉ hostOps1_W) (h4 : r ∉ hostOps1_1_W) (h5 : r ∉ hostOps1_2_W)
    (h6 : r ∉ ([main_v36] : List (Ref sig .tc))) : V6 m outs c r = V1 m c r :=
  (V6_of m outs c r h6).trans (V5_from1 m c outs r h2 h3 h4 h5)

end Reads

/-! ## The stages of the kernel program as the reference's functions of the arguments -/

/-- After the first stretch the out-degree scaling column is the reference's. -/
theorem V1_main_v15 :
    V1 m c main_v15 = Cert.ReferenceIdeal.Read.val_main_v15 (F := Ideal) (m ((c.tc : Thread nD τ).loc main_arg1)) :=
  stretch0_v15 (V0 m c) _ rfl

/-- After the first stretch the in-degree scaling column is the reference's. -/
theorem V1_main_v16 :
    V1 m c main_v16 = Cert.ReferenceIdeal.Read.val_main_v29 (F := Ideal) (m ((c.tc : Thread nD τ).loc main_arg2)) :=
  stretch0_v16 (V0 m c) _ rfl

/-- The second call reads the out-degree scaling column as the first stretch left it. -/
theorem In1_main_v15 :
    In1 m c main_v15 = Cert.ReferenceIdeal.Read.val_main_v15 (F := Ideal) (m ((c.tc : Thread nD τ).loc main_arg1)) :=
  (V5_from1 m c (leavesA m) main_v15 (by decide) (by decide) (by decide) (by decide)).trans (V1_main_v15 m c)

/-- If the first call leaves the first projection, the second call reads the rectified first layer. -/
theorem In1_main_v33
    (h0 : res0 m c = Cert.ReferenceIdeal.Read.val_main_v18 (F := Ideal) (m ((c.tc : Thread nD τ).loc main_arg0)) (m ((c.tc : Thread nD τ).loc main_arg1)) (m ((c.tc : Thread nD τ).loc main_arg4))) :
    In1 m c main_v33 = Cert.ReferenceIdeal.Read.val_main_v35 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) :=
  (V5_of m (leavesA m) c main_v33 (by decide)).trans
    (stretch1_1_v33 (V3 m (leavesA m) c) _ _ _ _ _
      (stretch1_v32 (V2 m (leavesA m) c) _ _ _ _ _
        ((Function.update_self _ _ _).trans ((leaves_17 m _ _ _ 2 c).trans h0))
        ((V2_of m (leavesA m) c main_v16 (by decide)).trans (V1_main_v16 m c))
        ((V2_keep m c (leavesA m) main_arg1 (by decide) (by decide)).trans rfl)
        ((V2_keep m c (leavesA m) main_arg2 (by decide) (by decide)).trans rfl)
        ((V2_keep m c (leavesA m) main_arg5 (by decide) (by decide)).trans rfl)))

/-- The second call reads the two heads' weights side by side. -/
theorem In1_main_v34 :
    In1 m c main_v34
      = concatenate S256x128 1 [⟨S256x64, m ((c.tc : Thread nD τ).loc main_arg6)⟩,
          ⟨S256x64, m ((c.tc : Thread nD τ).loc main_arg8)⟩] Facts₀.concatenates_S256x64_S256x64_S256x128_d1 :=
  stretch1_2_v34 (V4 m (leavesA m) c) _ _
    ((V4_keep m c (leavesA m) main_arg6 (by decide) (by decide) (by decide) (by decide)).trans rfl)
    ((V4_keep m c (leavesA m) main_arg8 (by decide) (by decide) (by decide) (by decide)).trans rfl)

/-- If the second call leaves the two second projections side by side, the last stretch leaves the reference's sample. -/
theorem V7_main_v56
    (hlo : ∀ (i : Fin 16384) (j : Fin 64),
      (res1 m c : FVec Ideal S16384x128 .f32) (ix2 i (⟨j.val, Nat.lt_of_lt_of_le j.isLt (by decide)⟩ : Fin 128))
        = Cert.ReferenceIdeal.Read.val_main_v39 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (ix2 i j))
    (hhi : ∀ (i : Fin 16384) (j : Fin 64),
      (res1 m c : FVec Ideal S16384x128 .f32) (ix2 i (⟨64 + j.val, Nat.add_lt_add_left j.isLt 64⟩ : Fin 128))
        = Cert.ReferenceIdeal.Read.val_main_v59 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg8)) (ix2 i j)) :
    V7 m (leavesB m) c main_v56
      = Cert.ReferenceIdeal.Read.val_main_v78 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) :=
  stretch2_v56 (V6 m (leavesB m) c) _ _ _ _ _ _ _ _ _ _ (res1 m c) hlo hhi
    ((Function.update_self _ _ _).trans (leaves_36 m _ _ _ 6 c))
    ((V6_from1 m c (leavesB m) main_v16 (by decide) (by decide) (by decide) (by decide) (by decide)).trans
      (V1_main_v16 m c))
    ((V6_of m (leavesB m) c main_v35 (by decide)).trans
      (stretch1_2_v35 (V4 m (leavesB m) c) _ _
        ((V4_keep m c (leavesB m) main_arg7 (by decide) (by decide) (by decide) (by decide)).trans rfl)
        ((V4_keep m c (leavesB m) main_arg9 (by decide) (by decide) (by decide) (by decide)).trans rfl)))
    ((V6_keep m c (leavesB m) main_arg1 (by decide) (by decide) (by decide) (by decide) (by decide) (by decide)).trans rfl)
    ((V6_keep m c (leavesB m) main_arg2 (by decide) (by decide) (by decide) (by decide) (by decide) (by decide)).trans rfl)
    ((V6_keep m c (leavesB m) main_arg3 (by decide) (by decide) (by decide) (by decide) (by decide) (by decide)).trans rfl)

/-- The third call reads the sample narrowed to `bf16`: the same extended reals. -/
theorem In2_main_v57 :
    (In2 m c main_v57 : S16384x64.Idx → EReal) = V7 m (leavesB m) c main_v56 :=
  stretch2_v57 (V6 m (leavesB m) c)

end Cert.KernelIdeal.Stages

end
-- ==== Proof.LibPlainDot.lean ====
/-
  A plain matrix product read at an index.

  For the dimension numbers of an ordinary `[M, K] × [K, N] → [M, N]` product (the left operand's axis 1 contracted with the
  right operand's axis 0, no batch axis), the contraction index is its one coordinate, and the operand indices at output
  index `(p, q)` and contraction coordinate `k` are `(p, k)` and `(k, q)`.  So at the extended reals both the host's
  `dot_general` and a `tpu.matmul` into a zero accumulator are `∑ k : Fin K, l (p, k) · r (k, q)`.
-/
import Idealize.ShloMosaic.PureOps.Ideal
import Idealize.ShloMosaic.PureOps.Ideal.Laws
import Idealize.ShloMosaic.Lib.ValueIdx

noncomputable section

namespace Cert.Lib

open Idealize.ShloMosaic Idealize.ShloMosaic.ValueIdx

/-- The contraction sum of a plain product, re-indexed by the contracted coordinate. -/
theorem plain_contr_sum {M K N : Nat} (l : (⟨2, ![M, K]⟩ : Shape).Idx → EReal) (r : (⟨2, ![K, N]⟩ : Shape).Idx → EReal)
    (p : Fin M) (q : Fin N) :
    ∑ k : (DotDims.plain M K N).contr.Idx,
        l ((DotDims.plain M K N).lhsIdx (ix2 p q) k) * r ((DotDims.plain M K N).rhsIdx (ix2 p q) k)
      = ∑ k : Fin K, l (ix2 p k) * r (ix2 k q) := by
  rw [← Equiv.sum_comp (contrEquiv1 (DotDims.plain M K N) K rfl rfl).symm]
  refine Finset.sum_congr rfl fun k _ => ?_
  have hl : (DotDims.plain M K N).lhsIdx (ix2 p q) ((contrEquiv1 (DotDims.plain M K N) K rfl rfl).symm k) = ix2 p k := by
    funext a
    refine Fin.ext ?_
    match a with
    | ⟨0, _⟩ => rfl
    | ⟨1, _⟩ =>
      refine ((DotDims.plain M K N).lhsIdx_val_of_single (cl := (1 : Fin 2)) rfl (ix2 p q) _).trans ?_
      exact contrEquiv1_symm_val (DotDims.plain M K N) K rfl rfl k
  have hr : (DotDims.plain M K N).rhsIdx (ix2 p q) ((contrEquiv1 (DotDims.plain M K N) K rfl rfl).symm k) = ix2 k q := by
    funext a
    refine Fin.ext ?_
    match a with
    | ⟨0, _⟩ =>
      refine ((DotDims.plain M K N).rhsIdx_val_of_single (cr := (0 : Fin 2)) rfl (ix2 p q) _).trans ?_
      exact contrEquiv1_symm_val (DotDims.plain M K N) K rfl rfl k
    | ⟨1, _⟩ => rfl
  rw [hl, hr]

/-- The host's `dot_general` with plain dimension numbers, at an index, over the extended reals. -/
theorem dotGeneral_plain_apply {M K N : Nat} {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) :=
  (Ideal.dotGeneral_apply (DotDims.plain M K N) prec sched l r (ix2 p q)).trans (plain_contr_sum l r p q)

/-- A `tpu.matmul` with plain dimension numbers into the zero accumulator, at an index, over the extended reals. -/
theorem matmul_plain_zero_apply {M K N : Nat} {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) :=
  (Ideal.matmul_constant_zero_apply (DotDims.plain M K N) prec l r (ix2 p q)).trans (plain_contr_sum l r p q)

end Cert.Lib

end
-- ==== Proof.LibKeepdims.lean ====
/-
  Two layout operations read at an index given by coordinates, for the column that a row-wise sum with kept
  dimensions produces: a vector `[a]` cast to the column `[a, 1]`, and a column `[a, 1]` broadcast over `b` lanes.
  They complete the row forms of the library's layout lemmas (a leading unit axis added, one row broadcast over many).
-/
import Idealize.ShloMosaic.Lib.ValueLayout

namespace Cert.LibKeepdims

open Idealize.ShloMosaic Idealize.ShloMosaic.ValueIdx

variable {α : Type}

/-- An `[a]` vector cast to the column `[a, 1]` reads, at `(i, u)`, the operand at `i`, whatever the unit coordinate `u`:
    both indices have the same row-major position, `i · 1 + 0 = i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`: the row coordinate is kept
    (when `a = 1` it is `0` anyway) and the unit axis reads its one coordinate. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims
-- ==== Proof.DenseLaws.lean ====
/-
  The dense operations of a two-layer variational graph encoder read at an index, over the extended reals,
  for matrices of arbitrary literal extents.

  * A product of a row-scaled matrix: the operand `x` is multiplied, lane by lane, by a column `s` broadcast along
    the lanes, both factors are narrowed to a shorter format (the identity on exact values) and multiplied into a
    zero accumulator:  `((x ⊙ s) · w)[p, q] = ∑ k, (x[p, k] · s[p, 0]) · w[k, q]`.
  * The inner-product decoder: `logistic ((a · bᵀ)[p, q]) = logistic (∑ k, a[p, k] · b[q, k])`.
  * The same decoder spelt with negate, exponential, add and divide, `1 / (1 + e^(−(z · zᵀ)[p, q]))`: this is the
    definition of the logistic function on the extended reals.
-/
import Idealize.ShloMosaic.Lib.Pipeline.Value
import Idealize.ShloMosaic.Lib.IdealHost
import proofs.«110445_j79267916415284_2_alg».proof.Proof.LibPlainDot
import proofs.«110445_j79267916415284_2_alg».proof.Proof.LibKeepdims

noncomputable section

namespace Cert.Dense

open Idealize.ShloMosaic Idealize.ShloMosaic.ValueIdx

/-- A transposed matrix read at `(k, q)` is the matrix at `(q, k)`. -/
theorem transpose_swap_apply {α : Type} {N K : Nat} (b : (⟨2, ![N, K]⟩ : Shape).Idx → α)
    (h : (⟨2, ![N, K]⟩ : Shape).Transposes [1, 0] ⟨2, ![K, N]⟩) (k : Fin K) (q : Fin N) :
    transpose ⟨2, ![K, N]⟩ [1, 0] b h (ix2 k q) = b (ix2 q k) :=
  transpose_apply [1, 0] b h (ix2 k q) (ix2 q k) (fun c => match c with
    | ⟨0, _⟩ => rfl
    | ⟨1, _⟩ => rfl)

/-- THE ROW-SCALED PRODUCT: `((x ⊙ s) · w)[p, q] = ∑ k, (x[p, k] · s[p, 0]) · w[k, q]`. -/
theorem scaled_product_apply {M K N : Nat} (x : FVec Ideal ⟨2, ![M, K]⟩ .f32) (s : FVec Ideal ⟨2, ![M, 1]⟩ .f32)
    (w : FVec Ideal ⟨2, ![K, N]⟩ .f32)
    (hc : (⟨2, ![M, 1]⟩ : Shape).ShapeCasts ⟨2, ![M, 1]⟩) (hb : (⟨2, ![M, 1]⟩ : Shape).Broadcasts ⟨2, ![M, K]⟩)
    (hlt : FTy.bits .bf16 < FTy.bits .f32) (p : Fin M) (q : Fin N) :
    matmul (F := Ideal) (DotDims.plain M K N) none
        (truncf .bf16 (mulf x (broadcastTo ⟨2, ![M, K]⟩ (shapeCast ⟨2, ![M, 1]⟩ s hc) hb)) hlt)
        (truncf .bf16 w hlt) (constant ⟨2, ![M, N]⟩ .f32 0x00000000#32) (ix2 p q)
      = ∑ k : Fin K, (x (ix2 p k) * s (ix2 p 0)) * w (ix2 k q) := by
  refine (Cert.Lib.matmul_plain_zero_apply none _ _ p q).trans ?_
  refine Finset.sum_congr rfl fun k _ => ?_
  rw [truncf_apply, truncf_apply, mulf_apply, Cert.LibKeepdims.broadcastTo_a1_ab_apply, shapeCast_self]

/-- The same product when the two matrix operands first pass through a cast to their own shape. -/
theorem scaled_product_cast_apply {M K N : Nat} (x : FVec Ideal ⟨2, ![M, K]⟩ .f32) (s : FVec Ideal ⟨2, ![M, 1]⟩ .f32)
    (w : FVec Ideal ⟨2, ![K, N]⟩ .f32)
    (hx : (⟨2, ![M, K]⟩ : Shape).ShapeCasts ⟨2, ![M, K]⟩) (hw : (⟨2, ![K, N]⟩ : Shape).ShapeCasts ⟨2, ![K, N]⟩)
    (hc : (⟨2, ![M, 1]⟩ : Shape).ShapeCasts ⟨2, ![M, 1]⟩) (hb : (⟨2, ![M, 1]⟩ : Shape).Broadcasts ⟨2, ![M, K]⟩)
    (hlt : FTy.bits .bf16 < FTy.bits .f32) (p : Fin M) (q : Fin N) :
    matmul (F := Ideal) (DotDims.plain M K N) none
        (truncf .bf16 (mulf (shapeCast ⟨2, ![M, K]⟩ x hx) (broadcastTo ⟨2, ![M, K]⟩ (shapeCast ⟨2, ![M, 1]⟩ s hc) hb)) hlt)
        (truncf .bf16 (shapeCast ⟨2, ![K, N]⟩ w hw) hlt) (constant ⟨2, ![M, N]⟩ .f32 0x00000000#32) (ix2 p q)
      = ∑ k : Fin K, (x (ix2 p k) * s (ix2 p 0)) * w (ix2 k q) := by
  rw [shapeCast_self x hx, shapeCast_self w hw]
  exact scaled_product_apply x s w hc hb hlt p q

/-- THE DECODER: `logistic ((a · bᵀ)[p, q]) = logistic (∑ k, a[p, k] · b[q, k])`. -/
theorem decode_apply {M K N : Nat} (a : FVec Ideal ⟨2, ![M, K]⟩ .bf16) (b : FVec Ideal ⟨2, ![N, K]⟩ .bf16)
    (ha : (⟨2, ![M, K]⟩ : Shape).ShapeCasts ⟨2, ![M, K]⟩) (hb : (⟨2, ![N, K]⟩ : Shape).ShapeCasts ⟨2, ![N, K]⟩)
    (ht : (⟨2, ![N, K]⟩ : Shape).Transposes [1, 0] ⟨2, ![K, N]⟩) (p : Fin M) (q : Fin N) :
    logistic (F := Ideal) (matmul (F := Ideal) (DotDims.plain M K N) none (shapeCast ⟨2, ![M, K]⟩ a ha)
        (transpose ⟨2, ![K, N]⟩ [1, 0] (shapeCast ⟨2, ![N, K]⟩ b hb) ht)
        (constant ⟨2, ![M, N]⟩ .f32 0x00000000#32)) (ix2 p q)
      = Ideal.logistic (∑ k : Fin K, a (ix2 p k) * b (ix2 q k)) := by
  rw [shapeCast_self a ha, shapeCast_self b hb]
  refine congrArg Ideal.logistic ?_
  refine (Cert.Lib.matmul_plain_zero_apply none _ _ p q).trans ?_
  refine Finset.sum_congr rfl fun k _ => ?_
  rw [transpose_swap_apply]

/-- THE DECODER ON THE HOST, spelt `1 / (1 + e^(−(z · zᵀ)[p, q]))` with both ones broadcast scalars. -/
theorem host_decode_apply {n m : Nat} (z : FVec Ideal ⟨2, ![n, m]⟩ .f32)
    (hb : (⟨0, ![]⟩ : Shape).BroadcastsInDim ⟨2, ![n, n]⟩ ![])
    (ht : (⟨2, ![n, m]⟩ : Shape).Transposes [1, 0] ⟨2, ![m, n]⟩) (p q : Fin n) :
    Host.divf (F := Ideal) (broadcastInDim ⟨2, ![n, n]⟩ ![] hb (constant (F := Ideal) ⟨0, ![]⟩ .f32 0x3F800000#32))
        (addf (broadcastInDim ⟨2, ![n, n]⟩ ![] hb (constant (F := Ideal) ⟨0, ![]⟩ .f32 0x3F800000#32))
          (Host.exp (Host.negf (Host.dotGeneral (F := Ideal) (DotDims.plain n m n) none z
            (transpose ⟨2, ![m, n]⟩ [1, 0] z ht))))) (ix2 p q)
      = Ideal.logistic (∑ k : Fin m, z (ix2 p k) * z (ix2 q k)) := by
  have hone : broadcastInDim ⟨2, ![n, n]⟩ ![] hb (constant (F := Ideal) ⟨0, ![]⟩ .f32 0x3F800000#32) (ix2 p q) = (1 : EReal) := by
    rw [broadcastInDim_scalar_apply, constant_apply, Ideal.ofBits_one_f32]
  have hdot : Host.dotGeneral (F := Ideal) (DotDims.plain n m n) none z (transpose ⟨2, ![m, n]⟩ [1, 0] z ht) (ix2 p q)
      = ∑ k : Fin m, z (ix2 p k) * z (ix2 q k) := by
    refine (Cert.Lib.dotGeneral_plain_apply none .single z _ p q).trans ?_
    refine Finset.sum_congr rfl fun k _ => ?_
    rw [transpose_swap_apply]
  show Ideal.div (broadcastInDim ⟨2, ![n, n]⟩ ![] hb (constant (F := Ideal) ⟨0, ![]⟩ .f32 0x3F800000#32) (ix2 p q))
      (broadcastInDim ⟨2, ![n, n]⟩ ![] hb (constant (F := Ideal) ⟨0, ![]⟩ .f32 0x3F800000#32) (ix2 p q)
        + Ideal.exp (-(Host.dotGeneral (F := Ideal) (DotDims.plain n m n) none z (transpose ⟨2, ![m, n]⟩ [1, 0] z ht) (ix2 p q)))) = _
  rw [hone, hdot]
  rfl

end Cert.Dense

end
-- ==== Proof.DenseValue.lean ====
/-
  The dense operations of the encoder's two programs read at an index, over the extended reals.

  The kernel program computes the two projections `(x ⊙ s) · W` block by block and the decoder `logistic (a · bᵀ)` tile
  by tile; the reference computes the same three products on whole arrays and spells the logistic function with negate,
  exponential, add and divide.  Each is read here at `(p, q)` as a sum over the contracted coordinate; every statement
  is the general law (for arbitrary extents) at this program's literal shapes and dimension records.
-/
import proofs.«110445_j79267916415284_2_alg».proof.Proof.Gen.KernelIdeal.Skeleton
import proofs.«110445_j79267916415284_2_alg».proof.Proof.Gen.ReferenceIdeal
import proofs.«110445_j79267916415284_2_alg».proof.Proof.DenseLaws

noncomputable section

namespace Cert.Dense

open Idealize.ShloMosaic Idealize.ShloMosaic.ValueIdx

/-! ## The kernel program's three block values -/

/-- A block of the first projection: `∑ k, (x[p, k] · s[p, 0]) · W₁[k, q]`. -/
theorem proj0_block (x0 : FVec Ideal Cert.KernelIdeal.S2048x512 .f32) (x1 : FVec Ideal Cert.KernelIdeal.S2048x1 .f32)
    (x2 : FVec Ideal Cert.KernelIdeal.S512x256 .f32) (p : Fin 2048) (q : Fin 256) :
    Cert.KernelIdeal.Gen.k0_pay1 (F := Ideal) x0 x1 x2 (ix2 p q)
      = ∑ k : Fin 512, (x0 (ix2 p k) * x1 (ix2 p 0)) * x2 (ix2 k q) := by
  unfold Cert.KernelIdeal.Gen.k0_pay1
  exact scaled_product_apply x0 x1 x2 _ _ _ p q

/-- A block of the second, fused projection: `∑ k, (h[p, k] · s[p, 0]) · W₂₃[k, q]`. -/
theorem proj1_block (x0 : FVec Ideal Cert.KernelIdeal.S2048x256 .f32) (x1 : FVec Ideal Cert.KernelIdeal.S2048x1 .f32)
    (x2 : FVec Ideal Cert.KernelIdeal.S256x128 .f32) (p : Fin 2048) (q : Fin 128) :
    Cert.KernelIdeal.Gen.k1_pay1 (F := Ideal) x0 x1 x2 (ix2 p q)
      = ∑ k : Fin 256, (x0 (ix2 p k) * x1 (ix2 p 0)) * x2 (ix2 k q) := by
  unfold Cert.KernelIdeal.Gen.k1_pay1
  exact scaled_product_cast_apply x0 x1 x2 _ _ _ _ _ p q

/-- A tile of the decoder: `logistic (∑ k, a[p, k] · b[q, k])`. -/
theorem decode_block (a : FVec Ideal Cert.KernelIdeal.S2048x64 .bf16) (b : FVec Ideal Cert.KernelIdeal.S1024x64 .bf16)
    (p : Fin 2048) (q : Fin 1024) :
    Cert.KernelIdeal.Gen.k2_pay1 (F := Ideal) a b (ix2 p q) = Ideal.logistic (∑ k : Fin 64, a (ix2 p k) * b (ix2 q k)) := by
  unfold Cert.KernelIdeal.Gen.k2_pay1
  exact decode_apply a b _ _ _ p q

/-! ## The reference's three products and its decoder -/

/-- The reference's first product, `[16384, 512] · [512, 256]`. -/
theorem ref_dot_hidden (l : FVec Ideal Cert.ReferenceIdeal.S16384x512 .f32) (r : FVec Ideal Cert.ReferenceIdeal.S512x256 .f32)
    (p : Fin 16384) (q : Fin 256) :
    Host.dotGeneral (F := Ideal) Cert.ReferenceIdeal.dot_S16384x512_S512x256_S16384x256_1_0_0_1_n_n none l r (ix2 p q)
      = ∑ k : Fin 512, l (ix2 p k) * r (ix2 k q) :=
  Cert.Lib.dotGeneral_plain_apply none .single l r p q

/-- The reference's second-layer products, `[16384, 256] · [256, 64]`. -/
theorem ref_dot_latent (l : FVec Ideal Cert.ReferenceIdeal.S16384x256 .f32) (r : FVec Ideal Cert.ReferenceIdeal.S256x64 .f32)
    (p : Fin 16384) (q : Fin 64) :
    Host.dotGeneral (F := Ideal) Cert.ReferenceIdeal.dot_S16384x256_S256x64_S16384x64_1_0_0_1_n_n none l r (ix2 p q)
      = ∑ k : Fin 256, l (ix2 p k) * r (ix2 k q) :=
  Cert.Lib.dotGeneral_plain_apply none .single l r p q

/-- The reference's decoder product, `[16384, 64] · [64, 16384]`. -/
theorem ref_dot_gram (l : FVec Ideal Cert.ReferenceIdeal.S16384x64 .f32) (r : FVec Ideal Cert.ReferenceIdeal.S64x16384 .f32)
    (p q : Fin 16384) :
    Host.dotGeneral (F := Ideal) Cert.ReferenceIdeal.dot_S16384x64_S64x16384_S16384x16384_1_0_0_1_n_n none l r (ix2 p q)
      = ∑ k : Fin 64, l (ix2 p k) * r (ix2 k q) :=
  Cert.Lib.dotGeneral_plain_apply none .single l r p q

/-- The reference's decoder, `1 / (1 + e^(−(z · zᵀ)[p, q]))`, is `logistic (∑ k, z[p, k] · z[q, k])`. -/
theorem ref_decode (z : FVec Ideal Cert.ReferenceIdeal.S16384x64 .f32) (p q : Fin 16384) :
    Host.divf (F := Ideal)
        (broadcastInDim Cert.ReferenceIdeal.S16384x16384 ![] Cert.ReferenceIdeal.Facts₀.bcast_S_S16384x16384
          (constant (F := Ideal) Cert.ReferenceIdeal.S_ .f32 0x3F800000#32))
        (addf
          (broadcastInDim Cert.ReferenceIdeal.S16384x16384 ![] Cert.ReferenceIdeal.Facts₀.bcast_S_S16384x16384
            (constant (F := Ideal) Cert.ReferenceIdeal.S_ .f32 0x3F800000#32))
          (Host.exp (Host.negf (Host.dotGeneral (F := Ideal)
            Cert.ReferenceIdeal.dot_S16384x64_S64x16384_S16384x16384_1_0_0_1_n_n none z
            (transpose Cert.ReferenceIdeal.S64x16384 [1, 0] z
              Cert.ReferenceIdeal.Facts₀.transposes_S16384x64_S64x16384_1_0))))) (ix2 p q)
      = Ideal.logistic (∑ k : Fin 64, z (ix2 p k) * z (ix2 q k)) :=
  host_decode_apply z _ _ p q

end Cert.Dense

end
-- ==== Proof.CallValues.lean ====
/-
  From blocks to arrays: what each of the three calls leaves in its result array, as one function of the arrays it
  reads, whatever those hold when the call is entered.

  Every grid point stores one whole output block, the body's arithmetic of the blocks it loaded; read at an index that is a
  sum over the contracted coordinate of the loaded blocks' entries (the block values of the dense operations), and a
  block's entry is the array's entry at block index × block size + the coordinate inside the block.  The index maps are
  decided once over the grid; the output's blocks tile its array, so the array ends holding the one function everywhere.
-/
import proofs.«110445_j79267916415284_2_alg».proof.Proof.Region0
import proofs.«110445_j79267916415284_2_alg».proof.Proof.Region1
import proofs.«110445_j79267916415284_2_alg».proof.Proof.Region2
import proofs.«110445_j79267916415284_2_alg».proof.Proof.DenseValue
import Idealize.ShloMosaic.Lib.Pipeline.Value

noncomputable section

namespace Cert.KernelIdeal.RgValue

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Rg

-- the contents of the TensorCore's buffers when a call is entered
variable (V : (c : Dev nD) → (b : Ref sig .tc) → Buf (Elt Ideal) ((c : Thread nD τ).loc b))

/-- The zero offsets of a whole-block load or store, as a constant function. -/
theorem hz : (![0, 0] : Fin 2 → Nat) = fun _ => 0 := funext fun a => by fin_cases a <;> rfl

/-! ## The first projection -/

/-- The product of the row-scaled features with the first weight, as one function of the three arrays. -/
def scaled0 (x : S16384x512.Idx → EReal) (s : S16384x1.Idx → EReal) (w : S512x256.Idx → EReal) : S16384x256.Idx → EReal :=
  fun i => ∑ k : Fin 512, (x (ix2 (i 0) k) * s (ix2 (i 0) 0)) * w (ix2 k (i 1))

theorem scaled0_apply (x : S16384x512.Idx → EReal) (s : S16384x1.Idx → EReal) (w : S512x256.Idx → EReal)
    (p : Fin 16384) (q : Fin 256) :
    scaled0 x s w (ix2 p q) = ∑ k : Fin 512, (x (ix2 p k) * s (ix2 p 0)) * w (ix2 k q) := rfl

/-- The index maps of the call, decided over its eight points: the feature and scale blocks move with the output's row
    block, the weight and every column block stay at zero. -/
theorem idx_facts0 : ∀ t : Fin cfg0.N, win0_0.index t (0 : Fin 2) = win0_3.index t (0 : Fin 2)
    ∧ win0_0.index t (1 : Fin 2) = 0
    ∧ win0_1.index t (0 : Fin 2) = win0_3.index t (0 : Fin 2)
    ∧ win0_1.index t (1 : Fin 2) = 0
    ∧ win0_2.index t (0 : Fin 2) = 0
    ∧ win0_2.index t (1 : Fin 2) = 0
    ∧ win0_3.index t (0 : Fin 2) = t.val
    ∧ win0_3.index t (1 : Fin 2) = 0 :=
  (by decide +kernel : ∀ t : Fin grid0.N, _)

/-- What point `t` writes back is its block of `scaled0` of the arrays as the call finds them. -/
theorem flushed0_eq (c : Dev nD) (t : Fin cfg0.N) :
    (dat0 V c).flushed 3 t
      = ((cfg0.win 3).blk t).view.read (Elt Ideal) (scaled0 (V c main_arg0) (V c main_v15) (V c main_arg4)) := by
  show (cfg0.win 3).cut (grid0.coords t) ((dat0 V c).after 3 t) = _
  rw [left0_3]
  unfold stored0
  rw [View.canon_unit_zero hz]
  simp only [View.ld_unit_zero (S := S2048x512) hz, View.ld_unit_zero (S := S2048x1) hz, View.ld_unit_zero (S := S512x256) hz]
  obtain ⟨e0, e1, e2, e3, e4, e5, e6, e7⟩ := idx_facts0 t
  funext j
  obtain ⟨p, q, rfl⟩ : ∃ (p : Fin 2048) (q : Fin 256), j = ix2 p q := ⟨j 0, j 1, eq_ix2 j⟩
  show k0_pay1 (F := Ideal) (blk0 V c 0 t) (blk0 V c 1 t) (blk0 V c 2 t) (ix2 p q)
      = scaled0 (V c main_arg0) (V c main_v15) (V c main_arg4) (((cfg0.win 3).blk t).view.emb (ix2 p q))
  refine (Cert.Dense.proj0_block (blk0 V c 0 t) (blk0 V c 1 t) (blk0 V c 2 t) p q).trans ?_
  refine Finset.sum_congr rfl fun k _ => ?_
  have h0 : ((cfg0.win 0).blk t).view.emb (ix2 p k) = ix2 ((((cfg0.win 3).blk t).view.emb (ix2 p q)) 0) k := by
    funext a; apply Fin.ext
    match a with
    | ⟨0, _⟩ => show win0_0.index t (0 : Fin 2) * 2048 + 1 * p.val = win0_3.index t (0 : Fin 2) * 2048 + 1 * p.val; omega
    | ⟨1, _⟩ => show win0_0.index t (1 : Fin 2) * 512 + 1 * k.val = k.val; omega
  have h1 : ((cfg0.win 1).blk t).view.emb (ix2 p (0 : Fin 1)) = ix2 ((((cfg0.win 3).blk t).view.emb (ix2 p q)) 0) (0 : Fin 1) := by
    funext a; apply Fin.ext
    match a with
    | ⟨0, _⟩ => show win0_1.index t (0 : Fin 2) * 2048 + 1 * p.val = win0_3.index t (0 : Fin 2) * 2048 + 1 * p.val; omega
    | ⟨1, _⟩ => show win0_1.index t (1 : Fin 2) * 1 + 1 * 0 = 0; omega
  have h2 : ((cfg0.win 2).blk t).view.emb (ix2 k q) = ix2 k ((((cfg0.win 3).blk t).view.emb (ix2 p q)) 1) := by
    funext a; apply Fin.ext
    match a with
    | ⟨0, _⟩ => show win0_2.index t (0 : Fin 2) * 512 + 1 * k.val = k.val; omega
    | ⟨1, _⟩ => show win0_2.index t (1 : Fin 2) * 256 + 1 * q.val = win0_3.index t (1 : Fin 2) * 256 + 1 * q.val; omega
  have a0 : (blk0 V c 0 t (ix2 p k) : EReal)
      = (V c main_arg0 : S16384x512.Idx → EReal) (ix2 ((((cfg0.win 3).blk t).view.emb (ix2 p q)) 0) k) :=
    congrArg (V c main_arg0 : S16384x512.Idx → EReal) h0
  have a1 : (blk0 V c 1 t (ix2 p (0 : Fin 1)) : EReal)
      = (V c main_v15 : S16384x1.Idx → EReal) (ix2 ((((cfg0.win 3).blk t).view.emb (ix2 p q)) 0) (0 : Fin 1)) :=
    congrArg (V c main_v15 : S16384x1.Idx → EReal) h1
  have a2 : (blk0 V c 2 t (ix2 k q) : EReal)
      = (V c main_arg4 : S512x256.Idx → EReal) (ix2 k ((((cfg0.win 3).blk t).view.emb (ix2 p q)) 1)) :=
    congrArg (V c main_arg4 : S512x256.Idx → EReal) h2
  exact congrArg₂ (fun (u v : EReal) => u * v) (congrArg₂ (fun (u v : EReal) => u * v) a0 a1) a2

/-- An index of the result is in point `t`'s block iff each coordinate is in the block's range on its axis. -/
theorem mem_blk0 (t : Fin cfg0.N) (i : S16384x256.Idx) :
    i ∈ ((cfg0.win 3).blk t).view.set ↔ ∀ a : Fin 2, win0_3.index t a * S2048x256.size a ≤ (i a).val
      ∧ (i a).val < win0_3.index t a * S2048x256.size a + S2048x256.size a := by
  show i ∈ ((View.whole main_v17).slice (win0_3.rect t)).set ↔ _
  rw [View.set_slice_whole, Rect.mem_set_unit]
  exact Iff.rfl

/-- Every index of the result is in the block of the point its row block names: row `r` is written at point `r / 2048`. -/
theorem cover0 (i : S16384x256.Idx) :
    ∃ t : Fin cfg0.N, (cfg0.win 3).flush t = true ∧ i ∈ ((cfg0.win 3).blk t).view.set := by
  have hi0 : (i 0).val < 16384 := (i 0).isLt
  have hi1 : (i 1).val < 256 := (i 1).isLt
  have hN : grid0.N = 8 := N_0
  have ht : (i 0).val / 2048 < cfg0.N := by show (i 0).val / 2048 < grid0.N; omega
  refine ⟨⟨(i 0).val / 2048, ht⟩, flush0_3 _, ?_⟩
  rw [mem_blk0]
  obtain ⟨-, -, -, -, -, -, e6, e7⟩ := idx_facts0 ⟨(i 0).val / 2048, ht⟩
  have e6' : win0_3.index ⟨(i 0).val / 2048, ht⟩ (0 : Fin 2) = (i 0).val / 2048 := e6
  intro a
  match a with
  | ⟨0, _⟩ =>
    show win0_3.index ⟨(i 0).val / 2048, ht⟩ (0 : Fin 2) * 2048 ≤ (i 0).val
      ∧ (i 0).val < win0_3.index ⟨(i 0).val / 2048, ht⟩ (0 : Fin 2) * 2048 + 2048
    omega
  | ⟨1, _⟩ =>
    show win0_3.index ⟨(i 0).val / 2048, ht⟩ (1 : Fin 2) * 256 ≤ (i 1).val
      ∧ (i 1).val < win0_3.index ⟨(i 0).val / 2048, ht⟩ (1 : Fin 2) * 256 + 256
    omega

/-- THE FIRST PROJECTION'S RESULT after the call, whatever the arrays held on entry. -/
theorem call0_array (c : Dev nD) :
    (dat0 V c).arrAt 3 cfg0.N = scaled0 (V c main_arg0) (V c main_v15) (V c main_arg4) :=
  (dat0 V c).arrAt_eq_of_cover 3 _ (fun t _ => flushed0_eq V c t) cover0

/-- The same at an index (`scaled0_apply` opens the right side as `∑ k, (x[p, k] · s[p, 0]) · W₁[k, q]`). -/
theorem call0_value (c : Dev nD) (p : Fin 16384) (q : Fin 256) :
    (dat0 V c).arrAt 3 cfg0.N (ix2 p q) = scaled0 (V c main_arg0) (V c main_v15) (V c main_arg4) (ix2 p q) :=
  congrFun (call0_array V c) (ix2 p q)

/-! ## The second, fused projection -/

/-- The product of the row-scaled hidden rows with the fused second-layer weight, as one function of the three arrays. -/
def scaled1 (x : S16384x256.Idx → EReal) (s : S16384x1.Idx → EReal) (w : S256x128.Idx → EReal) : S16384x128.Idx → EReal :=
  fun i => ∑ k : Fin 256, (x (ix2 (i 0) k) * s (ix2 (i 0) 0)) * w (ix2 k (i 1))

theorem scaled1_apply (x : S16384x256.Idx → EReal) (s : S16384x1.Idx → EReal) (w : S256x128.Idx → EReal)
    (p : Fin 16384) (q : Fin 128) :
    scaled1 x s w (ix2 p q) = ∑ k : Fin 256, (x (ix2 p k) * s (ix2 p 0)) * w (ix2 k q) := rfl

/-- The index maps of the call, decided over its eight points: the hidden-row and scale blocks move with the output's row
    block, the weight and every column block stay at zero. -/
theorem idx_facts1 : ∀ t : Fin cfg1.N, win1_0.index t (0 : Fin 2) = win1_3.index t (0 : Fin 2)
    ∧ win1_0.index t (1 : Fin 2) = 0
    ∧ win1_1.index t (0 : Fin 2) = win1_3.index t (0 : Fin 2)
    ∧ win1_1.index t (1 : Fin 2) = 0
    ∧ win1_2.index t (0 : Fin 2) = 0
    ∧ win1_2.index t (1 : Fin 2) = 0
    ∧ win1_3.index t (0 : Fin 2) = t.val
    ∧ win1_3.index t (1 : Fin 2) = 0 :=
  (by decide +kernel : ∀ t : Fin grid1.N, _)

/-- What point `t` writes back is its block of `scaled1` of the arrays as the call finds them. -/
theorem flushed1_eq (c : Dev nD) (t : Fin cfg1.N) :
    (dat1 V c).flushed 3 t
      = ((cfg1.win 3).blk t).view.read (Elt Ideal) (scaled1 (V c main_v33) (V c main_v15) (V c main_v34)) := by
  show (cfg1.win 3).cut (grid1.coords t) ((dat1 V c).after 3 t) = _
  rw [left1_3]
  unfold stored1
  rw [View.canon_unit_zero hz]
  simp only [View.ld_unit_zero (S := S2048x256) hz, View.ld_unit_zero (S := S2048x1) hz, View.ld_unit_zero (S := S256x128) hz]
  obtain ⟨e0, e1, e2, e3, e4, e5, e6, e7⟩ := idx_facts1 t
  funext j
  obtain ⟨p, q, rfl⟩ : ∃ (p : Fin 2048) (q : Fin 128), j = ix2 p q := ⟨j 0, j 1, eq_ix2 j⟩
  show k1_pay1 (F := Ideal) (blk1 V c 0 t) (blk1 V c 1 t) (blk1 V c 2 t) (ix2 p q)
      = scaled1 (V c main_v33) (V c main_v15) (V c main_v34) (((cfg1.win 3).blk t).view.emb (ix2 p q))
  refine (Cert.Dense.proj1_block (blk1 V c 0 t) (blk1 V c 1 t) (blk1 V c 2 t) p q).trans ?_
  refine Finset.sum_congr rfl fun k _ => ?_
  have h0 : ((cfg1.win 0).blk t).view.emb (ix2 p k) = ix2 ((((cfg1.win 3).blk t).view.emb (ix2 p q)) 0) k := by
    funext a; apply Fin.ext
    match a with
    | ⟨0, _⟩ => show win1_0.index t (0 : Fin 2) * 2048 + 1 * p.val = win1_3.index t (0 : Fin 2) * 2048 + 1 * p.val; omega
    | ⟨1, _⟩ => show win1_0.index t (1 : Fin 2) * 256 + 1 * k.val = k.val; omega
  have h1 : ((cfg1.win 1).blk t).view.emb (ix2 p (0 : Fin 1)) = ix2 ((((cfg1.win 3).blk t).view.emb (ix2 p q)) 0) (0 : Fin 1) := by
    funext a; apply Fin.ext
    match a with
    | ⟨0, _⟩ => show win1_1.index t (0 : Fin 2) * 2048 + 1 * p.val = win1_3.index t (0 : Fin 2) * 2048 + 1 * p.val; omega
    | ⟨1, _⟩ => show win1_1.index t (1 : Fin 2) * 1 + 1 * 0 = 0; omega
  have h2 : ((cfg1.win 2).blk t).view.emb (ix2 k q) = ix2 k ((((cfg1.win 3).blk t).view.emb (ix2 p q)) 1) := by
    funext a; apply Fin.ext
    match a with
    | ⟨0, _⟩ => show win1_2.index t (0 : Fin 2) * 256 + 1 * k.val = k.val; omega
    | ⟨1, _⟩ => show win1_2.index t (1 : Fin 2) * 128 + 1 * q.val = win1_3.index t (1 : Fin 2) * 128 + 1 * q.val; omega
  have a0 : (blk1 V c 0 t (ix2 p k) : EReal)
      = (V c main_v33 : S16384x256.Idx → EReal) (ix2 ((((cfg1.win 3).blk t).view.emb (ix2 p q)) 0) k) :=
    congrArg (V c main_v33 : S16384x256.Idx → EReal) h0
  have a1 : (blk1 V c 1 t (ix2 p (0 : Fin 1)) : EReal)
      = (V c main_v15 : S16384x1.Idx → EReal) (ix2 ((((cfg1.win 3).blk t).view.emb (ix2 p q)) 0) (0 : Fin 1)) :=
    congrArg (V c main_v15 : S16384x1.Idx → EReal) h1
  have a2 : (blk1 V c 2 t (ix2 k q) : EReal)
      = (V c main_v34 : S256x128.Idx → EReal) (ix2 k ((((cfg1.win 3).blk t).view.emb (ix2 p q)) 1)) :=
    congrArg (V c main_v34 : S256x128.Idx → EReal) h2
  exact congrArg₂ (fun (u v : EReal) => u * v) (congrArg₂ (fun (u v : EReal) => u * v) a0 a1) a2

/-- An index of the result is in point `t`'s block iff each coordinate is in the block's range on its axis. -/
theorem mem_blk1 (t : Fin cfg1.N) (i : S16384x128.Idx) :
    i ∈ ((cfg1.win 3).blk t).view.set ↔ ∀ a : Fin 2, win1_3.index t a * S2048x128.size a ≤ (i a).val
      ∧ (i a).val < win1_3.index t a * S2048x128.size a + S2048x128.size a := by
  show i ∈ ((View.whole main_v36).slice (win1_3.rect t)).set ↔ _
  rw [View.set_slice_whole, Rect.mem_set_unit]
  exact Iff.rfl

/-- Every index of the result is in the block of the point its row block names: row `r` is written at point `r / 2048`. -/
theorem cover1 (i : S16384x128.Idx) :
    ∃ t : Fin cfg1.N, (cfg1.win 3).flush t = true ∧ i ∈ ((cfg1.win 3).blk t).view.set := by
  have hi0 : (i 0).val < 16384 := (i 0).isLt
  have hi1 : (i 1).val < 128 := (i 1).isLt
  have hN : grid1.N = 8 := N_1
  have ht : (i 0).val / 2048 < cfg1.N := by show (i 0).val / 2048 < grid1.N; omega
  refine ⟨⟨(i 0).val / 2048, ht⟩, flush1_3 _, ?_⟩
  rw [mem_blk1]
  obtain ⟨-, -, -, -, -, -, e6, e7⟩ := idx_facts1 ⟨(i 0).val / 2048, ht⟩
  have e6' : win1_3.index ⟨(i 0).val / 2048, ht⟩ (0 : Fin 2) = (i 0).val / 2048 := e6
  intro a
  match a with
  | ⟨0, _⟩ =>
    show win1_3.index ⟨(i 0).val / 2048, ht⟩ (0 : Fin 2) * 2048 ≤ (i 0).val
      ∧ (i 0).val < win1_3.index ⟨(i 0).val / 2048, ht⟩ (0 : Fin 2) * 2048 + 2048
    omega
  | ⟨1, _⟩ =>
    show win1_3.index ⟨(i 0).val / 2048, ht⟩ (1 : Fin 2) * 128 ≤ (i 1).val
      ∧ (i 1).val < win1_3.index ⟨(i 0).val / 2048, ht⟩ (1 : Fin 2) * 128 + 128
    omega

/-- THE FUSED PROJECTION'S RESULT after the call, whatever the arrays held on entry. -/
theorem call1_array (c : Dev nD) :
    (dat1 V c).arrAt 3 cfg1.N = scaled1 (V c main_v33) (V c main_v15) (V c main_v34) :=
  (dat1 V c).arrAt_eq_of_cover 3 _ (fun t _ => flushed1_eq V c t) cover1

/-- The same at an index (`scaled1_apply` opens the right side as `∑ k, (x[p, k] · s[p, 0]) · W₂₃[k, q]`). -/
theorem call1_value (c : Dev nD) (p : Fin 16384) (q : Fin 128) :
    (dat1 V c).arrAt 3 cfg1.N (ix2 p q) = scaled1 (V c main_v33) (V c main_v15) (V c main_v34) (ix2 p q) :=
  congrFun (call1_array V c) (ix2 p q)

/-! ## The decoder -/

/-- The decoder's result as one function of the latent array: `logistic (∑ k, z[p, k] · z[q, k])`. -/
def decoded (z : S16384x64.Idx → EReal) : S16384x16384.Idx → EReal :=
  fun i => Ideal.logistic (∑ k : Fin 64, z (ix2 (i 0) k) * z (ix2 (i 1) k))

theorem decoded_apply (z : S16384x64.Idx → EReal) (p q : Fin 16384) :
    decoded z (ix2 p q) = Ideal.logistic (∑ k : Fin 64, z (ix2 p k) * z (ix2 q k)) := rfl

/-- The index maps of the call, decided over its 8 × 16 points: the left block of latent rows moves with the output's row
    block, the right one with its column block, and point `t` writes tile `(t / 16, t % 16)`. -/
theorem idx_facts2 : ∀ t : Fin cfg2.N, win2_0.index t (0 : Fin 2) = win2_2.index t (0 : Fin 2)
    ∧ win2_0.index t (1 : Fin 2) = 0
    ∧ win2_1.index t (0 : Fin 2) = win2_2.index t (1 : Fin 2)
    ∧ win2_1.index t (1 : Fin 2) = 0
    ∧ win2_2.index t (0 : Fin 2) = t.val / 16
    ∧ win2_2.index t (1 : Fin 2) = t.val % 16 :=
  (by decide +kernel : ∀ t : Fin grid2.N, _)

/-- What point `t` writes back is its tile of `decoded` of the latent array as the call finds it. -/
theorem flushed2_eq (c : Dev nD) (t : Fin cfg2.N) :
    (dat2 V c).flushed 2 t = ((cfg2.win 2).blk t).view.read (Elt Ideal) (decoded (V c main_v57)) := by
  show (cfg2.win 2).cut (grid2.coords t) ((dat2 V c).after 2 t) = _
  rw [left2_2]
  unfold stored2
  rw [View.canon_unit_zero hz]
  simp only [View.ld_unit_zero (S := S2048x64) hz, View.ld_unit_zero (S := S1024x64) hz]
  obtain ⟨e0, e1, e2, e3, e4, e5⟩ := idx_facts2 t
  funext j
  obtain ⟨p, q, rfl⟩ : ∃ (p : Fin 2048) (q : Fin 1024), j = ix2 p q := ⟨j 0, j 1, eq_ix2 j⟩
  show k2_pay1 (F := Ideal) (blk2 V c 0 t) (blk2 V c 1 t) (ix2 p q)
      = decoded (V c main_v57) (((cfg2.win 2).blk t).view.emb (ix2 p q))
  refine (Cert.Dense.decode_block (blk2 V c 0 t) (blk2 V c 1 t) p q).trans ?_
  refine congrArg Ideal.logistic ?_
  refine Finset.sum_congr rfl fun k _ => ?_
  have h0 : ((cfg2.win 0).blk t).view.emb (ix2 p k) = ix2 ((((cfg2.win 2).blk t).view.emb (ix2 p q)) 0) k := by
    funext a; apply Fin.ext
    match a with
    | ⟨0, _⟩ => show win2_0.index t (0 : Fin 2) * 2048 + 1 * p.val = win2_2.index t (0 : Fin 2) * 2048 + 1 * p.val; omega
    | ⟨1, _⟩ => show win2_0.index t (1 : Fin 2) * 64 + 1 * k.val = k.val; omega
  have h1 : ((cfg2.win 1).blk t).view.emb (ix2 q k) = ix2 ((((cfg2.win 2).blk t).view.emb (ix2 p q)) 1) k := by
    funext a; apply Fin.ext
    match a with
    | ⟨0, _⟩ => show win2_1.index t (0 : Fin 2) * 1024 + 1 * q.val = win2_2.index t (1 : Fin 2) * 1024 + 1 * q.val; omega
    | ⟨1, _⟩ => show win2_1.index t (1 : Fin 2) * 64 + 1 * k.val = k.val; omega
  have a0 : (blk2 V c 0 t (ix2 p k) : EReal)
      = (V c main_v57 : S16384x64.Idx → EReal) (ix2 ((((cfg2.win 2).blk t).view.emb (ix2 p q)) 0) k) :=
    congrArg (V c main_v57 : S16384x64.Idx → EReal) h0
  have a1 : (blk2 V c 1 t (ix2 q k) : EReal)
      = (V c main_v57 : S16384x64.Idx → EReal) (ix2 ((((cfg2.win 2).blk t).view.emb (ix2 p q)) 1) k) :=
    congrArg (V c main_v57 : S16384x64.Idx → EReal) h1
  exact congrArg₂ (fun (u v : EReal) => u * v) a0 a1

/-- An index of the result is in point `t`'s tile iff each coordinate is in the tile's range on its axis. -/
theorem mem_blk2 (t : Fin cfg2.N) (i : S16384x16384.Idx) :
    i ∈ ((cfg2.win 2).blk t).view.set ↔ ∀ a : Fin 2, win2_2.index t a * S2048x1024.size a ≤ (i a).val
      ∧ (i a).val < win2_2.index t a * S2048x1024.size a + S2048x1024.size a := by
  show i ∈ ((View.whole main_v58).slice (win2_2.rect t)).set ↔ _
  rw [View.set_slice_whole, Rect.mem_set_unit]
  exact Iff.rfl

/-- Every index of the result is in the tile of the point its row and column blocks name: `(r, s)` is written at point
    `(r / 2048) · 16 + s / 1024`. -/
theorem cover2 (i : S16384x16384.Idx) :
    ∃ t : Fin cfg2.N, (cfg2.win 2).flush t = true ∧ i ∈ ((cfg2.win 2).blk t).view.set := by
  have hi0 : (i 0).val < 16384 := (i 0).isLt
  have hi1 : (i 1).val < 16384 := (i 1).isLt
  have hN : grid2.N = 128 := N_2
  have ht : (i 0).val / 2048 * 16 + (i 1).val / 1024 < cfg2.N := by
    show (i 0).val / 2048 * 16 + (i 1).val / 1024 < grid2.N; omega
  refine ⟨⟨(i 0).val / 2048 * 16 + (i 1).val / 1024, ht⟩, flush2_2 _, ?_⟩
  rw [mem_blk2]
  obtain ⟨-, -, -, -, e4, e5⟩ := idx_facts2 ⟨(i 0).val / 2048 * 16 + (i 1).val / 1024, ht⟩
  have e4' : win2_2.index ⟨(i 0).val / 2048 * 16 + (i 1).val / 1024, ht⟩ (0 : Fin 2)
      = ((i 0).val / 2048 * 16 + (i 1).val / 1024) / 16 := e4
  have e5' : win2_2.index ⟨(i 0).val / 2048 * 16 + (i 1).val / 1024, ht⟩ (1 : Fin 2)
      = ((i 0).val / 2048 * 16 + (i 1).val / 1024) % 16 := e5
  intro a
  match a with
  | ⟨0, _⟩ =>
    show win2_2.index ⟨(i 0).val / 2048 * 16 + (i 1).val / 1024, ht⟩ (0 : Fin 2) * 2048 ≤ (i 0).val
      ∧ (i 0).val < win2_2.index ⟨(i 0).val / 2048 * 16 + (i 1).val / 1024, ht⟩ (0 : Fin 2) * 2048 + 2048
    omega
  | ⟨1, _⟩ =>
    show win2_2.index ⟨(i 0).val / 2048 * 16 + (i 1).val / 1024, ht⟩ (1 : Fin 2) * 1024 ≤ (i 1).val
      ∧ (i 1).val < win2_2.index ⟨(i 0).val / 2048 * 16 + (i 1).val / 1024, ht⟩ (1 : Fin 2) * 1024 + 1024
    omega

/-- THE DECODER'S RESULT after the call, whatever the arrays held on entry. -/
theorem call2_array (c : Dev nD) : (dat2 V c).arrAt 2 cfg2.N = decoded (V c main_v57) :=
  (dat2 V c).arrAt_eq_of_cover 2 _ (fun t _ => flushed2_eq V c t) cover2

/-- The same at an index (`decoded_apply` opens the right side as `logistic (∑ k, z[p, k] · z[q, k])`). -/
theorem call2_value (c : Dev nD) (p q : Fin 16384) :
    (dat2 V c).arrAt 2 cfg2.N (ix2 p q) = decoded (V c main_v57) (ix2 p q) :=
  congrFun (call2_array V c) (ix2 p q)

end Cert.KernelIdeal.RgValue

end
-- ==== Proof.CallsAgainstReference.lean ====
/-
  The three calls' results against the reference's stages.

  Each call's result array is one function of the arrays the call reads (the blocks-to-arrays module); each of the
  reference's corresponding stages is a product read at an index as a sum over the contracted coordinate.  When the arrays
  a call reads ARE the reference's earlier stages, the two sums agree term by term: the reference scales a row by a column
  broadcast along the lanes, the kernel by the column itself; the fused weight's lanes below 64 are the first head's and
  lanes 64 … 127 the second's; and the decoder's negate, exponential, add and divide are the logistic function.
-/
import proofs.«110445_j79267916415284_2_alg».proof.Proof.Between
import proofs.«110445_j79267916415284_2_alg».proof.Proof.CallValues
import proofs.«110445_j79267916415284_2_alg».proof.Proof.FusedLayer
import proofs.«110445_j79267916415284_2_alg».proof.Proof.Gen.ReferenceIdeal.Read

noncomputable section

namespace Cert.KernelIdeal.Stages2

open Idealize.ShloMosaic Idealize.ShloMosaic.TcCoe Idealize.ShloMosaic.ValueIdx Idealize.SL.Sem
open Cert.KernelIdeal Cert.KernelIdeal.Gen Cert.KernelIdeal.Rg Cert.KernelIdeal.RgValue
open Cert.ReferenceIdeal.Read

/-! ## The stages as values: the reference's products against the calls' functions -/

section Values

variable (x0 : (⟨Cert.ReferenceIdeal.S16384x512, .f32⟩ : BufTy).Contents (Elt Ideal))
  (x1 x2 : (⟨Cert.ReferenceIdeal.S524288, .i32⟩ : BufTy).Contents (Elt Ideal))
  (x3 : (⟨Cert.ReferenceIdeal.S16384x64, .f32⟩ : BufTy).Contents (Elt Ideal))
  (x4 : (⟨Cert.ReferenceIdeal.S512x256, .f32⟩ : BufTy).Contents (Elt Ideal))
  (x5 : (⟨Cert.ReferenceIdeal.S256, .f32⟩ : BufTy).Contents (Elt Ideal))
  (x6 : (⟨Cert.ReferenceIdeal.S256x64, .f32⟩ : BufTy).Contents (Elt Ideal))
  (x7 : (⟨Cert.ReferenceIdeal.S64, .f32⟩ : BufTy).Contents (Elt Ideal))
  (x8 : (⟨Cert.ReferenceIdeal.S256x64, .f32⟩ : BufTy).Contents (Elt Ideal))
  (x9 : (⟨Cert.ReferenceIdeal.S64, .f32⟩ : BufTy).Contents (Elt Ideal))

/-- The first projection of the features, scaled by the degree column, is the reference's first product. -/
theorem scaled0_eq_stage : scaled0 x0 (val_main_v15 (F := Ideal) x1) x4 = val_main_v18 (F := Ideal) x0 x1 x4 := by
  funext i
  obtain ⟨p, q, rfl⟩ : ∃ (p : Fin 16384) (q : Fin 256), i = ix2 p q := ⟨i 0, i 1, eq_ix2 i⟩
  refine (scaled0_apply x0 _ x4 p q).trans ((val_main_v18_apply x0 x1 x4 (ix2 p q)).trans ?_).symm
  refine Finset.sum_congr rfl fun k _ => ?_
  have hl : lidx_main_v18 (ix2 p q) k = ix2 p k := funext fun a => by
    match a with
    | ⟨0, _⟩ => rfl
    | ⟨1, _⟩ => rfl
  have hr : ridx_main_v18 (ix2 p q) k = ix2 k q := funext fun a => by
    match a with
    | ⟨0, _⟩ => rfl
    | ⟨1, _⟩ => rfl
  have hb : idx_main_v16 (ix2 p k) = ix2 p (0 : Fin 1) := funext fun a => by
    match a with
    | ⟨0, _⟩ => rfl
    | ⟨1, _⟩ => rfl
  rw [hl, hr, val_main_v17_apply, val_main_v16_apply, hb]
  rfl

/-- The reference broadcasts the degree vector to a column three times: one array. -/
theorem col36_eq : val_main_v36 (F := Ideal) x1 = val_main_v15 (F := Ideal) x1 := rfl
theorem col56_eq : val_main_v56 (F := Ideal) x1 = val_main_v15 (F := Ideal) x1 := rfl

/-- Lanes `0 … 63` of the fused projection of the hidden rows are the reference's product with the first head's weight. -/
theorem scaled1_lo_eq_stage (i : Fin 16384) (j : Fin 64) :
    scaled1 (val_main_v35 (F := Ideal) x0 x1 x2 x4 x5) (val_main_v15 (F := Ideal) x1)
        (concatenate Cert.KernelIdeal.S256x128 1 [⟨Cert.KernelIdeal.S256x64, x6⟩, ⟨Cert.KernelIdeal.S256x64, x8⟩]
          Cert.KernelIdeal.Facts₀.concatenates_S256x64_S256x64_S256x128_d1)
        (ix2 i (⟨j.val, Nat.lt_of_lt_of_le j.isLt (by decide)⟩ : Fin 128))
      = val_main_v39 (F := Ideal) x0 x1 x2 x4 x5 x6 (ix2 i j) := by
  refine (scaled1_apply _ _ _ i _).trans ((val_main_v39_apply x0 x1 x2 x4 x5 x6 (ix2 i j)).trans ?_).symm
  refine Finset.sum_congr rfl fun k _ => ?_
  have hl : lidx_main_v39 (ix2 i j) k = ix2 i k := funext fun a => by
    match a with
    | ⟨0, _⟩ => rfl
    | ⟨1, _⟩ => rfl
  have hr : ridx_main_v39 (ix2 i j) k = ix2 k j := funext fun a => by
    match a with
    | ⟨0, _⟩ => rfl
    | ⟨1, _⟩ => rfl
  have hb : idx_main_v37 (ix2 i k) = ix2 i (0 : Fin 1) := funext fun a => by
    match a with
    | ⟨0, _⟩ => rfl
    | ⟨1, _⟩ => rfl
  rw [hl, hr, val_main_v38_apply, val_main_v37_apply, hb, Cert.Sparse.fused_weights_lo x6 x8 k j]
  rfl

/-- Lanes `64 … 127` are the reference's product with the second head's weight. -/
theorem scaled1_hi_eq_stage (i : Fin 16384) (j : Fin 64) :
    scaled1 (val_main_v35 (F := Ideal) x0 x1 x2 x4 x5) (val_main_v15 (F := Ideal) x1)
        (concatenate Cert.KernelIdeal.S256x128 1 [⟨Cert.KernelIdeal.S256x64, x6⟩, ⟨Cert.KernelIdeal.S256x64, x8⟩]
          Cert.KernelIdeal.Facts₀.concatenates_S256x64_S256x64_S256x128_d1)
        (ix2 i (⟨64 + j.val, Nat.add_lt_add_left j.isLt 64⟩ : Fin 128))
      = val_main_v59 (F := Ideal) x0 x1 x2 x4 x5 x8 (ix2 i j) := by
  refine (scaled1_apply _ _ _ i _).trans ((val_main_v59_apply x0 x1 x2 x4 x5 x8 (ix2 i j)).trans ?_).symm
  refine Finset.sum_congr rfl fun k _ => ?_
  have hl : lidx_main_v59 (ix2 i j) k = ix2 i k := funext fun a => by
    match a with
    | ⟨0, _⟩ => rfl
    | ⟨1, _⟩ => rfl
  have hr : ridx_main_v59 (ix2 i j) k = ix2 k j := funext fun a => by
    match a with
    | ⟨0, _⟩ => rfl
    | ⟨1, _⟩ => rfl
  have hb : idx_main_v57 (ix2 i k) = ix2 i (0 : Fin 1) := funext fun a => by
    match a with
    | ⟨0, _⟩ => rfl
    | ⟨1, _⟩ => rfl
  rw [hl, hr, val_main_v58_apply, val_main_v57_apply, hb, Cert.Sparse.fused_weights_hi x6 x8 k j]
  rfl

/-- The decoder of the reference's latent array is the reference's last stage. -/
theorem decoded_eq_stage :
    decoded (val_main_v78 (F := Ideal) x0 x1 x2 x3 x4 x5 x6 x7 x8 x9)
      = val_main_v86 (F := Ideal) x0 x1 x2 x3 x4 x5 x6 x7 x8 x9 := by
  funext i
  obtain ⟨p, q, rfl⟩ : ∃ (p q : Fin 16384), i = ix2 p q := ⟨i 0, i 1, eq_ix2 i⟩
  exact (Cert.Dense.ref_decode (val_main_v78 (F := Ideal) x0 x1 x2 x3 x4 x5 x6 x7 x8 x9) p q).symm

end Values

/-! ## The calls' results, when the arrays they read are the reference's stages -/

section Calls

variable (m : (ℓ : Loc nD τ sig) → Buf (Elt Ideal) ℓ)

/-- THE FIRST CALL: reading the features, the reference's degree column and the first weight, it leaves the reference's
    first product. -/
theorem call0_against (c : Dev nD)
    (h15 : In0 m c main_v15 = val_main_v15 (F := Ideal) (m ((c : Thread nD τ).loc main_arg1))) :
    res0 m c = val_main_v18 (F := Ideal) (m ((c : Thread nD τ).loc main_arg0)) (m ((c : Thread nD τ).loc main_arg1))
      (m ((c : Thread nD τ).loc main_arg4)) := by
  have e0 : In0 m c main_arg0 = m ((c : Thread nD τ).loc main_arg0) := (V1_of m c main_arg0 (by decide)).trans rfl
  have e4 : In0 m c main_arg4 = m ((c : Thread nD τ).loc main_arg4) := (V1_of m c main_arg4 (by decide)).trans rfl
  unfold res0
  rw [call0_array, e0, e4, h15]
  exact scaled0_eq_stage _ _ _

/-- THE SECOND CALL: reading the reference's hidden rows, its degree column and the two heads' weights side by side, it
    leaves the first head's product in lanes `0 … 63` and the second's in lanes `64 … 127`. -/
theorem call1_against (c : Dev nD)
    (h33 : In1 m c main_v33 = val_main_v35 (F := Ideal) (m ((c : Thread nD τ).loc main_arg0))
      (m ((c : Thread nD τ).loc main_arg1)) (m ((c : Thread nD τ).loc main_arg2)) (m ((c : Thread nD τ).loc main_arg4))
      (m ((c : Thread nD τ).loc main_arg5)))
    (h15 : In1 m c main_v15 = val_main_v15 (F := Ideal) (m ((c : Thread nD τ).loc main_arg1)))
    (h34 : In1 m c main_v34 = concatenate S256x128 1 [⟨S256x64, m ((c : Thread nD τ).loc main_arg6)⟩,
      ⟨S256x64, m ((c : Thread nD τ).loc main_arg8)⟩] Facts₀.concatenates_S256x64_S256x64_S256x128_d1) :
    (∀ (i : Fin 16384) (j : Fin 64),
      res1 m c (ix2 i (⟨j.val, Nat.lt_of_lt_of_le j.isLt (by decide)⟩ : Fin 128))
        = val_main_v39 (F := Ideal) (m ((c : Thread nD τ).loc main_arg0)) (m ((c : Thread nD τ).loc main_arg1))
            (m ((c : Thread nD τ).loc main_arg2)) (m ((c : Thread nD τ).loc main_arg4)) (m ((c : Thread nD τ).loc main_arg5))
            (m ((c : Thread nD τ).loc main_arg6)) (ix2 i j))
    ∧ (∀ (i : Fin 16384) (j : Fin 64),
      res1 m c (ix2 i (⟨64 + j.val, Nat.add_lt_add_left j.isLt 64⟩ : Fin 128))
        = val_main_v59 (F := Ideal) (m ((c : Thread nD τ).loc main_arg0)) (m ((c : Thread nD τ).loc main_arg1))
            (m ((c : Thread nD τ).loc main_arg2)) (m ((c : Thread nD τ).loc main_arg4)) (m ((c : Thread nD τ).loc main_arg5))
            (m ((c : Thread nD τ).loc main_arg8)) (ix2 i j)) := by
  have e : res1 m c = scaled1 (In1 m c main_v33) (In1 m c main_v15) (In1 m c main_v34) := by
    unfold res1; exact call1_array (In1 m) c
  rw [e, h33, h15, h34]
  exact ⟨fun i j => scaled1_lo_eq_stage _ _ _ _ _ _ _ i j, fun i j => scaled1_hi_eq_stage _ _ _ _ _ _ _ i j⟩

/-- THE THIRD CALL: reading the reference's latent array, it leaves the reference's decoder output. -/
theorem call2_against (c : Dev nD)
    (h57 : ∀ i, In2 m c main_v57 i = val_main_v78 (F := Ideal) (m ((c : Thread nD τ).loc main_arg0))
      (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6))
      (m ((c : Thread nD τ).loc main_arg7)) (m ((c : Thread nD τ).loc main_arg8)) (m ((c : Thread nD τ).loc main_arg9)) i) :
    res2 m c = val_main_v86 (F := Ideal) (m ((c : Thread nD τ).loc main_arg0))
      (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6))
      (m ((c : Thread nD τ).loc main_arg7)) (m ((c : Thread nD τ).loc main_arg8)) (m ((c : Thread nD τ).loc main_arg9)) := by
  have e : res2 m c = decoded (In2 m c main_v57) := by
    unfold res2; exact call2_array (In2 m) c
  rw [e]
  refine (congrArg decoded (funext h57)).trans ?_
  exact decoded_eq_stage _ _ _ _ _ _ _ _ _ _

end Calls

end Cert.KernelIdeal.Stages2

end
-- ==== Proof.Results.lean ====
/-
  What the idealized kernel's two results hold, as the reference's own stage functions of the arguments. Walk the program: the
  degree norms are the same operations in both programs; the first call's array is the reference's first dot product; the host
  operations after it are the reference's; the second call's 128 columns are the reference's two 64-column dot products side by
  side; the fused layer's two column slices are the reference's two layers; the latent array follows by the same three
  operations; the decode call's array is the reference's logistic of z zᵀ.
-/
import proofs.«110445_j79267916415284_2_alg».proof.Proof.KernelStages
import proofs.«110445_j79267916415284_2_alg».proof.Proof.CallsAgainstReference

noncomputable section

namespace Cert.KernelIdeal.Stages

open Idealize.ShloMosaic Idealize.ShloMosaic.TcCoe Idealize.ShloMosaic.ValueIdx
open Cert.KernelIdeal Cert.KernelIdeal.Gen Cert.KernelIdeal.Rg Cert.KernelIdeal.Stages2

variable (m : (ℓ : Loc nD τ sig) → Buf (Elt Ideal) ℓ) (c : Dev nD)

/-- The first call's array is the reference's first projection. -/
theorem first_projection : res0 m c = Cert.ReferenceIdeal.Read.val_main_v18 (F := Ideal) (m ((c.tc : Thread nD τ).loc main_arg0)) (m ((c.tc : Thread nD τ).loc main_arg1)) (m ((c.tc : Thread nD τ).loc main_arg4)) :=
  call0_against m c (V1_main_v15 m c)

/-- The second call's array holds the reference's mean projection in its first 64 columns and its log-std projection in the
    last 64. -/
theorem second_projection :
    (∀ (i : Fin 16384) (j : Fin 64), res1 m c (ix2 i (⟨j.val, Nat.lt_of_lt_of_le j.isLt (by decide)⟩ : Fin 128)) = Cert.ReferenceIdeal.Read.val_main_v39 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (ix2 i j))
    ∧ (∀ (i : Fin 16384) (j : Fin 64), res1 m c (ix2 i (⟨64 + j.val, Nat.add_lt_add_left j.isLt 64⟩ : Fin 128)) = Cert.ReferenceIdeal.Read.val_main_v59 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg8)) (ix2 i j)) :=
  call1_against m c (In1_main_v33 m c (first_projection m c)) (In1_main_v15 m c) (In1_main_v34 m c)

/-- The latent array before the decode call is the reference's. -/
theorem latent_before_decode : V7 m (leavesB m) c main_v56 = Cert.ReferenceIdeal.Read.val_main_v78 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) :=
  V7_main_v56 m c (second_projection m c).1 (second_projection m c).2

/-- The latent result at the end: the decode call does not write it. -/
theorem latent_result : V8 m (leavesC m) c main_v56 = Cert.ReferenceIdeal.Read.val_main_v78 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) :=
  ((V8_of m (leavesC m) c main_v56 (by decide)).trans (congrFun (V7_leaves m c) _)).trans (latent_before_decode m c)

/-- The decoded result at the end: what the decode call's grid points wrote. -/
theorem decode_result : V8 m (leavesC m) c main_v58 = Cert.ReferenceIdeal.Read.val_main_v86 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  have h2 := call2_against m c (fun i => (congrFun (In2_main_v57 m c) i).trans (congrFun (latent_before_decode m c) i))
  have e : V8 m (leavesC m) c main_v58 = res2 m c := by
    show Function.update (V7 m (leavesC m) c) main_v58 (leavesC m 8 main_v58 c) main_v58 = res2 m c
    rw [Function.update_self]; exact leaves_58 m _ _ _ 8 c
  exact e.trans h2

end Cert.KernelIdeal.Stages

end
-- ==== Proof.lean ====
/-
  The certificate: the kernel program (as printed, and idealized) and the idealized reference each run to the end without a
  fault and leave their arguments unchanged; and over the extended reals the idealized kernel and the reference compute the
  same two results — the latent array z and the decoded matrix of logistic inner products of its rows.

  The kernel is three tiled calls among host operations. Each call's body is a matrix product of blocks; every grid point
  writes one block of the call's result, and the blocks tile it, so each result array is one whole-array function of the
  call's operands. The two projection calls are the reference's dot products with the row scale moved inside the sum; the
  kernel's fused second layer (one 128-wide projection, gather and segment sum, then two column slices) is the reference's two
  64-wide layers, column by column; the decode call's blocks are the reference's z zᵀ followed by the logistic function. No
  step needs more than re-indexing sums, so finiteness of the inputs is never used.
-/
import proofs.«110445_j79267916415284_2_alg».proof.Defs
import proofs.«110445_j79267916415284_2_alg».proof.Proof.Gen.Kernel
import proofs.«110445_j79267916415284_2_alg».proof.Proof.Gen.KernelIdeal
import proofs.«110445_j79267916415284_2_alg».proof.Proof.Gen.ReferenceIdeal
import proofs.«110445_j79267916415284_2_alg».proof.Proof.Gen.Pre_finite_inputs
import proofs.«110445_j79267916415284_2_alg».proof.Proof.Gen.ReferenceIdeal.Run
import proofs.«110445_j79267916415284_2_alg».proof.Proof.Gen.ReferenceIdeal.Read
import proofs.«110445_j79267916415284_2_alg».proof.Proof.WCalls
import proofs.«110445_j79267916415284_2_alg».proof.Proof.Calls
import proofs.«110445_j79267916415284_2_alg».proof.Proof.ValueRun
import proofs.«110445_j79267916415284_2_alg».proof.Proof.Results
import Idealize.ShloMosaic.Adequacy
import Idealize.ShloMosaic.Init

noncomputable section

namespace Cert.Proof

open Idealize.ShloMosaic Idealize.SL.Sem

theorem frame_kernel [Cert.Kernel.Facts] [Cert.Pre_finite_inputs.Facts] : Cert.frame_Kernel :=
  fun m ρ _ => Cert.Kernel.Rg.frame m ρ

theorem frame_kernel_ideal [Cert.KernelIdeal.Facts] [Cert.Pre_finite_inputs.Facts] : Cert.frame_KernelIdeal :=
  fun m ρ _ => Cert.KernelIdeal.Rg.frame m ρ

/-- The reference has no call: its frame is its run with the results dropped. -/
theorem frame_reference [Cert.ReferenceIdeal.Facts] [Cert.Pre_finite_inputs.Facts] : Cert.frame_ReferenceIdeal :=
  fun m ρ _ => (θ_run Cert.ReferenceIdeal.defs _ _).mono (fun _ h c => (h c).2.2) (Cert.ReferenceIdeal.Value.run (F := Ideal) m ρ)

/-- Both runs end with the decoded matrix and the latent array at the reference's stage functions of the arguments. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.ReferenceIdeal.Value.res_main_v86 m' c, fun c => Cert.ReferenceIdeal.Value.res_main_v78 m' c, ?_, ?_⟩
  · refine (θ_run Cert.KernelIdeal.defs _ _).mono (fun _ h c => ⟨(h c).1.trans ?_, (h c).2.1.trans ?_, (h c).2.2⟩)
      (Cert.KernelIdeal.Rg.run m ρ)
    · show _ = Cert.ReferenceIdeal.Value.res_main_v86 m' c
      rw [Cert.ReferenceIdeal.Read.val_main_v86_eq, (hagree c).1, (hagree c).2.1, (hagree c).2.2.1, (hagree c).2.2.2.1,
        (hagree c).2.2.2.2.1, (hagree c).2.2.2.2.2.1, (hagree c).2.2.2.2.2.2.1, (hagree c).2.2.2.2.2.2.2.1,
        (hagree c).2.2.2.2.2.2.2.2.1, (hagree c).2.2.2.2.2.2.2.2.2]
      exact Cert.KernelIdeal.Stages.decode_result m c
    · show _ = Cert.ReferenceIdeal.Value.res_main_v78 m' c
      rw [Cert.ReferenceIdeal.Read.val_main_v78_eq, (hagree c).1, (hagree c).2.1, (hagree c).2.2.1, (hagree c).2.2.2.1,
        (hagree c).2.2.2.2.1, (hagree c).2.2.2.2.2.1, (hagree c).2.2.2.2.2.2.1, (hagree c).2.2.2.2.2.2.2.1,
        (hagree c).2.2.2.2.2.2.2.2.1, (hagree c).2.2.2.2.2.2.2.2.2]
      exact Cert.KernelIdeal.Stages.latent_result m c
  · exact Cert.ReferenceIdeal.Value.run (F := Ideal) m' ρ'

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
